-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000x64 : Shape := ⟨2, ![800000, 64]⟩
abbrev S64x64 : Shape := ⟨2, ![64, 64]⟩
abbrev S2x800000 : Shape := ⟨2, ![2, 800000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S100000x64 .f32) (main_arg1 : FVec F S800000x64 .f32) (main_arg2 : FVec F S64x64 .f32) (main_arg3 : FVec F S64x64 .f32) (main_arg4 : FVec F S64x64 .f32) (main_arg5 : FVec F S64x64 .f32) (main_arg6 : IVec S2x800000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S100000x64 : Shape := ⟨2, ![100000, 64]⟩
abbrev S800000x64 : Shape := ⟨2, ![800000, 64]⟩
abbrev S64x64 : Shape := ⟨2, ![64, 64]⟩
abbrev S2x800000 : Shape := ⟨2, ![2, 800000]⟩
abbrev S64x192 : Shape := ⟨2, ![64, 192]⟩
abbrev S100000x192 : Shape := ⟨2, ![100000, 192]⟩
abbrev S5000x64 : Shape := ⟨2, ![5000, 64]⟩
abbrev S5000x192 : Shape := ⟨2, ![5000, 192]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x128 : Shape := ⟨2, ![100000, 128]⟩
abbrev S800000x128 : Shape := ⟨2, ![800000, 128]⟩
abbrev S800000x68 : Shape := ⟨2, ![800000, 68]⟩
abbrev S8000x128 : Shape := ⟨2, ![8000, 128]⟩
abbrev S8000x64 : Shape := ⟨2, ![8000, 64]⟩
abbrev S8000x68 : Shape := ⟨2, ![8000, 68]⟩
abbrev S8000x16 : Shape := ⟨2, ![8000, 16]⟩
abbrev S8000 : Shape := ⟨1, ![8000]⟩
abbrev S8000x1 : Shape := ⟨2, ![8000, 1]⟩
abbrev S8000x4 : Shape := ⟨2, ![8000, 4]⟩
abbrev S100000x68 : Shape := ⟨2, ![100000, 68]⟩
abbrev S100000x4 : Shape := ⟨2, ![100000, 4]⟩
abbrev S100000x1 : Shape := ⟨2, ![100000, 1]⟩
abbrev S100000x16 : Shape := ⟨2, ![100000, 16]⟩

abbrev nBuf : Space → Nat
  | .hbm => 59
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S800000x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S2x800000, .i32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x192, .f32⟩
  | .hbm, ⟨11, _⟩ => ⟨S64x192, .bf16⟩
  | .hbm, ⟨12, _⟩ => ⟨S100000x192, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S100000x64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S100000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S64x64, .f32⟩
  | .hbm, ⟨38, _⟩ => ⟨S64x64, .bf16⟩
  | .hbm, ⟨39, _⟩ => ⟨S800000x68, .f32⟩
  | .hbm, ⟨40, _⟩ => ⟨S_, .f32⟩
  | .hbm, ⟨41, _⟩ => ⟨S100000x68, .f32⟩
  | .hbm, ⟨42, _⟩ => ⟨S800000x1, .i32⟩
  | .hbm, ⟨43, _⟩ => ⟨S100000x68, .f32⟩
  | .hbm, ⟨44, _⟩ => ⟨S100000x64, .f32⟩
  | .hbm, ⟨45, _⟩ => ⟨S100000x4, .f32⟩
  | .hbm, ⟨46, _⟩ => ⟨S100000x1, .f32⟩
  | .hbm, ⟨47, _⟩ => ⟨S100000x16, .f32⟩
  | .hbm, ⟨48, _⟩ => ⟨S100000x1, .f32⟩
  | .hbm, ⟨49, _⟩ => ⟨S100000x16, .f32⟩
  | .hbm, ⟨50, _⟩ => ⟨S100000x1, .f32⟩
  | .hbm, ⟨51, _⟩ => ⟨S100000x16, .f32⟩
  | .hbm, ⟨52, _⟩ => ⟨S100000x1, .f32⟩
  | .hbm, ⟨53, _⟩ => ⟨S100000x16, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x192, .bf16⟩
  | .local _ .vmem, ⟨3, _⟩ => ⟨S5000x192, .f32⟩
  | .local _ .vmem, ⟨4, _⟩ => ⟨S5000x192, .f32⟩
  | .local _ .vmem, ⟨5, _⟩ => ⟨S8000x128, .f32⟩
  | .local _ .vmem, ⟨6, _⟩ => ⟨S8000x128, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S64x64, .bf16⟩
  | .local _ .vmem, ⟨12, _⟩ => ⟨S8000x68, .f32⟩
  | .local _ .vmem, ⟨13, _⟩ => ⟨S8000x68, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x68 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S64x64_S64x64_1_0 : S64x64.Transposes [1, 0] S64x64
  concatenates_S64x64_S64x64_S64x64_S64x192_d1 : Shape.Concatenates [S64x64, S64x64, S64x64] S64x192 1
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S5000x192_S5000x192_0_0 : ∀ a, (![0, 0] : Fin 2 → Nat) a + S5000x192.size a ≤ S5000x192.size a
  h_S5000x192 : 0 < S5000x192.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S100000x192_S100000x64_0_0 : S100000x192.Slices ![0, 0] S100000x64
  bcast_S_S800000 : S_.BroadcastsInDim S800000 (![] : Fin 0 → Fin S800000.rank)
  bcast_S800000_S800000x1_0 : S800000.BroadcastsInDim S800000x1 (![0] : Fin 1 → Fin S800000x1.rank)
  slices_S100000x192_S100000x128_0_64 : S100000x192.Slices ![0, 64] S100000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  slices_S8000x128_o0_0_S8000x64 : S8000x128.Slices ![0, 0] S8000x64
  slices_S8000x128_o0_64_S8000x64 : S8000x128.Slices ![0, 64] S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S8000x64_o0_0_S8000x16 : S8000x64.Slices ![0, 0] S8000x16
  reduces_S8000x16_S8000 : S8000x16.Reduces [1] S8000
  shapeCasts_S8000_S8000x1 : S8000.ShapeCasts S8000x1
  slices_S8000x64_o0_16_S8000x16 : S8000x64.Slices ![0, 16] S8000x16
  slices_S8000x64_o0_32_S8000x16 : S8000x64.Slices ![0, 32] S8000x16
  slices_S8000x64_o0_48_S8000x16 : S8000x64.Slices ![0, 48] S8000x16
  concatenates_S8000x1_S8000x1_S8000x1_S8000x1_S8000x4_d1 : Shape.Concatenates [S8000x1, S8000x1, S8000x1, S8000x1] S8000x4 1
  slices_S8000x4_o0_0_S8000x1 : S8000x4.Slices ![0, 0] S8000x1
  shapeCasts_S8000x1_S8000x1 : S8000x1.ShapeCasts S8000x1
  broadcasts_S8000x1_S8000x16 : S8000x1.Broadcasts S8000x16
  slices_S8000x4_o0_1_S8000x1 : S8000x4.Slices ![0, 1] S8000x1
  slices_S8000x4_o0_2_S8000x1 : S8000x4.Slices ![0, 2] S8000x1
  slices_S8000x4_o0_3_S8000x1 : S8000x4.Slices ![0, 3] S8000x1
  concatenates_S8000x16_S8000x16_S8000x16_S8000x16_S8000x64_d1 : Shape.Concatenates [S8000x16, S8000x16, S8000x16, S8000x16] S8000x64 1
  concatenates_S8000x64_S8000x4_S8000x68_d1 : Shape.Concatenates [S8000x64, S8000x4] S8000x68 1
  inb_S8000x68_S8000x68_0_0 : ∀ a, (![0, 0] : Fin 2 → Nat) a + S8000x68.size a ≤ S8000x68.size a
  h_S8000x68 : 0 < S8000x68.numel
  bcast_S_S100000x68 : S_.BroadcastsInDim S100000x68 (![] : Fin 0 → Fin S100000x68.rank)
  slices_S100000x68_S100000x64_0_0 : S100000x68.Slices ![0, 0] S100000x64
  slices_S100000x68_S100000x4_0_64 : S100000x68.Slices ![0, 64] S100000x4
  slices_S100000x4_S100000x1_0_0 : S100000x4.Slices ![0, 0] S100000x1
  bcast_S100000x1_S100000x16_0_1 : S100000x1.BroadcastsInDim S100000x16 (![0, 1] : Fin 2 → Fin S100000x16.rank)
  slices_S100000x4_S100000x1_0_1 : S100000x4.Slices ![0, 1] S100000x1
  slices_S100000x4_S100000x1_0_2 : S100000x4.Slices ![0, 2] S100000x1
  slices_S100000x4_S100000x1_0_3 : S100000x4.Slices ![0, 3] S100000x1
  concatenates_S100000x16_S100000x16_S100000x16_S100000x16_S100000x64_d1 : Shape.Concatenates [S100000x16, S100000x16, S100000x16, S100000x16] S100000x64 1
  bcast_S_S100000x64 : S_.BroadcastsInDim S100000x64 (![] : Fin 0 → Fin S100000x64.rank)
  dot_S5000x64_S64x192_S5000x192_1_0_0_1_n_n_wf : DotDims.WF S5000x64 S64x192 S5000x192 [1] [0] [0] [1] [] []
  gather_S100000x64_S800000x1_S800000x64_1_0_n_n_0_1_164_wf : GatherDims.WF S100000x64 S800000x1 S800000x64 [1] [0] [] [0] [] 1 ![1, 64]
  gather_S100000x128_S800000x1_S800000x128_1_0_n_n_0_1_1128_wf : GatherDims.WF S100000x128 S800000x1 S800000x128 [1] [0] [] [0] [] 1 ![1, 128]
  dot_S8000x64_S64x64_S8000x64_1_0_0_1_n_n_wf : DotDims.WF S8000x64 S64x64 S8000x64 [1] [0] [0] [1] [] []
  scatter_S100000x68_S800000x1_S800000x68_1_0_0_1_wf : ScatterDims.WF S100000x68 S800000x1 S800000x68 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .bf16 = 32 ∨ (Rect.block (s := S64x192) S64x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x192.size a ≤ S100000x192.size a
  hwx0_2 : ∀ i : grid0.Coords, EltTy.bits .f32 = 32 ∨ (Rect.block (s := S100000x192) S5000x192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .f32 = 32 ∨ (Rect.block (s := S800000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x68.size a ≤ S800000x68.size a
  hwx1_4 : ∀ i : grid1.Coords, EltTy.bits .f32 = 32 ∨ (Rect.block (s := S800000x68) S8000x68.size (cc1_transform_4 i) (hinb1_4 i)).WholeWords (EltTy.packing .f32)

variable [Facts₀]

def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x68_S800000x1_S800000x68_1_0_0_1 : ScatterDims S100000x68 S800000x1 S800000x68 where
  updateWindowDims := [1]
  insertedWindowDims := [0]
  scatterDimsToOperandDims := [0]
  indexVectorDim := 1
  wf := scatter_S100000x68_S800000x1_S800000x68_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S8000x68.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S800000x64 : Shape := ⟨2, ![800000, 64]⟩
abbrev S64x64 : Shape := ⟨2, ![64, 64]⟩
abbrev S2x800000 : Shape := ⟨2, ![2, 800000]⟩
abbrev S100000x4x16 : Shape := ⟨3, ![100000, 4, 16]⟩
abbrev S800000x4x16 : Shape := ⟨3, ![800000, 4, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x4 : Shape := ⟨2, ![800000, 4]⟩
abbrev S800000x4x1 : Shape := ⟨3, ![800000, 4, 1]⟩
abbrev S100000x4x1 : Shape := ⟨3, ![100000, 4, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S800000x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S2x800000, .i32⟩
  | .hbm, ⟨7, _⟩ => ⟨S64x64, .f32⟩
  | .hbm, ⟨8, _⟩ => ⟨S100000x64, .f32⟩
  | .hbm, ⟨9, _⟩ => ⟨S100000x4x16, .f32⟩
  | .hbm, ⟨10, _⟩ => ⟨S64x64, .f32⟩
  | .hbm, ⟨11, _⟩ => ⟨S100000x64, .f32⟩
  | .hbm, ⟨12, _⟩ => ⟨S100000x4x16, .f32⟩
  | .hbm, ⟨13, _⟩ => ⟨S64x64, .f32⟩
  | .hbm, ⟨14, _⟩ => ⟨S100000x64, .f32⟩
  | .hbm, ⟨15, _⟩ => ⟨S100000x4x16, .f32⟩
  | .hbm, ⟨16, _⟩ => ⟨S64x64, .f32⟩
  | .hbm, ⟨17, _⟩ => ⟨S800000x64, .f32⟩
  | .hbm, ⟨18, _⟩ => ⟨S800000x4x16, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x4x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x4x16, .f32⟩
  | .hbm, ⟨41, _⟩ => ⟨S800000x4x16, .f32⟩
  | .hbm, ⟨42, _⟩ => ⟨S_, .f32⟩
  | .hbm, ⟨43, _⟩ => ⟨S800000x4x16, .f32⟩
  | .hbm, ⟨44, _⟩ => ⟨S800000x4x16, .f32⟩
  | .hbm, ⟨45, _⟩ => ⟨S800000x4x16, .f32⟩
  | .hbm, ⟨46, _⟩ => ⟨S_, .f32⟩
  | .hbm, ⟨47, _⟩ => ⟨S800000x4, .f32⟩
  | .hbm, ⟨48, _⟩ => ⟨S800000x4x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S800000x4x1, .f32⟩
  | .hbm, ⟨53, _⟩ => ⟨S800000x4x1, .f32⟩
  | .hbm, ⟨54, _⟩ => ⟨S_, .f32⟩
  | .hbm, ⟨55, _⟩ => ⟨S800000x4x1, .f32⟩
  | .hbm, ⟨56, _⟩ => ⟨S800000x4x1, .f32⟩
  | .hbm, ⟨57, _⟩ => ⟨S800000x4x1, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x4x16, .f32⟩
  | .hbm, ⟨67, _⟩ => ⟨S800000x4x16, .f32⟩
  | .hbm, ⟨68, _⟩ => ⟨S800000x4x16, .f32⟩
  | .hbm, ⟨69, _⟩ => ⟨S_, .f32⟩
  | .hbm, ⟨70, _⟩ => ⟨S100000x4x16, .f32⟩
  | .hbm, ⟨71, _⟩ => ⟨S800000x1, .i32⟩
  | .hbm, ⟨72, _⟩ => ⟨S100000x4x16, .f32⟩
  | .hbm, ⟨73, _⟩ => ⟨S_, .f32⟩
  | .hbm, ⟨74, _⟩ => ⟨S100000x4x1, .f32⟩
  | .hbm, ⟨75, _⟩ => ⟨S800000x1, .i32⟩
  | .hbm, ⟨76, _⟩ => ⟨S100000x4x1, .f32⟩
  | .hbm, ⟨77, _⟩ => ⟨S_, .f32⟩
  | .hbm, ⟨78, _⟩ => ⟨S100000x4x1, .f32⟩
  | .hbm, ⟨79, _⟩ => ⟨S100000x4x1, .f32⟩
  | .hbm, ⟨80, _⟩ => ⟨S100000x4x16, .f32⟩
  | .hbm, ⟨81, _⟩ => ⟨S100000x4x16, .f32⟩
  | .hbm, ⟨82, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_cst_5 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  transposes_S64x64_S64x64_1_0 : S64x64.Transposes [1, 0] S64x64
  shapeCasts_S100000x64_S100000x4x16 : S100000x64.ShapeCasts S100000x4x16
  shapeCasts_S800000x64_S800000x4x16 : S800000x64.ShapeCasts S800000x4x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x4x16 : S_.BroadcastsInDim S800000x4x16 (![] : Fin 0 → Fin S800000x4x16.rank)
  reducesTo_S800000x4x16_S800000x4_d2 : S800000x4x16.ReducesTo [2] S800000x4
  h_S_ : 0 < S_.numel
  bcast_S800000x4_S800000x4x1_0_1 : S800000x4.BroadcastsInDim S800000x4x1 (![0, 1] : Fin 2 → Fin S800000x4x1.rank)
  bcast_S_S800000x4x1 : S_.BroadcastsInDim S800000x4x1 (![] : Fin 0 → Fin S800000x4x1.rank)
  bcast_S800000x4x1_S800000x4x16_0_1_2 : S800000x4x1.BroadcastsInDim S800000x4x16 (![0, 1, 2] : Fin 3 → Fin S800000x4x16.rank)
  bcast_S_S100000x4x16 : S_.BroadcastsInDim S100000x4x16 (![] : Fin 0 → Fin S100000x4x16.rank)
  bcast_S_S100000x4x1 : S_.BroadcastsInDim S100000x4x1 (![] : Fin 0 → Fin S100000x4x1.rank)
  bcast_S100000x4x1_S100000x4x16_0_1_2 : S100000x4x1.BroadcastsInDim S100000x4x16 (![0, 1, 2] : Fin 3 → Fin S100000x4x16.rank)
  shapeCasts_S100000x4x16_S100000x64 : S100000x4x16.ShapeCasts S100000x64
  dot_S100000x64_S64x64_S100000x64_1_0_0_1_n_n_wf : DotDims.WF S100000x64 S64x64 S100000x64 [1] [0] [0] [1] [] []
  dot_S800000x64_S64x64_S800000x64_1_0_0_1_n_n_wf : DotDims.WF S800000x64 S64x64 S800000x64 [1] [0] [0] [1] [] []
  gather_S100000x4x16_S800000x1_S800000x4x16_12_0_n_n_0_1_1416_wf : GatherDims.WF S100000x4x16 S800000x1 S800000x4x16 [1, 2] [0] [] [0] [] 1 ![1, 4, 16]
  scatter_S100000x4x16_S800000x1_S800000x4x16_12_0_0_1_wf : ScatterDims.WF S100000x4x16 S800000x1 S800000x4x16 [1, 2] [0] [0] 1
  scatter_S100000x4x1_S800000x1_S800000x4x1_12_0_0_1_wf : ScatterDims.WF S100000x4x1 S800000x1 S800000x4x1 [1, 2] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S100000x4x16_S800000x1_S800000x4x16_12_0_n_n_0_1_1416 : GatherDims S100000x4x16 S800000x1 S800000x4x16 where
  offsetDims := [1, 2]
  collapsedSliceDims := [0]
  operandBatchingDims := []
  startIndicesBatchingDims := []
  startIndexMap := [0]
  indexVectorDim := 1
  sliceSizes := ![1, 4, 16]
  wf := gather_S100000x4x16_S800000x1_S800000x4x16_12_0_n_n_0_1_1416_wf
def scatter_S100000x4x16_S800000x1_S800000x4x16_12_0_0_1 : ScatterDims S100000x4x16 S800000x1 S800000x4x16 where
  updateWindowDims := [1, 2]
  insertedWindowDims := [0]
  scatterDimsToOperandDims := [0]
  indexVectorDim := 1
  wf := scatter_S100000x4x16_S800000x1_S800000x4x16_12_0_0_1_wf
def scatter_S100000x4x1_S800000x1_S800000x4x1_12_0_0_1 : ScatterDims S100000x4x1 S800000x1 S800000x4x1 where
  updateWindowDims := [1, 2]
  insertedWindowDims := [0]
  scatterDimsToOperandDims := [0]
  indexVectorDim := 1
  wf := scatter_S100000x4x1_S800000x1_S800000x4x1_12_0_0_1_wf

class Facts : Prop extends Facts₀ where

variable [Facts]
-- ==== Proof.KernelData.lean ====
/-
  What the two kernel regions compute, as data the launch theorems take, for the program in namespace
  `Cert.Kernel` (stated at any float instance `F`).

  Region 0 is a row-blocked projection: grid point `t` multiplies rows 5000·t … 5000·t+4999 of the node
  features (window 0) by the whole 64×192 weight matrix (window 1) and writes the 5000×192 product to the
  same rows of the result (window 2).  Region 1 is edge-blocked: point `t` takes rows 8000·t … 8000·t+7999 of
  the gathered key|value rows (window 0), the gathered query rows (window 1), the edge features (window 2)
  and the whole 64×64 edge weight matrix (window 3), and writes the 8000×68 block of messages and scores
  (window 4).  Each body stores its output block once, whole, so what it leaves is the canonical form of that
  one store.  Between the regions the buffers' contents are a fold: the host operations applied to what the
  previous boundary held, and after a region its arrays at what the write-backs leave.
-/
import proofs.«166772_j11476152615033_2_alg».proof.Proof.Gen.Kernel.Launch
import proofs.«166772_j11476152615033_2_alg».proof.Proof.Gen.Kernel.Skeleton
import proofs.«166772_j11476152615033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

/- The TensorCore's buffer contents when a region is entered: a parameter here, instantiated per region below. -/
variable (V : (c : Dev nD) → (b : Ref sig .tc) → Buf (Elt F) ((c : Thread nD τ).loc b))

/-! ## Region 0: the projection -/

/-- Window `w`'s block of region 0 at grid point `t`, read off the array the region finds. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole 5000×64 block of node features, the whole 64×192 weight block, the whole 5000×192 result block. -/
abbrev rX : Rect S5000x64 := Rect.unit (s := S5000x64) ![0, 0] S5000x64.size inb_S5000x64_S5000x64_0_0
abbrev rW : Rect S64x192 := Rect.unit (s := S64x192) ![0, 0] S64x192.size inb_S64x192_S64x192_0_0
abbrev rP : Rect S5000x192 := Rect.unit (s := S5000x192) ![0, 0] S5000x192.size inb_S5000x192_S5000x192_0_0

/-- What the projection body leaves in its result block: the product of the feature block and the weights. -/
def projOut (x0 : Vec F S5000x64 .f32) (x1 : Vec F S64x192 .bf16) : Vec F S5000x192 .f32 :=
  View.canon [⟨rP, k0_pay1 (View.ld x0 rX) (View.ld x1 rW)⟩]

/-- Region 0's proof data on core `c`: the arrays as found; after the body each input block in place and the
    result block at the product; the invariant that of a body which keeps nothing between points. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projOut (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = projOut (blk0 V c 0 t) (blk0 V c 1 t) := by dsimp only [dat0]

/-! ## Region 1: scores and messages per edge -/

/-- Window `w`'s block of region 1 at grid point `t`, read off the array the region finds. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev rKV : Rect S8000x128 := Rect.unit (s := S8000x128) ![0, 0] S8000x128.size inb_S8000x128_S8000x128_0_0
abbrev rE : Rect S8000x64 := Rect.unit (s := S8000x64) ![0, 0] S8000x64.size inb_S8000x64_S8000x64_0_0
abbrev rWe : Rect S64x64 := Rect.unit (s := S64x64) ![0, 0] S64x64.size inb_S64x64_S64x64_0_0
abbrev rO : Rect S8000x68 := Rect.unit (s := S8000x68) ![0, 0] S8000x68.size inb_S8000x68_S8000x68_0_0

/-- The 8000×68 value the edge body stores, from the four input blocks: messages in columns 0…63, the four
    head scores in columns 64…67. -/
def edgeVal (v0 : Vec F S8000x128 .f32) (v4 v6 : Vec F S8000x64 .f32) (v8 : Vec F S64x64 .bf16) : FVec F S8000x68 .f32 :=
  k1_pay1 (k1_pay3 v0) (k1_pay4 v0 v4 v6 v8) (k1_pay5 v0 v4 v6 v8) (k1_pay6 v0 v4 v6 v8) (k1_pay7 v0 v4 v6 v8)
    (k1_pay8 v0 v4 v6 v8)

/-- What the edge body leaves in its result block. -/
def edgeOut (x0 : Vec F S8000x128 .f32) (x1 x2 : Vec F S8000x64 .f32) (x3 : Vec F S64x64 .bf16) : Vec F S8000x68 .f32 :=
  View.canon [⟨rO, edgeVal (View.ld x0 rKV) (View.ld x1 rE) (View.ld x2 rE) (View.ld x3 rWe)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => edgeOut (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = edgeOut (blk1 V c 0 t) (blk1 V c 1 t) (blk1 V c 2 t) (blk1 V c 3 t) := by dsimp only [dat1]

end Regions

/-! ## The buffers' contents at each boundary of @main -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the first host stretch (the transposed, concatenated weights): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the second host stretch (the index rows, the two gathers, the edge weights): region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- After the last host stretch (the scatter-add and the normalisation): the end of @main. -/
abbrev W5 : Dev nD → Valuation τ sig (Elt F) := fun c => StableHlo.after hostOps2 (W4 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- Every pipeline's proof data, each at its region's entry contents. -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.Kernel.Hand

end
-- ==== Proof.KernelBody0.lean ====
/-
  Region 0, the projection, at a generic grid point: both input blocks sit in their staging buffers whether or
  not the point fetched them, the body turns them into the product block, and so the pipeline's obligation on
  the body holds at every point.
-/
import proofs.«166772_j11476152615033_2_alg».proof.Proof.KernelData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The input blocks are where the body looks for them -/

/-- The feature block of point `t` is in window 0's current staging buffer: the window is fetched at every point,
    and a body that leaves the block in place changes nothing between fetches. -/
theorem before0_w0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

/-- The weight block is in window 1's staging buffer at every point, although only the first point fetches it:
    the block index never moves, so an unfetched point finds the previous point's block, which is its own. -/
theorem before0_w1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

/-! ## The body's one store fills the result block -/

/-- A single piece over the whole 5000×192 rectangle covers every index of the block. -/
theorem cover_rP (p0 : Vec F S5000x192 .f32) (y : S5000x192.Idx) :
    ∃ pc ∈ ([⟨rP, p0⟩] : List (View.Piece (Elt F) S5000x192 .f32)), y ∈ pc.1.set :=
  View.cover_of_tiled [⟨rP, p0⟩] S5000x192.size (by rfl) y

/-! ## The body's triple -/

set_option maxHeartbeats 1000000 in
/-- The projection body on whole staging memrefs: with the two inputs' buffers at read contents `x0`, `x1` and the
    result's buffer at anything, it runs to a state with the inputs' buffers unchanged and the result's at
    `projOut x0 x1`. The body reads the result's buffer once before storing it; that value is bound and never
    used, so what the buffer held does not matter. -/
theorem sound_proj (c : Dev nD) (E : Set ℕ) (i : grid0.Coords)
    (a0 : Memref sig .tc .vmem S5000x64 .f32) (ha0 : a0.IsWhole)
    (a1 : Memref sig .tc .vmem S64x192 .bf16) (ha1 : a1.IsWhole)
    (a2 : Memref sig .tc .vmem S5000x192 .f32) (ha2 : a2.IsWhole)
    (x0 : Vec F S5000x64 .f32) (x1 : Vec F S64x192 .bf16) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (projOut x0 x1)) -∗ K ⟨⟩))
      ⊢ wp frame (wpE (defs₀ (F := F)) Variants.none c none) E (cc0__proj_kernel i a0 ha0 a1 ha1 a2 ha2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rP _)

/-! ## The obligation at a generic point -/

/-- What the pipeline hands the body at point `t`: the invariant, what the core owes, and each window's current
    staging buffer at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point `t`: the inputs' buffers hold their blocks, so the body's triple applies; the invariant and
    what the core owes are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_w0, before0_w1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (sound_proj c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on region 0's body, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KernelBody1.lean ====
/-
  Region 1, scores and messages per edge, at a generic grid point: the four input blocks sit in their staging
  buffers whether or not the point fetched them, the body turns them into the 8000×68 block of messages and
  scores, and so the pipeline's obligation on the body holds at every point.
-/
import proofs.«166772_j11476152615033_2_alg».proof.Proof.KernelData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The input blocks are where the body looks for them -/

/-- The gathered key|value rows of point `t` are in window 0's current staging buffer. -/
theorem before1_w0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)

/-- The gathered query rows of point `t` are in window 1's. -/
theorem before1_w1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

/-- The edge features of point `t` are in window 2's. -/
theorem before1_w2 (c : Dev nD) (t : Fin cfg1.N) (d) : (dat1 V c).before 2 t d = blk1 V c 2 t :=
  ((dat1 V c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)

/-- The edge weight matrix is in window 3's at every point, although only the first point fetches it: the block
    index never moves, so an unfetched point finds the previous point's block, which is its own. -/
theorem before1_w3 (c : Dev nD) (t : Fin cfg1.N) (d) : (dat1 V c).before 3 t d = blk1 V c 3 t :=
  ((dat1 V c).before_in_eq_fetched 3 rfl (fun _ => rfl) (fun _ _ _ => rfl)
      (fun t => by rw [dat1_after3]; unfold Dat.blockOf blk1; rw [dat1_A]; try rfl) t d).trans
    (by unfold Dat.fetched Dat.blockOf blk1; rw [dat1_A]; try rfl)

/-! ## The body's one store fills the result block -/

/-- A single piece over the whole 8000×68 rectangle covers every index of the block. -/
theorem cover_rO (p0 : Vec F S8000x68 .f32) (y : S8000x68.Idx) :
    ∃ pc ∈ ([⟨rO, p0⟩] : List (View.Piece (Elt F) S8000x68 .f32)), y ∈ pc.1.set :=
  View.cover_of_tiled [⟨rO, p0⟩] S8000x68.size (by rfl) y

/-! ## The body's triple -/

set_option maxHeartbeats 1000000 in
/-- The edge body on whole staging memrefs: with the four inputs' buffers at read contents `x0 … x3` and the
    result's buffer at anything, it runs to a state with the inputs' buffers unchanged and the result's at
    `edgeOut x0 x1 x2 x3`. Its first part loads the four input blocks and returns the six values the store is
    built from; the body then reads the result's buffer once (a value nothing uses) and stores the block whole. -/
theorem sound_edge (c : Dev nD) (E : Set ℕ) (i : grid1.Coords)
    (a0 : Memref sig .tc .vmem S8000x128 .f32) (ha0 : a0.IsWhole)
    (a1 : Memref sig .tc .vmem S8000x64 .f32) (ha1 : a1.IsWhole)
    (a2 : Memref sig .tc .vmem S8000x64 .f32) (ha2 : a2.IsWhole)
    (a3 : Memref sig .tc .vmem S64x64 .bf16) (ha3 : a3.IsWhole)
    (a4 : Memref sig .tc .vmem S8000x68 .f32) (ha4 : a4.IsWhole)
    (x0 : Vec F S8000x128 .f32) (x1 x2 : Vec F S8000x64 .f32) (x3 : Vec F S64x64 .bf16) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (edgeOut x0 x1 x2 x3)) -∗ K ⟨⟩))
      ⊢ wp frame (wpE (defs₀ (F := F)) Variants.none c none) E
          (cc1__score_msg_kernel i a0 ha0 a1 ha1 a2 ha2 a3 ha3 a4 ha4) K := by
  simp only [cc1__score_msg_kernel_eq_skeleton]; unfold cc1__score_msg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rO _)

/-! ## The obligation at a generic point -/

/-- What the pipeline hands the body at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at point `t`: the inputs' buffers hold their blocks, so the body's triple applies; the invariant and
    what the core owes are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_w0, before1_w1, before1_w2, before1_w3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (sound_edge c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on region 1's body, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KernelRun.lean ====
/-
  The run of @main: three stretches of host operations around the two kernel regions, as five segments over one
  thread state — every unscoped buffer at the contents of the boundary reached, the generator register at some
  state, nothing owed. From the launch the segments chain to the last boundary, so every execution terminates and
  every final memory holds each unscoped buffer at the last boundary's contents; an argument array is written by
  no host operation and by no region, so it ends as launched.
-/
import proofs.«166772_j11476152615033_2_alg».proof.Proof.KernelBody0
import proofs.«166772_j11476152615033_2_alg».proof.Proof.KernelBody1
import proofs.«166772_j11476152615033_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit holds -/

/-- At region 0's exit each of its arrays holds what the write-backs leave, -/
theorem arrays_exit0 (c : Dev nD) (w : Fin cfg0.W) : (dat0 (V1 m ρ) c).arrAt w cfg0.N = V2 m ρ c (Pipeline.arrRef spec0 w) :=
  (W2_arr m ρ c w).symm
/-- and every other buffer what it held at entry. -/
theorem others_exit0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The same at region 1's exit. -/
theorem arrays_exit1 (c : Dev nD) (w : Fin cfg1.W) : (dat1 (V3 m ρ) c).arrAt w cfg1.N = V4 m ρ c (Pipeline.arrRef spec1 w) :=
  (W4_arr m ρ c w).symm
theorem others_exit1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched

No host operation writes an argument. Region 0 reads `main_arg0` through an input window and region 1 reads
`main_arg1` through one, and an input window's array is never written back; no other argument is an array of
either region. So the fold of boundary contents, read at an argument, walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := ((W2_arr m ρ c 0).trans (((dat0 (V1 m ρ) c).arrAt_in 0 rfl _).trans (dat0_A (V1 m ρ) c 0)))
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := ((W4_arr m ρ c 2).trans (((dat1 (V3 m ρ) c).arrAt_in 2 rfl _).trans (dat1_A (V3 m ρ) c 2)))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The thread state and the segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the
    core owing nothing. -/
abbrev rest (c : Dev nD) : sProp 𝕄 := iprop((∃ r, prngReg c r) ∗ ∃ W, owes (c : Thread nD τ) (0 : CellTallies nD τ sig Unit) W)
/-- A stretch of host operations as a segment: from every unscoped buffer at `W` to the same buffers at the
    contents the operations leave, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last boundary's contents, the
    generator register at some state. -/
abbrev lastState (c : Dev nD) : sProp 𝕄 :=
  iprop(StableHlo.held (c : Thread nD τ) (Pipeline.ucRefs τ sig) (W5 m ρ c) ∗ ∃ r, prngReg c r)

set_option backward.isDefEq.respectTransparency.types false in
/-- Region 0 as a segment: entered with every unscoped buffer at `W1`, left with them at `W2`. At entry the
    region's arrays are split off the unscoped buffers and the generator register goes into the body's invariant;
    at exit the arrays, now at what the write-backs leave, are put back beside the untouched rest. The body keeps no
    semaphore of its own and owes nothing. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays_exit0 m ρ c) (others_exit0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. At entry the
    region's arrays are split off the unscoped buffers and the generator register goes into the body's invariant;
    at exit the arrays, now at what the write-backs leave, are put back beside the untouched rest. The body keeps no
    semaphore of its own and owes nothing. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays_exit1 m ρ c) (others_exit1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- What the last host stretch leaves is the last thread state beside the core owing nothing: the same three
    conjuncts, grouped the other way. -/
theorem last_chain (c : Dev nD) :
    iprop(StableHlo.held (c : Thread nD τ) (Pipeline.ucRefs τ sig) (W5 m ρ c) ∗ rest (F := F) c)
      ⊢ iprop(lastState m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's five segments in order. -/
abbrev mainSegs : List (Pipeline.Seg (pcfgs (F := F)) adm (pdats m ρ) () defs₀ 𝒱₀ L lv) :=
  [ .host (hostSeg hostOps0 hostOps0_sub hostOps0_fresh (W0 m ρ)),
    .region (region0 m ρ),
    .host (hostSeg hostOps1 hostOps1_sub hostOps1_fresh (W2 m ρ)),
    .region (region1 m ρ),
    .host (hostSeg hostOps2 hostOps2_sub hostOps2_fresh (W4 m ρ)) ]

/-- @main is the run of the segments. -/
theorem main_run (c : Dev nD) : main (F := F) c = Pipeline.Seg.run (mainSegs m ρ) := (main_chain c).trans (by chain_rfl)

set_option backward.isDefEq.respectTransparency.types false in
/-- From any memory with zero counters, every weakly fair execution of @main on the TensorCores terminates, nothing
    faulting, and every final memory holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := lastState m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The frame: @main terminates from any memory with zero counters, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.Kernel.Hand

end
-- ==== Proof.KernelIdealData.lean ====
/-
  What the two kernel regions compute, as data the launch theorems take, for the program in namespace
  `Cert.KernelIdeal` (stated at any float instance `F`).

  Region 0 is a row-blocked projection: grid point `t` multiplies rows 5000·t … 5000·t+4999 of the node
  features (window 0) by the whole 64×192 weight matrix (window 1) and writes the 5000×192 product to the
  same rows of the result (window 2).  Region 1 is edge-blocked: point `t` takes rows 8000·t … 8000·t+7999 of
  the gathered key|value rows (window 0), the gathered query rows (window 1), the edge features (window 2)
  and the whole 64×64 edge weight matrix (window 3), and writes the 8000×68 block of messages and scores
  (window 4).  Each body stores its output block once, whole, so what it leaves is the canonical form of that
  one store.  Between the regions the buffers' contents are a fold: the host operations applied to what the
  previous boundary held, and after a region its arrays at what the write-backs leave.
-/
import proofs.«166772_j11476152615033_2_alg».proof.Proof.Gen.KernelIdeal.Launch
import proofs.«166772_j11476152615033_2_alg».proof.Proof.Gen.KernelIdeal.Skeleton
import proofs.«166772_j11476152615033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions

/- The TensorCore's buffer contents when a region is entered: a parameter here, instantiated per region below. -/
variable (V : (c : Dev nD) → (b : Ref sig .tc) → Buf (Elt F) ((c : Thread nD τ).loc b))

/-! ## Region 0: the projection -/

/-- Window `w`'s block of region 0 at grid point `t`, read off the array the region finds. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole 5000×64 block of node features, the whole 64×192 weight block, the whole 5000×192 result block. -/
abbrev rX : Rect S5000x64 := Rect.unit (s := S5000x64) ![0, 0] S5000x64.size inb_S5000x64_S5000x64_0_0
abbrev rW : Rect S64x192 := Rect.unit (s := S64x192) ![0, 0] S64x192.size inb_S64x192_S64x192_0_0
abbrev rP : Rect S5000x192 := Rect.unit (s := S5000x192) ![0, 0] S5000x192.size inb_S5000x192_S5000x192_0_0

/-- What the projection body leaves in its result block: the product of the feature block and the weights. -/
def projOut (x0 : Vec F S5000x64 .f32) (x1 : Vec F S64x192 .bf16) : Vec F S5000x192 .f32 :=
  View.canon [⟨rP, k0_pay1 (View.ld x0 rX) (View.ld x1 rW)⟩]

/-- Region 0's proof data on core `c`: the arrays as found; after the body each input block in place and the
    result block at the product; the invariant that of a body which keeps nothing between points. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projOut (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = projOut (blk0 V c 0 t) (blk0 V c 1 t) := by dsimp only [dat0]

/-! ## Region 1: scores and messages per edge -/

/-- Window `w`'s block of region 1 at grid point `t`, read off the array the region finds. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev rKV : Rect S8000x128 := Rect.unit (s := S8000x128) ![0, 0] S8000x128.size inb_S8000x128_S8000x128_0_0
abbrev rE : Rect S8000x64 := Rect.unit (s := S8000x64) ![0, 0] S8000x64.size inb_S8000x64_S8000x64_0_0
abbrev rWe : Rect S64x64 := Rect.unit (s := S64x64) ![0, 0] S64x64.size inb_S64x64_S64x64_0_0
abbrev rO : Rect S8000x68 := Rect.unit (s := S8000x68) ![0, 0] S8000x68.size inb_S8000x68_S8000x68_0_0

/-- The 8000×68 value the edge body stores, from the four input blocks: messages in columns 0…63, the four
    head scores in columns 64…67. -/
def edgeVal (v0 : Vec F S8000x128 .f32) (v4 v6 : Vec F S8000x64 .f32) (v8 : Vec F S64x64 .bf16) : FVec F S8000x68 .f32 :=
  k1_pay1 (k1_pay3 v0) (k1_pay4 v0 v4 v6 v8) (k1_pay5 v0 v4 v6 v8) (k1_pay6 v0 v4 v6 v8) (k1_pay7 v0 v4 v6 v8)
    (k1_pay8 v0 v4 v6 v8)

/-- What the edge body leaves in its result block. -/
def edgeOut (x0 : Vec F S8000x128 .f32) (x1 x2 : Vec F S8000x64 .f32) (x3 : Vec F S64x64 .bf16) : Vec F S8000x68 .f32 :=
  View.canon [⟨rO, edgeVal (View.ld x0 rKV) (View.ld x1 rE) (View.ld x2 rE) (View.ld x3 rWe)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => edgeOut (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = edgeOut (blk1 V c 0 t) (blk1 V c 1 t) (blk1 V c 2 t) (blk1 V c 3 t) := by dsimp only [dat1]

end Regions

/-! ## The buffers' contents at each boundary of @main -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the first host stretch (the transposed, concatenated weights): region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the second host stretch (the index rows, the two gathers, the edge weights): region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- After the last host stretch (the scatter-add and the normalisation): the end of @main. -/
abbrev W5 : Dev nD → Valuation τ sig (Elt F) := fun c => StableHlo.after hostOps2 (W4 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- Every pipeline's proof data, each at its region's entry contents. -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

end Cert.KernelIdeal.Hand

end
-- ==== Proof.KernelIdealBody0.lean ====
/-
  Region 0, the projection, at a generic grid point: both input blocks sit in their staging buffers whether or
  not the point fetched them, the body turns them into the product block, and so the pipeline's obligation on
  the body holds at every point.
-/
import proofs.«166772_j11476152615033_2_alg».proof.Proof.KernelIdealData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The input blocks are where the body looks for them -/

/-- The feature block of point `t` is in window 0's current staging buffer: the window is fetched at every point,
    and a body that leaves the block in place changes nothing between fetches. -/
theorem before0_w0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

/-- The weight block is in window 1's staging buffer at every point, although only the first point fetches it:
    the block index never moves, so an unfetched point finds the previous point's block, which is its own. -/
theorem before0_w1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

/-! ## The body's one store fills the result block -/

/-- A single piece over the whole 5000×192 rectangle covers every index of the block. -/
theorem cover_rP (p0 : Vec F S5000x192 .f32) (y : S5000x192.Idx) :
    ∃ pc ∈ ([⟨rP, p0⟩] : List (View.Piece (Elt F) S5000x192 .f32)), y ∈ pc.1.set :=
  View.cover_of_tiled [⟨rP, p0⟩] S5000x192.size (by rfl) y

/-! ## The body's triple -/

set_option maxHeartbeats 1000000 in
/-- The projection body on whole staging memrefs: with the two inputs' buffers at read contents `x0`, `x1` and the
    result's buffer at anything, it runs to a state with the inputs' buffers unchanged and the result's at
    `projOut x0 x1`. The body reads the result's buffer once before storing it; that value is bound and never
    used, so what the buffer held does not matter. -/
theorem sound_proj (c : Dev nD) (E : Set ℕ) (i : grid0.Coords)
    (a0 : Memref sig .tc .vmem S5000x64 .f32) (ha0 : a0.IsWhole)
    (a1 : Memref sig .tc .vmem S64x192 .bf16) (ha1 : a1.IsWhole)
    (a2 : Memref sig .tc .vmem S5000x192 .f32) (ha2 : a2.IsWhole)
    (x0 : Vec F S5000x64 .f32) (x1 : Vec F S64x192 .bf16) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (projOut x0 x1)) -∗ K ⟨⟩))
      ⊢ wp frame (wpE (defs₀ (F := F)) Variants.none c none) E (cc0__proj_kernel i a0 ha0 a1 ha1 a2 ha2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rP _)

/-! ## The obligation at a generic point -/

/-- What the pipeline hands the body at point `t`: the invariant, what the core owes, and each window's current
    staging buffer at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point `t`: the inputs' buffers hold their blocks, so the body's triple applies; the invariant and
    what the core owes are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_w0, before0_w1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (sound_proj c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on region 0's body, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdealBody1.lean ====
/-
  Region 1, scores and messages per edge, at a generic grid point: the four input blocks sit in their staging
  buffers whether or not the point fetched them, the body turns them into the 8000×68 block of messages and
  scores, and so the pipeline's obligation on the body holds at every point.
-/
import proofs.«166772_j11476152615033_2_alg».proof.Proof.KernelIdealData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The input blocks are where the body looks for them -/

/-- The gathered key|value rows of point `t` are in window 0's current staging buffer. -/
theorem before1_w0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)

/-- The gathered query rows of point `t` are in window 1's. -/
theorem before1_w1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

/-- The edge features of point `t` are in window 2's. -/
theorem before1_w2 (c : Dev nD) (t : Fin cfg1.N) (d) : (dat1 V c).before 2 t d = blk1 V c 2 t :=
  ((dat1 V c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)

/-- The edge weight matrix is in window 3's at every point, although only the first point fetches it: the block
    index never moves, so an unfetched point finds the previous point's block, which is its own. -/
theorem before1_w3 (c : Dev nD) (t : Fin cfg1.N) (d) : (dat1 V c).before 3 t d = blk1 V c 3 t :=
  ((dat1 V c).before_in_eq_fetched 3 rfl (fun _ => rfl) (fun _ _ _ => rfl)
      (fun t => by rw [dat1_after3]; unfold Dat.blockOf blk1; rw [dat1_A]; try rfl) t d).trans
    (by unfold Dat.fetched Dat.blockOf blk1; rw [dat1_A]; try rfl)

/-! ## The body's one store fills the result block -/

/-- A single piece over the whole 8000×68 rectangle covers every index of the block. -/
theorem cover_rO (p0 : Vec F S8000x68 .f32) (y : S8000x68.Idx) :
    ∃ pc ∈ ([⟨rO, p0⟩] : List (View.Piece (Elt F) S8000x68 .f32)), y ∈ pc.1.set :=
  View.cover_of_tiled [⟨rO, p0⟩] S8000x68.size (by rfl) y

/-! ## The body's triple -/

set_option maxHeartbeats 1000000 in
/-- The edge body on whole staging memrefs: with the four inputs' buffers at read contents `x0 … x3` and the
    result's buffer at anything, it runs to a state with the inputs' buffers unchanged and the result's at
    `edgeOut x0 x1 x2 x3`. Its first part loads the four input blocks and returns the six values the store is
    built from; the body then reads the result's buffer once (a value nothing uses) and stores the block whole. -/
theorem sound_edge (c : Dev nD) (E : Set ℕ) (i : grid1.Coords)
    (a0 : Memref sig .tc .vmem S8000x128 .f32) (ha0 : a0.IsWhole)
    (a1 : Memref sig .tc .vmem S8000x64 .f32) (ha1 : a1.IsWhole)
    (a2 : Memref sig .tc .vmem S8000x64 .f32) (ha2 : a2.IsWhole)
    (a3 : Memref sig .tc .vmem S64x64 .bf16) (ha3 : a3.IsWhole)
    (a4 : Memref sig .tc .vmem S8000x68 .f32) (ha4 : a4.IsWhole)
    (x0 : Vec F S8000x128 .f32) (x1 x2 : Vec F S8000x64 .f32) (x3 : Vec F S64x64 .bf16) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (edgeOut x0 x1 x2 x3)) -∗ K ⟨⟩))
      ⊢ wp frame (wpE (defs₀ (F := F)) Variants.none c none) E
          (cc1__score_msg_kernel i a0 ha0 a1 ha1 a2 ha2 a3 ha3 a4 ha4) K := by
  simp only [cc1__score_msg_kernel_eq_skeleton]; unfold cc1__score_msg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_rO _)

/-! ## The obligation at a generic point -/

/-- What the pipeline hands the body at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at point `t`: the inputs' buffers hold their blocks, so the body's triple applies; the invariant and
    what the core owes are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_w0, before1_w1, before1_w2, before1_w3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (sound_edge c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on region 1's body, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdealRun.lean ====
/-
  The run of @main: three stretches of host operations around the two kernel regions, as five segments over one
  thread state — every unscoped buffer at the contents of the boundary reached, the generator register at some
  state, nothing owed. From the launch the segments chain to the last boundary, so every execution terminates and
  every final memory holds each unscoped buffer at the last boundary's contents; an argument array is written by
  no host operation and by no region, so it ends as launched.
-/
import proofs.«166772_j11476152615033_2_alg».proof.Proof.KernelIdealBody0
import proofs.«166772_j11476152615033_2_alg».proof.Proof.KernelIdealBody1
import proofs.«166772_j11476152615033_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region's exit holds -/

/-- At region 0's exit each of its arrays holds what the write-backs leave, -/
theorem arrays_exit0 (c : Dev nD) (w : Fin cfg0.W) : (dat0 (V1 m ρ) c).arrAt w cfg0.N = V2 m ρ c (Pipeline.arrRef spec0 w) :=
  (W2_arr m ρ c w).symm
/-- and every other buffer what it held at entry. -/
theorem others_exit0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The same at region 1's exit. -/
theorem arrays_exit1 (c : Dev nD) (w : Fin cfg1.W) : (dat1 (V3 m ρ) c).arrAt w cfg1.N = V4 m ρ c (Pipeline.arrRef spec1 w) :=
  (W4_arr m ρ c w).symm
theorem others_exit1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched

No host operation writes an argument. Region 0 reads `main_arg0` through an input window and region 1 reads
`main_arg1` through one, and an input window's array is never written back; no other argument is an array of
either region. So the fold of boundary contents, read at an argument, walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := ((W2_arr m ρ c 0).trans (((dat0 (V1 m ρ) c).arrAt_in 0 rfl _).trans (dat0_A (V1 m ρ) c 0)))
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := ((W4_arr m ρ c 2).trans (((dat1 (V3 m ρ) c).arrAt_in 2 rfl _).trans (dat1_A (V3 m ρ) c 2)))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The thread state and the segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the
    core owing nothing. -/
abbrev rest (c : Dev nD) : sProp 𝕄 := iprop((∃ r, prngReg c r) ∗ ∃ W, owes (c : Thread nD τ) (0 : CellTallies nD τ sig Unit) W)
/-- A stretch of host operations as a segment: from every unscoped buffer at `W` to the same buffers at the
    contents the operations leave, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last boundary's contents, the
    generator register at some state. -/
abbrev lastState (c : Dev nD) : sProp 𝕄 :=
  iprop(StableHlo.held (c : Thread nD τ) (Pipeline.ucRefs τ sig) (W5 m ρ c) ∗ ∃ r, prngReg c r)

set_option backward.isDefEq.respectTransparency.types false in
/-- Region 0 as a segment: entered with every unscoped buffer at `W1`, left with them at `W2`. At entry the
    region's arrays are split off the unscoped buffers and the generator register goes into the body's invariant;
    at exit the arrays, now at what the write-backs leave, are put back beside the untouched rest. The body keeps no
    semaphore of its own and owes nothing. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays_exit0 m ρ c) (others_exit0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. At entry the
    region's arrays are split off the unscoped buffers and the generator register goes into the body's invariant;
    at exit the arrays, now at what the write-backs leave, are put back beside the untouched rest. The body keeps no
    semaphore of its own and owes nothing. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays_exit1 m ρ c) (others_exit1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- What the last host stretch leaves is the last thread state beside the core owing nothing: the same three
    conjuncts, grouped the other way. -/
theorem last_chain (c : Dev nD) :
    iprop(StableHlo.held (c : Thread nD τ) (Pipeline.ucRefs τ sig) (W5 m ρ c) ∗ rest (F := F) c)
      ⊢ iprop(lastState m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's five segments in order. -/
abbrev mainSegs : List (Pipeline.Seg (pcfgs (F := F)) adm (pdats m ρ) () defs₀ 𝒱₀ L lv) :=
  [ .host (hostSeg hostOps0 hostOps0_sub hostOps0_fresh (W0 m ρ)),
    .region (region0 m ρ),
    .host (hostSeg hostOps1 hostOps1_sub hostOps1_fresh (W2 m ρ)),
    .region (region1 m ρ),
    .host (hostSeg hostOps2 hostOps2_sub hostOps2_fresh (W4 m ρ)) ]

/-- @main is the run of the segments. -/
theorem main_run (c : Dev nD) : main (F := F) c = Pipeline.Seg.run (mainSegs m ρ) := (main_chain c).trans (by chain_rfl)

set_option backward.isDefEq.respectTransparency.types false in
/-- From any memory with zero counters, every weakly fair execution of @main on the TensorCores terminates, nothing
    faulting, and every final memory holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := lastState m ρ)
    (hch := ⟨fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- The frame: @main terminates from any memory with zero counters, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.KernelIdeal.Hand

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.KernelIdealArr0.lean ====
/-
  Region 0's result array after the run, at the ideal instance.

  Grid point `t` of the projection writes rows 5000·t … 5000·t+4999 of the 100000×192 result: entry (r, j) of its
  block is Σ_k x[5000·t + r, k] · w[k, j], a function of the ARRAY index (5000·t + r, j) alone.  The twenty blocks
  tile the array, so after the run the array holds that one function of the node features and the weights.
-/
import proofs.«166772_j11476152615033_2_alg».proof.Proof.KernelIdealData
import proofs.«166772_j11476152615033_2_alg».proof.Proof.LibDenseBlock
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- Entry (r, j) of the body's product: row r of the feature block against column j of the weights. -/
theorem proj_entry (v0 : Vec Ideal S5000x64 .f32) (v2 : Vec Ideal S64x192 .bf16) (r : Fin 5000) (j : Fin 192) :
    k0_pay1 (F := Ideal) v0 v2 (ix2 r j) = ∑ k : Fin 64, v0 (ix2 r k) * v2 (ix2 k j) := by
  unfold k0_pay1
  rw [shapeCast_self]
  exact DenseBlock.matmul_zero_apply (K := 5000) (N := 64) (Q := 192)
    dot_S5000x64_S64x192_S5000x192_1_0_0_1_n_n.wf _ _ r j

/-- The whole result as one function of the feature array and the weight array. -/
def projAll (x : S100000x64.Idx → EReal) (w : S64x192.Idx → EReal) : S100000x192.Idx → EReal :=
  fun i => ∑ k : Fin 64, x (ix2 (⟨(i 0).val, idx2_lt0 i⟩ : Fin 100000) k) * w (ix2 k (⟨(i 1).val, idx2_lt1 i⟩ : Fin 192))

/-- The printed index maps over the grid: the feature block and the result block of point `t` are both block
    row `t`, column block 0; the weight block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `projAll` of the arrays as the region finds them. -/
theorem flushed0 (c : Dev nD) (t : Fin cfg0.N) :
    (dat0 V c).flushed 2 t = ((cfg0.win 2).blk t).view.read (Elt Ideal) (projAll (V c main_arg0) (V c main_v4)) := by
  show (cfg0.win 2).cut (grid0.coords t) ((dat0 V c).after 2 t) = _
  rw [dat0_after2]
  unfold projOut
  rw [View.canon_unit_zero zeroOff]
  simp only [View.ld_unit_zero (S := S5000x64) zeroOff, View.ld_unit_zero (S := S64x192) zeroOff]
  obtain ⟨e0, e1, e2, e3, e4, e5⟩ := idx_facts0 t
  funext j
  obtain ⟨p, q, rfl⟩ : ∃ (p : Fin 5000) (q : Fin 192), j = ix2 p q := ⟨j 0, j 1, eq_ix2 j⟩
  refine (proj_entry _ _ p q).trans ?_
  show _ = projAll (V c main_arg0) (V c main_v4) (((cfg0.win 2).blk t).view.emb (ix2 p q))
  unfold projAll
  refine Finset.sum_congr rfl fun k _ => ?_
  have hx : blk0 V c 0 t (ix2 p k) = V c main_arg0 (ix2 (⟨((((cfg0.win 2).blk t).view.emb (ix2 p q)) 0).val, idx2_lt0 _⟩ : Fin 100000) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have hw : blk0 V c 1 t (ix2 k q) = V c main_v4 (ix2 k (⟨((((cfg0.win 2).blk t).view.emb (ix2 p q)) 1).val, idx2_lt1 _⟩ : Fin 192)) := by
    show V c main_v4 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 192 + 1 * q.val = win0_2.index t (1 : Fin 2) * 192 + 1 * q.val; omega
  rw [hx, hw]

/-- An index of the result array is in point `t`'s block iff each coordinate is in the block's range. -/
theorem mem_blk0 (t : Fin cfg0.N) (i : S100000x192.Idx) :
    i ∈ ((cfg0.win 2).blk t).view.set ↔ ∀ a : Fin 2, win0_2.index t a * S5000x192.size a ≤ (i a).val ∧ (i a).val < win0_2.index t a * S5000x192.size a + S5000x192.size a := by
  show i ∈ ((View.whole main_v5).slice (win0_2.rect t)).set ↔ _
  rw [View.set_slice_whole, Rect.mem_set_unit]
  exact Iff.rfl

/-- The twenty row blocks cover the result array: row `r` is in block `r / 5000`. -/
theorem cover0 (i : S100000x192.Idx) :
    ∃ t : Fin cfg0.N, (cfg0.win 2).flush t = true ∧ i ∈ ((cfg0.win 2).blk t).view.set := by
  have hi0 : (i 0).val < 100000 := (i 0).isLt
  have hi1 : (i 1).val < 192 := (i 1).isLt
  refine ⟨⟨(i 0).val / 5000, by rw [show cfg0.N = 20 from N_0]; omega⟩, flush0_2 _, ?_⟩
  rw [mem_blk0]
  obtain ⟨e0, e1, e2, e3, e4, e5⟩ := idx_facts0 ⟨(i 0).val / 5000, by rw [show cfg0.N = 20 from N_0]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 192 ≤ (i 1).val ∧ (i 1).val < win0_2.index _ (1 : Fin 2) * 192 + 192; rw [e5]; omega

/-- Region 0's result array after the run. -/
theorem arr0_final (c : Dev nD) : (dat0 V c).arrAt 2 cfg0.N = projAll (V c main_arg0) (V c main_v4) :=
  (dat0 V c).arrAt_eq_of_cover 2 (projAll (V c main_arg0) (V c main_v4)) (fun t _ => flushed0 V c t) cover0

end Cert.KernelIdeal.Hand

end
-- ==== Proof.KernelIdealHost0.lean ====
/-
  The first host stretch and region 0, read back to the launch memory (ideal instance).

  Before the projection the host transposes Wq, Wk, Wv and sets them side by side: a 64×192 matrix whose column
  j is row j of Wq (j < 64), row j−64 of Wk (64 ≤ j < 128) or row j−128 of Wv.  So after region 0 the 100000×192
  array holds, in row n, the three projections of node n side by side: Q | K | V.
-/
import proofs.«166772_j11476152615033_2_alg».proof.Proof.KernelIdealArr0
import proofs.«166772_j11476152615033_2_alg».proof.Proof.Gen.KernelIdeal.Regions
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg)

/-- Entry (k, j) of a transposed 64×64 matrix is entry (j, k). -/
theorem transpose_entry (a : S64x64.Idx → EReal) (k j : Fin 64) :
    transpose S64x64 [1, 0] a transposes_S64x64_S64x64_1_0 (ix2 k j) = a (ix2 j k) :=
  transpose_apply [1, 0] a _ (ix2 k j) (ix2 j k) (fun b => by
    match b with
    | ⟨0, _⟩ => rfl
    | ⟨1, _⟩ => rfl)

/-- The three transposed weight matrices side by side: the projection's right operand. -/
def wcat (a2 a3 a5 : S64x64.Idx → EReal) : S64x192.Idx → EReal :=
  truncf (F := Ideal) .bf16 (concatenate S64x192 1 [⟨S64x64, transpose S64x64 [1, 0] a2 transposes_S64x64_S64x64_1_0⟩,
    ⟨S64x64, transpose S64x64 [1, 0] a3 transposes_S64x64_S64x64_1_0⟩,
    ⟨S64x64, transpose S64x64 [1, 0] a5 transposes_S64x64_S64x64_1_0⟩] concatenates_S64x64_S64x64_S64x64_S64x192_d1) bitsLt_bf16_f32

/-- Columns 0…63 are the rows of the first matrix. -/
theorem wcat_first (a2 a3 a5 : S64x64.Idx → EReal) (k : Fin 64) (j : Fin 192) (hj : j.val < 64) :
    wcat a2 a3 a5 (ix2 k j) = a2 (ix2 (⟨j.val, hj⟩ : Fin 64) k) := by
  unfold wcat
  rw [truncf_apply]
  refine (concatenate_apply_piece (t := S64x192) (1 : Fin 2) [⟨S64x64, transpose S64x64 [1, 0] a2 transposes_S64x64_S64x64_1_0⟩, ⟨S64x64, transpose S64x64 [1, 0] a3 transposes_S64x64_S64x64_1_0⟩, ⟨S64x64, transpose S64x64 [1, 0] a5 transposes_S64x64_S64x64_1_0⟩] concatenates_S64x64_S64x64_S64x64_S64x192_d1 (ix2 k j) 0 (by show (0 : Nat) < 3; omega) S64x64 _ rfl rfl 0 rfl (ix2 k (⟨j.val, hj⟩ : Fin 64)) ?_ ?_).trans
    (transpose_entry a2 k ⟨j.val, hj⟩)
  · intro b hb
    match b with
    | ⟨0, _⟩ => rfl
    | ⟨1, _⟩ => exact absurd rfl hb
  · show 0 + j.val = j.val; omega

/-- Columns 64…127 are the rows of the second matrix. -/
theorem wcat_second (a2 a3 a5 : S64x64.Idx → EReal) (k : Fin 64) (j : Fin 192) (h1 : 64 ≤ j.val) (h2 : j.val < 128) :
    wcat a2 a3 a5 (ix2 k j) = a3 (ix2 (⟨j.val - 64, by omega⟩ : Fin 64) k) := by
  unfold wcat
  rw [truncf_apply]
  refine (concatenate_apply_piece (t := S64x192) (1 : Fin 2) [⟨S64x64, transpose S64x64 [1, 0] a2 transposes_S64x64_S64x64_1_0⟩, ⟨S64x64, transpose S64x64 [1, 0] a3 transposes_S64x64_S64x64_1_0⟩, ⟨S64x64, transpose S64x64 [1, 0] a5 transposes_S64x64_S64x64_1_0⟩] concatenates_S64x64_S64x64_S64x64_S64x192_d1 (ix2 k j) 1 (by show (1 : Nat) < 3; omega) S64x64 _ rfl rfl 64 rfl (ix2 k (⟨j.val - 64, by omega⟩ : Fin 64)) ?_ ?_).trans
    (transpose_entry a3 k ⟨j.val - 64, by omega⟩)
  · intro b hb
    match b with
    | ⟨0, _⟩ => rfl
    | ⟨1, _⟩ => exact absurd rfl hb
  · show 64 + (j.val - 64) = j.val; omega

/-- Columns 128…191 are the rows of the third matrix. -/
theorem wcat_third (a2 a3 a5 : S64x64.Idx → EReal) (k : Fin 64) (j : Fin 192) (h1 : 128 ≤ j.val) :
    wcat a2 a3 a5 (ix2 k j) = a5 (ix2 (⟨j.val - 128, by have := j.isLt; omega⟩ : Fin 64) k) := by
  unfold wcat
  rw [truncf_apply]
  refine (concatenate_apply_piece (t := S64x192) (1 : Fin 2) [⟨S64x64, transpose S64x64 [1, 0] a2 transposes_S64x64_S64x64_1_0⟩, ⟨S64x64, transpose S64x64 [1, 0] a3 transposes_S64x64_S64x64_1_0⟩, ⟨S64x64, transpose S64x64 [1, 0] a5 transposes_S64x64_S64x64_1_0⟩] concatenates_S64x64_S64x64_S64x64_S64x192_d1 (ix2 k j) 2 (by show (2 : Nat) < 3; omega) S64x64 _ rfl rfl 128 rfl (ix2 k (⟨j.val - 128, by have := j.isLt; omega⟩ : Fin 64)) ?_ ?_).trans
    (transpose_entry a5 k ⟨j.val - 128, by have := j.isLt; omega⟩)
  · intro b hb
    match b with
    | ⟨0, _⟩ => rfl
    | ⟨1, _⟩ => exact absurd rfl hb
  · show 128 + (j.val - 128) = j.val; have := j.isLt; omega

/-- At region 0's entry the weight operand is the stacked transposes of the launch weights. -/
theorem V1_main_v4 (c : Dev nD) :
    V1 m ρ c main_v4 = wcat (m ((c : Thread nD τ).loc main_arg2)) (m ((c : Thread nD τ).loc main_arg3)) (m ((c : Thread nD τ).loc main_arg5)) := by
  show StableHlo.after hostOps0 (W0 m ρ c) (Proc.devRef .tc main_v4) = _
  after_results
  rfl

/-- The first host stretch writes no argument. -/
theorem V1_arg (c : Dev nD) (r : Ref sig .tc) (h : r ∉ hostOps0_W) : V1 m ρ c r = m ((c : Thread nD τ).loc r) :=
  StableHlo.after_of_writes_sub hostOps0 _ hostOps0_writes h

/-- After region 0 the projected array: row n holds Q | K | V of node n. -/
theorem W2_main_v5 (c : Dev nD) :
    W2 m ρ c (Proc.devRef .tc main_v5) = projAll (m ((c : Thread nD τ).loc main_arg0))
      (wcat (m ((c : Thread nD τ).loc main_arg2)) (m ((c : Thread nD τ).loc main_arg3)) (m ((c : Thread nD τ).loc main_arg5))) := by
  refine (W2_arr m ρ c 2).trans ((arr0_final (V1 m ρ) c).trans ?_)
  rw [V1_main_v4, V1_arg m ρ c main_arg0 (by decide)]

/-- Region 0 changes no buffer but its result: every other buffer is as the first host stretch left it. -/
theorem W2_other (c : Dev nD) (r : Ref sig .tc) (h0 : r ≠ main_arg0) (h1 : r ≠ main_v4) (h2 : r ≠ main_v5) :
    W2 m ρ c (Proc.devRef .tc r) = V1 m ρ c r :=
  W2_of_ne m ρ c r (fun w => by
    match w with
    | ⟨0, _⟩ => exact fun e => h0 e.symm
    | ⟨1, _⟩ => exact fun e => h1 e.symm
    | ⟨2, _⟩ => exact fun e => h2 e.symm)

end Cert.KernelIdeal.Hand

end
-- ==== Proof.LibGatherRows.lean ====
/-
  A row lookup in a table, read at an index.

  `table[idx]` for a table of `N` rows of `C` numbers and `B` integer row numbers lowers to a `stablehlo.gather` whose
  start indices are a `[B, 1]` array and whose slices are whole rows. Each start index is read as a signed integer and
  clamped into `[0, N - 1]`, so every integer names a row. Two layouts occur:

  * rows kept as rows: operand `[N, C]`, result `[B, C]`; result entry `(b, i)` is entry `i` of the row `idx[b]` names;
  * the table transposed, samples on the last axis: operand `[C, N]`, result `[C, B]`; result entry `(i, b)` is entry
    `i` of the column `idx[b]` names.

  Both read the same number: entry `i` of row `clampRow N idx[b]`.
-/
import Idealize.ShloMosaic.Lib.ValueIdx

noncomputable section

namespace Idealize.ShloMosaic.GatherRows

open Idealize.ShloMosaic Idealize.ShloMosaic.ValueIdx

/-- The row of an `N`-row table a start index names: the word read as a signed integer (a negative one reads as `0`),
    clamped to the last row. -/
def clampRow {w : Nat} (N : Nat) (v : BitVec w) : Nat := min v.toInt.toNat (N - 1)

theorem clampRow_lt {w : Nat} {N : Nat} (hN : 0 < N) (v : BitVec w) : clampRow N v < N := by
  unfold clampRow; omega

/-- An axis of a rank-2 shape is the first or the second. -/
theorem axis2_cases {S : Shape} (h : S.rank = 2) (a : Fin S.rank) :
    a = ⟨0, by omega⟩ ∨ a = ⟨1, by omega⟩ := by
  have h2 : a.val < 2 := h ▸ a.isLt
  rcases Nat.lt_or_ge a.val 1 with h1 | h1
  · left; exact Fin.ext (by show a.val = 0; omega)
  · right; exact Fin.ext (by show a.val = 1; omega)

section
variable {α : Type}

/-- Rows kept as rows: operand `[N, C]`, start indices `[B, 1]`, result `[B, C]`. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The table transposed: operand `[C, N]`, start indices `[B, 1]`, result `[C, B]`. -/
abbrev colDims (N C B : Nat)
    (wf : GatherDims.WF ⟨2, ![C, N]⟩ ⟨2, ![B, 1]⟩ ⟨2, ![C, B]⟩ [0] [1] [] [1] [] 1 ![C, 1]) :
    GatherDims ⟨2, ![C, N]⟩ ⟨2, ![B, 1]⟩ ⟨2, ![C, B]⟩ where
  offsetDims := [0]
  collapsedSliceDims := [1]
  operandBatchingDims := []
  startIndicesBatchingDims := []
  startIndexMap := [1]
  indexVectorDim := 1
  sliceSizes := ![C, 1]
  wf := wf

/-- Result entry `(b, i)` of the row lookup is entry `i` of the row `idx[b]` names. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (i : Fin C) :
    Host.gather (rowDims N C B wf) x idx (ix2 b i)
      = x (ix2 ⟨clampRow N (idx (ix2 b (0 : Fin 1))), clampRow_lt hN _⟩ i) := by
  unfold Host.gather
  congr 1
  funext a
  refine Fin.ext ?_
  show (rowDims N C B wf).start (ix2 b i) idx a + (rowDims N C B wf).batchCoord (ix2 b i) a
      + (rowDims N C B wf).offCoord (ix2 b i) a = _
  rw [GatherDims.batchCoord_eq_zero _ _ _ List.not_mem_nil]
  rcases axis2_cases (S := ⟨2, ![N, C]⟩) rfl a with rfl | rfl
  · rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowDims N C B wf).startIndexMap from List.mem_singleton.mpr rfl)]
    have hsi : (rowDims N C B wf).siIdx (ix2 b i) ⟨List.idxOf (⟨0, by decide⟩ : Fin 2) (rowDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  · have hn : ¬ (⟨1, by decide⟩ : Fin 2) ∈ (rowDims N C B wf).startIndexMap :=
      (by decide : ¬ (⟨1, by decide⟩ : Fin 2) ∈ ([0] : List (Fin 2)))
    have hc : ¬ (⟨1, by decide⟩ : Fin 2) ∈ (rowDims N C B wf).collapsedSliceDims :=
      (by decide : ¬ (⟨1, by decide⟩ : Fin 2) ∈ ([0] : List (Fin 2)))
    have h0 : (rowDims N C B wf).start (ix2 b i) idx (⟨1, by decide⟩ : Fin 2) = 0 := by
      unfold GatherDims.start
      rw [dif_neg hn]
    have h1 : (rowDims N C B wf).offCoord (ix2 b i) (⟨1, by decide⟩ : Fin 2) = i.val := by
      unfold GatherDims.offCoord
      rw [dif_pos ((GatherDims.mem_sKept _ _).mpr ⟨hc, List.not_mem_nil⟩)]
      rfl
    show (rowDims N C B wf).start (ix2 b i) idx (⟨1, by decide⟩ : Fin 2) + 0
      + (rowDims N C B wf).offCoord (ix2 b i) (⟨1, by decide⟩ : Fin 2) = i.val
    rw [h0, h1]; omega

/-- Result entry `(i, b)` of the lookup in the transposed table is entry `i` of the column `idx[b]` names. -/
theorem gather_cols_apply {N C B w : Nat} (hN : 0 < N)
    (wf : GatherDims.WF ⟨2, ![C, N]⟩ ⟨2, ![B, 1]⟩ ⟨2, ![C, B]⟩ [0] [1] [] [1] [] 1 ![C, 1])
    (x : (⟨2, ![C, N]⟩ : Shape).Idx → α) (idx : IVec ⟨2, ![B, 1]⟩ w) (i : Fin C) (b : Fin B) :
    Host.gather (colDims N C B wf) x idx (ix2 i b)
      = x (ix2 i ⟨clampRow N (idx (ix2 b (0 : Fin 1))), clampRow_lt hN _⟩) := by
  unfold Host.gather
  congr 1
  funext a
  refine Fin.ext ?_
  show (colDims N C B wf).start (ix2 i b) idx a + (colDims N C B wf).batchCoord (ix2 i b) a
      + (colDims N C B wf).offCoord (ix2 i b) a = _
  rw [GatherDims.batchCoord_eq_zero _ _ _ List.not_mem_nil]
  rcases axis2_cases (S := ⟨2, ![C, N]⟩) rfl a with rfl | rfl
  · have hn : ¬ (⟨0, by decide⟩ : Fin 2) ∈ (colDims N C B wf).startIndexMap :=
      (by decide : ¬ (⟨0, by decide⟩ : Fin 2) ∈ ([1] : List (Fin 2)))
    have hc : ¬ (⟨0, by decide⟩ : Fin 2) ∈ (colDims N C B wf).collapsedSliceDims :=
      (by decide : ¬ (⟨0, by decide⟩ : Fin 2) ∈ ([1] : List (Fin 2)))
    have h0 : (colDims N C B wf).start (ix2 i b) idx (⟨0, by decide⟩ : Fin 2) = 0 := by
      unfold GatherDims.start
      rw [dif_neg hn]
    have h1 : (colDims N C B wf).offCoord (ix2 i b) (⟨0, by decide⟩ : Fin 2) = i.val := by
      unfold GatherDims.offCoord
      rw [dif_pos ((GatherDims.mem_sKept _ _).mpr ⟨hc, List.not_mem_nil⟩)]
      rfl
    show (colDims N C B wf).start (ix2 i b) idx (⟨0, by decide⟩ : Fin 2) + 0
      + (colDims N C B wf).offCoord (ix2 i b) (⟨0, by decide⟩ : Fin 2) = i.val
    rw [h0, h1]; omega
  · rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims N C B wf).startIndexMap from List.mem_singleton.mpr rfl)]
    have hsi : (colDims N C B wf).siIdx (ix2 i b) ⟨List.idxOf (⟨1, by decide⟩ : Fin 2) (colDims N C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl

end

end Idealize.ShloMosaic.GatherRows

end
-- ==== Proof.Spec.lean ====
/-
  Edge-gated multi-head attention aggregated at the destination nodes, as one function of the inputs.

  Inputs: node features `x` (100000 × 64), edge features `ea` (800000 × 64), four 64 × 64 weight matrices
  `wq wk we wv` (each applied as `· Wᵀ`), and the edge list `ei` (2 × 800000 integer words: row 0 the source node
  of each edge, row 1 its destination).  The 64 columns are 4 heads of 16 lanes: column `c` is lane `c % 16` of
  head `c / 16`.

  For an edge `e` with source row `s` and destination row `t` (each word wrapped if negative, then clamped to a
  row, as a table lookup reads it):
    gate e c  = K[s, c] · Q[t, c] · E[e, c] · ¼,           K = x Wkᵀ, Q = x Wqᵀ, E = ea Weᵀ
    score e h = exp (clip (Σ_{lane d} gate e (16 h + d)))    clipped to [-5, 5]
    msg e c   = V[s, c] · score e (c / 16),                  V = x Wvᵀ
  and for a node `n`, summing over the edges whose RAW destination word is `n` (a scatter-add drops a word
  that names no row; it neither wraps nor clamps it):
    out n c   = (Σ_e msg e c) / (Σ_e score e (c / 16) + ε).
  All arithmetic is on the extended reals; the division is the float quotient's exact reading.
-/
import Idealize.ShloMosaic.PureOps.Ideal
import Idealize.ShloMosaic.PureOps.Ideal.Laws
import Idealize.ShloMosaic.Lib.ValueIdx
import proofs.«166772_j11476152615033_2_alg».proof.Proof.LibGatherRows

noncomputable section

open scoped BigOperators

namespace Cert.EdgeAttention

open Idealize.ShloMosaic Idealize.ShloMosaic.ValueIdx Idealize.ShloMosaic.GatherRows

/-! ## The literal words as reals -/

/-- The word of `4.0` denotes the real 4. -/
theorem ofBits_four : Ideal.ofBits .f32 0x40800000#32 = ((4 : ℝ) : EReal) := by
  simp [Ideal.ofBits, Ideal.ieee, -EReal.coe_mul]; norm_num

/-- The word of `0.25` denotes the real ¼. -/
theorem ofBits_quarter : Ideal.ofBits .f32 0x3E800000#32 = ((1 / 4 : ℝ) : EReal) := by
  simp [Ideal.ofBits, Ideal.ieee, -EReal.coe_mul]; norm_num

/-- Dividing by the word of 4.0 is multiplying by the word of 0.25, on every extended real. -/
theorem div_four (t : EReal) : Ideal.div t (Ideal.ofBits .f32 0x40800000#32) = t * Ideal.ofBits .f32 0x3E800000#32 := by
  rw [ofBits_four, ofBits_quarter, Ideal.div_coe (by norm_num : (4 : ℝ) ≠ 0)]

/-! ## Columns, heads and lanes -/

/-- The head of a column. -/
def headOf (c : Fin 64) : Fin 4 := ⟨c.val / 16, by omega⟩
/-- The lane of a column within its head. -/
def laneOf (c : Fin 64) : Fin 16 := ⟨c.val % 16, by omega⟩
/-- Lane `d` of head `h` as a column. -/
def colOf (h : Fin 4) (d : Fin 16) : Fin 64 := ⟨16 * h.val + d.val, by omega⟩

theorem colOf_head_lane (c : Fin 64) : colOf (headOf c) (laneOf c) = c := by
  apply Fin.ext; simp only [colOf, headOf, laneOf]; omega
theorem headOf_colOf (h : Fin 4) (d : Fin 16) : headOf (colOf h d) = h := by
  apply Fin.ext; simp only [colOf, headOf]; omega
theorem laneOf_colOf (h : Fin 4) (d : Fin 16) : laneOf (colOf h d) = d := by
  apply Fin.ext; simp only [colOf, laneOf]; omega

/-! ## The function -/

abbrev Mat (R C : Nat) := (⟨2, ![R, C]⟩ : Shape).Idx → EReal
abbrev EdgeList := IVec ⟨2, ![2, 800000]⟩ 32

/-- Entry `(r, c)` of `a · wᵀ`: row `r` of `a` against row `c` of `w`. -/
def lin {R : Nat} (a : Mat R 64) (w : Mat 64 64) (r : Fin R) (c : Fin 64) : EReal :=
  ∑ k : Fin 64, a (ix2 r k) * w (ix2 c k)

/-- A row number as a lookup normalises it before reading: a negative word counts from the end. -/
def wrap (v : BitVec 32) : BitVec 32 := Scalar.select (IntOp.cmpi .slt v 0#32) (IntOp.addi v 100000#32) v

/-- The node row a lookup reads for a word: wrapped, then clamped into the table. -/
def rowOf (v : BitVec 32) : Fin 100000 := ⟨clampRow 100000 (wrap v), clampRow_lt (by decide) _⟩

/-- The source and destination rows of edge `e` as the lookups read them. -/
def srcRow (ei : EdgeList) (e : Fin 800000) : Fin 100000 := rowOf (ei (ix2 (0 : Fin 2) e))
def dstRow (ei : EdgeList) (e : Fin 800000) : Fin 100000 := rowOf (ei (ix2 (1 : Fin 2) e))

section
variable (x : Mat 100000 64) (ea : Mat 800000 64) (wq wk we wv : Mat 64 64) (ei : EdgeList)

/-- Key times query times projected edge feature, scaled by a quarter, per edge and column. -/
def gate (e : Fin 800000) (c : Fin 64) : EReal :=
  lin x wk (srcRow ei e) c * lin x wq (dstRow ei e) c * lin ea we e c * Ideal.ofBits .f32 0x3E800000#32

/-- The attention weight of edge `e` in head `h`: the exponential of the head's lane sum clipped to [-5, 5]. -/
def score (e : Fin 800000) (h : Fin 4) : EReal :=
  Ideal.exp (min (Ideal.ofBits .f32 0x40A00000#32)
    (max (Ideal.ofBits .f32 0xC0A00000#32) (∑ d : Fin 16, gate x ea wq wk we ei e (colOf h d))))

/-- The message of edge `e` in column `c`: the source's value times the head's weight. -/
def msg (e : Fin 800000) (c : Fin 64) : EReal :=
  lin x wv (srcRow ei e) c * score x ea wq wk we ei e (headOf c)

/-- The edges a scatter-add lands on node `n`: those whose raw destination word, read signed, is `n`. -/
def landing (n : Fin 100000) : Finset (Fin 800000) :=
  Finset.univ.filter fun e => (ei (ix2 (1 : Fin 2) e)).toInt = (n.val : Int)

/-- THE RESULT at node `n`, column `c`. -/
def out (n : Fin 100000) (c : Fin 64) : EReal :=
  Ideal.div (∑ e ∈ landing ei n, msg x ea wq wk we wv ei e c)
    ((∑ e ∈ landing ei n, score x ea wq wk we ei e (headOf c)) + Ideal.ofBits .f32 0x358637BD#32)

end

end Cert.EdgeAttention

end
-- ==== Proof.KernelIdealHost1.lean ====
/-
  The second host stretch, read at an index (ideal instance).

  Between the two regions the host slices the two rows of the edge list out, wraps each word (a negative row
  number counts from the end) and looks the wrapped rows up in the projected array: the query columns 0…63 at each
  edge's destination, the key|value columns 64…191 at its source; a lookup clamps the wrapped word into the table.
  It also transposes the edge weight matrix.  So region 1 finds, in row e of its first two arrays, the key|value
  and the query projections of edge e's end nodes, and the transposed edge weights in the fourth.
-/
import proofs.«166772_j11476152615033_2_alg».proof.Proof.KernelIdealHost0
import proofs.«166772_j11476152615033_2_alg».proof.Proof.Spec
import proofs.«166772_j11476152615033_2_alg».proof.Proof.LibGatherRows
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem Idealize.ShloMosaic.StableHlo
open Cert.EdgeAttention Idealize.ShloMosaic.GatherRows

variable (m : (ℓ : Loc nD τ sig) → Buf (Elt Ideal) ℓ) (ρ : Dev nD → PrngReg)

/-! ## The pieces of the stretch, over variables -/

/-- A row of the 2 × 800000 edge list as a vector of 800000 words: the row sliced out, the unit axis dropped. -/
def edgeRowV (off : Fin 2 → Nat) (h : S2x800000.Slices off S1x800000) (ei : IVec S2x800000 32) : IVec S800000 32 :=
  shapeCast S800000 (extractStridedSlice S1x800000 off ei h) shapeCasts_S1x800000_S800000

/-- Entry `e` of row 0. -/
theorem edgeRowV_src (ei : IVec S2x800000 32) (e : Fin 800000) :
    edgeRowV ![0, 0] slices_S2x800000_S1x800000_0_0 ei (ix1 e) = ei (ix2 (0 : Fin 2) e) := by
  unfold edgeRowV
  refine (shapeCast_apply _ shapeCasts_S1x800000_S800000 (ix1 e) (ix2 (0 : Fin 1) e) (by
    rw [Shape.rowMajor_val_two, Shape.rowMajor_val_one]; show 0 * 800000 + e.val = e.val; omega)).trans ?_
  exact extractStridedSlice_apply _ _ _ (ix2 (0 : Fin 1) e) (ix2 (0 : Fin 2) e) (by
    intro a
    match a with
    | ⟨0, _⟩ => rfl
    | ⟨1, _⟩ => show e.val = 0 + e.val; omega)

/-- Entry `e` of row 1. -/
theorem edgeRowV_dst (ei : IVec S2x800000 32) (e : Fin 800000) :
    edgeRowV ![1, 0] slices_S2x800000_S1x800000_1_0 ei (ix1 e) = ei (ix2 (1 : Fin 2) e) := by
  unfold edgeRowV
  refine (shapeCast_apply _ shapeCasts_S1x800000_S800000 (ix1 e) (ix2 (0 : Fin 1) e) (by
    rw [Shape.rowMajor_val_two, Shape.rowMajor_val_one]; show 0 * 800000 + e.val = e.val; omega)).trans ?_
  exact extractStridedSlice_apply _ _ _ (ix2 (0 : Fin 1) e) (ix2 (1 : Fin 2) e) (by
    intro a
    match a with
    | ⟨0, _⟩ => rfl
    | ⟨1, _⟩ => show e.val = 0 + e.val; omega)

/-- A vector of row numbers, each negative one counted from the end, as the one-column index array a row
    lookup takes. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 100000#32))) v)

/-- Its entry for edge `e` is the wrapped word of `e`. -/
theorem wrapCol_apply (v : IVec S800000 32) (e : Fin 800000) : wrapCol v (ix2 e (0 : Fin 1)) = wrap (v (ix1 e)) := by
  unfold wrapCol
  refine (broadcastInDim_apply _ _ _ (ix2 e (0 : Fin 1)) (ix1 e) (by
    intro a
    match a with
    | ⟨0, _⟩ => rfl)).trans ?_
  rfl

/-- The row a lookup reads for edge `e` through a wrapped index column is `rowOf` of the edge's word. -/
theorem clamp_wrapCol (v : IVec S800000 32) (e : Fin 800000) :
    (⟨clampRow 100000 (wrapCol v (ix2 e (0 : Fin 1))), clampRow_lt (by decide) _⟩ : Fin 100000) = rowOf (v (ix1 e)) :=
  Fin.ext (by show clampRow 100000 (wrapCol v (ix2 e (0 : Fin 1))) = clampRow 100000 (wrap (v (ix1 e))); rw [wrapCol_apply])

/-- The 128-column lookup through a wrapped index column, at an entry. -/
theorem gather128_apply (x : S100000x128.Idx → EReal) (v : IVec S800000 32) (e : Fin 800000) (j : Fin 128) :
    Host.gather gather_S100000x128_S800000x1_S800000x128_1_0_n_n_0_1_1128 x (wrapCol v) (ix2 e j)
      = x (ix2 (rowOf (v (ix1 e))) j) := by
  refine (gather_rows_apply (by decide) gather_S100000x128_S800000x1_S800000x128_1_0_n_n_0_1_1128.wf x (wrapCol v) e j).trans ?_
  rw [clamp_wrapCol]

/-- The 64-column lookup through a wrapped index column, at an entry. -/
theorem gather64_apply (x : S100000x64.Idx → EReal) (v : IVec S800000 32) (e : Fin 800000) (j : Fin 64) :
    Host.gather gather_S100000x64_S800000x1_S800000x64_1_0_n_n_0_1_164 x (wrapCol v) (ix2 e j)
      = x (ix2 (rowOf (v (ix1 e))) j) := by
  refine (gather_rows_apply (by decide) gather_S100000x64_S800000x1_S800000x64_1_0_n_n_0_1_164.wf x (wrapCol v) e j).trans ?_
  rw [clamp_wrapCol]

/-- Columns 64…191 of a 100000 × 192 array, at an entry. -/
theorem slice_hi_apply (y : S100000x192.Idx → EReal) (r : Fin 100000) (j : Fin 128) :
    extractStridedSlice S100000x128 ![0, 64] y slices_S100000x192_S100000x128_0_64 (ix2 r j)
      = y (ix2 r (⟨64 + j.val, by omega⟩ : Fin 192)) :=
  extractStridedSlice_apply _ _ _ (ix2 r j) (ix2 r (⟨64 + j.val, by omega⟩ : Fin 192)) (by
    intro a
    match a with
    | ⟨0, _⟩ => show r.val = 0 + r.val; omega
    | ⟨1, _⟩ => rfl)

/-- Columns 0…63 of a 100000 × 192 array, at an entry. -/
theorem slice_lo_apply (y : S100000x192.Idx → EReal) (r : Fin 100000) (j : Fin 64) :
    extractStridedSlice S100000x64 ![0, 0] y slices_S100000x192_S100000x64_0_0 (ix2 r j)
      = y (ix2 r (⟨j.val, by omega⟩ : Fin 192)) :=
  extractStridedSlice_apply _ _ _ (ix2 r j) (ix2 r (⟨j.val, by omega⟩ : Fin 192)) (by
    intro a
    match a with
    | ⟨0, _⟩ => show r.val = 0 + r.val; omega
    | ⟨1, _⟩ => show j.val = 0 + j.val; omega)

/-! ## The stretch's results over any contents it starts from -/

set_option maxHeartbeats 2000000 in
/-- The key|value lookup: the rows that row 0 of the edge list names, in columns 64…191 of the projected array. -/
theorem stretch1_v25 (W : Valuation τ sig (Elt Ideal)) :
    StableHlo.after hostOps1 W (Proc.devRef .tc main_v25) = Host.gather gather_S100000x128_S800000x1_S800000x128_1_0_n_n_0_1_1128
      (extractStridedSlice S100000x128 ![0, 64] (W (Proc.devRef .tc main_v5)) slices_S100000x192_S100000x128_0_64)
      (wrapCol (edgeRowV ![0, 0] slices_S2x800000_S1x800000_0_0 (W (Proc.devRef .tc main_arg6)))) := by
  after_results_simp
  unfold wrapCol edgeRowV
  rfl

set_option maxHeartbeats 2000000 in
/-- The query lookup: the rows that row 1 of the edge list names, in columns 0…63 of the projected array. -/
theorem stretch1_v17 (W : Valuation τ sig (Elt Ideal)) :
    StableHlo.after hostOps1 W (Proc.devRef .tc main_v17) = Host.gather gather_S100000x64_S800000x1_S800000x64_1_0_n_n_0_1_164
      (extractStridedSlice S100000x64 ![0, 0] (W (Proc.devRef .tc main_v5)) slices_S100000x192_S100000x64_0_0)
      (wrapCol (edgeRowV ![1, 0] slices_S2x800000_S1x800000_1_0 (W (Proc.devRef .tc main_arg6)))) := by
  after_results_simp
  unfold wrapCol edgeRowV
  rfl

set_option maxHeartbeats 2000000 in
/-- The edge weight operand: the transposed matrix, narrowed. -/
theorem stretch1_v27 (W : Valuation τ sig (Elt Ideal)) :
    StableHlo.after hostOps1 W (Proc.devRef .tc main_v27) = truncf (F := Ideal) .bf16
      (transpose S64x64 [1, 0] (W (Proc.devRef .tc main_arg4)) transposes_S64x64_S64x64_1_0) bitsLt_bf16_f32 := by
  after_results_simp

set_option maxHeartbeats 2000000 in
/-- The destination words: row 1 of the edge list. -/
theorem stretch1_v9 (W : Valuation τ sig (Elt Ideal)) :
    StableHlo.after hostOps1 W (Proc.devRef .tc main_v9)
      = edgeRowV ![1, 0] slices_S2x800000_S1x800000_1_0 (W (Proc.devRef .tc main_arg6)) := by
  after_results_simp
  unfold edgeRowV
  rfl

/-! ## The edge list reaches the second stretch as launched -/

theorem W2_main_arg6 (c : Dev nD) : W2 m ρ c (Proc.devRef .tc main_arg6) = m ((c : Thread nD τ).loc main_arg6) :=
  (W2_other m ρ c main_arg6 (by decide) (by decide) (by decide)).trans (V1_arg m ρ c main_arg6 (by decide))

theorem W2_main_arg4 (c : Dev nD) : W2 m ρ c (Proc.devRef .tc main_arg4) = m ((c : Thread nD τ).loc main_arg4) :=
  (W2_other m ρ c main_arg4 (by decide) (by decide) (by decide)).trans (V1_arg m ρ c main_arg4 (by decide))

theorem W2_main_arg1 (c : Dev nD) : W2 m ρ c (Proc.devRef .tc main_arg1) = m ((c : Thread nD τ).loc main_arg1) :=
  (W2_other m ρ c main_arg1 (by decide) (by decide) (by decide)).trans (V1_arg m ρ c main_arg1 (by decide))

/-! ## What region 1 finds in its input arrays -/

/-- The gathered key|value rows as the stretch's operations over the projected array and the edge list. -/
theorem V3_main_v25_term (c : Dev nD) :
    V3 m ρ c main_v25 = Host.gather gather_S100000x128_S800000x1_S800000x128_1_0_n_n_0_1_1128
      (extractStridedSlice S100000x128 ![0, 64] (W2 m ρ c (Proc.devRef .tc main_v5)) slices_S100000x192_S100000x128_0_64)
      (wrapCol (edgeRowV ![0, 0] slices_S2x800000_S1x800000_0_0 (W2 m ρ c (Proc.devRef .tc main_arg6)))) :=
  stretch1_v25 (W2 m ρ c)

/-- Row `e` of the gathered key|value rows is columns 64…191 of the projected array's row for `e`'s source. -/
theorem V3_main_v25 (c : Dev nD) (e : Fin 800000) (j : Fin 128) :
    V3 m ρ c main_v25 (ix2 e j) = W2 m ρ c (Proc.devRef .tc main_v5)
      (ix2 (srcRow (m ((c : Thread nD τ).loc main_arg6)) e) (⟨64 + j.val, by omega⟩ : Fin 192)) := by
  rw [V3_main_v25_term, gather128_apply, slice_hi_apply, edgeRowV_src, W2_main_arg6]
  rfl

/-- The gathered query rows as the stretch's operations over the projected array and the edge list. -/
theorem V3_main_v17_term (c : Dev nD) :
    V3 m ρ c main_v17 = Host.gather gather_S100000x64_S800000x1_S800000x64_1_0_n_n_0_1_164
      (extractStridedSlice S100000x64 ![0, 0] (W2 m ρ c (Proc.devRef .tc main_v5)) slices_S100000x192_S100000x64_0_0)
      (wrapCol (edgeRowV ![1, 0] slices_S2x800000_S1x800000_1_0 (W2 m ρ c (Proc.devRef .tc main_arg6)))) :=
  stretch1_v17 (W2 m ρ c)

/-- Row `e` of the gathered query rows is columns 0…63 of the projected array's row for `e`'s destination. -/
theorem V3_main_v17 (c : Dev nD) (e : Fin 800000) (j : Fin 64) :
    V3 m ρ c main_v17 (ix2 e j) = W2 m ρ c (Proc.devRef .tc main_v5)
      (ix2 (dstRow (m ((c : Thread nD τ).loc main_arg6)) e) (⟨j.val, by omega⟩ : Fin 192)) := by
  rw [V3_main_v17_term, gather64_apply, slice_lo_apply, edgeRowV_dst, W2_main_arg6]
  rfl

/-- The edge weight operand is the transposed launch matrix. -/
theorem V3_main_v27 (c : Dev nD) (k j : Fin 64) :
    V3 m ρ c main_v27 (ix2 k j) = m ((c : Thread nD τ).loc main_arg4) (ix2 j k) := by
  have e : V3 m ρ c main_v27 = truncf (F := Ideal) .bf16
      (transpose S64x64 [1, 0] (W2 m ρ c (Proc.devRef .tc main_arg4)) transposes_S64x64_S64x64_1_0) bitsLt_bf16_f32 :=
    stretch1_v27 (W2 m ρ c)
  rw [e, truncf_apply, W2_main_arg4]
  exact transpose_apply [1, 0] _ _ (ix2 k j) (ix2 j k) (fun b => by
    match b with
    | ⟨0, _⟩ => rfl
    | ⟨1, _⟩ => rfl)

/-- The edge features reach region 1 as launched: the second stretch does not write them. -/
theorem V3_main_arg1 (c : Dev nD) : V3 m ρ c main_arg1 = m ((c : Thread nD τ).loc main_arg1) :=
  (StableHlo.after_of_writes_sub hostOps1 _ hostOps1_writes (by decide)).trans (W2_main_arg1 m ρ c)

/-- After region 1 the destination words are still row 1 of the launch edge list: region 1 writes none of the
    stretch's index vectors. -/
theorem W4_main_v9 (c : Dev nD) (e : Fin 800000) :
    W4 m ρ c (Proc.devRef .tc main_v9) (ix1 e) = m ((c : Thread nD τ).loc main_arg6) (ix2 (1 : Fin 2) e) := by
  have h43 : W4 m ρ c (Proc.devRef .tc main_v9) = W3 m ρ c (Proc.devRef .tc main_v9) :=
    W4_of_ne m ρ c main_v9 (by decide)
  have e9 : W3 m ρ c (Proc.devRef .tc main_v9)
      = edgeRowV ![1, 0] slices_S2x800000_S1x800000_1_0 (W2 m ρ c (Proc.devRef .tc main_arg6)) :=
    stretch1_v9 (W2 m ρ c)
  rw [h43, e9, edgeRowV_dst, W2_main_arg6]

end Cert.KernelIdeal.Hand

end
-- ==== Proof.LibScatterAddRows.lean ====
/-
  A scatter-add of rows into a table, read at an index.

  table.at[idx].add(updates) for a table of N rows, B integer row numbers and B update rows lowers to a
  stablehlo.scatter with an add body whose scatter indices are a [B, 1] array and whose update windows are whole
  rows. Update row b is added into the table row whose number is the word idx[b] read as a SIGNED integer; the
  word is neither wrapped nor clamped, and an update whose word names no row (negative, or N and above) is dropped.
  So entry (n, ·) of the result is the table's entry plus the sum of the same entry of every update row b with
  idx[b] = n as integers. Two layouts occur: rows of C numbers (operand [N, C], updates [B, C]) and rows that are
  H × D blocks (operand [N, H, D], updates [B, H, D]).

  The route: an update index lands on a table index exactly when, on every axis, its start plus its window
  coordinate is that index's coordinate (resultIdx?_eq_some_iff); for these dimension numbers the start is the row
  word on axis 0 and 0 elsewhere, the window coordinate 0 on axis 0 and the update's own coordinate elsewhere; the
  update indices that land on (n, c) are then exactly (b, c) over the rows b with idx[b] = n.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-! ## Any scatter -/

section
variable {s si u : Shape} (d : ScatterDims s si u)

/-- An update index lands on the operand index i exactly when start plus window coordinate is i's coordinate on
    every axis: the in-range test adds nothing, since i's coordinates are in range. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have hi := Option.some.inj heq
      have ha := h a
      rw [← hi]
      show _ = ((d.start j idx a + (d.window j a : Int)).toNat : Int)
      omega
    · intro hall
      congr 1
      funext a
      refine Fin.ext ?_
      have ha := h a
      have he := hall a
      show (d.start j idx a + (d.window j a : Int)).toNat = (i a).val
      omega
  · rename_i h
    constructor
    · intro heq; cases heq
    · intro hall
      exfalso
      apply h
      intro a
      have he := hall a
      have hlt := (i a).isLt
      omega

/-- The operand axes the update windows go to are the ones that are not inserted. -/
theorem mem_sKept (a : Fin s.rank) : a ∈ d.sKept ↔ a ∉ d.insertedWindowDims := by
  simp [ScatterDims.sKept, Shape.kept, List.mem_filter, List.mem_finRange]

/-- On an axis the scatter indices do not name, the window starts at 0. -/
theorem start_eq_zero {w : Nat} (j : u.Idx) (idx : IVec si w) (a : Fin s.rank)
    (ha : a ∉ d.scatterDimsToOperandDims) : d.start j idx a = 0 := by
  unfold ScatterDims.start; rw [dif_neg ha]

/-- On an inserted axis the window coordinate is 0. -/
theorem window_eq_zero (j : u.Idx) (a : Fin s.rank) (ha : a ∉ d.sKept) : d.window j a = 0 := by
  unfold ScatterDims.window; rw [dif_neg ha]

end

/-! ## Rows of C numbers -/

/-- Operand [N, C], scatter indices [B, 1], updates [B, C]: update row b goes to the row idx[b] names. -/
abbrev rowsDims (N C B : Nat)
    (wf : ScatterDims.WF ⟨2, ![N, C]⟩ ⟨2, ![B, 1]⟩ ⟨2, ![B, C]⟩ [1] [0] [0] 1) :
    ScatterDims ⟨2, ![N, C]⟩ ⟨2, ![B, 1]⟩ ⟨2, ![B, C]⟩ where
  updateWindowDims := [1]
  insertedWindowDims := [0]
  scatterDimsToOperandDims := [0]
  indexVectorDim := 1
  wf := wf

section Rows
variable {N C B w : Nat} (wf : ScatterDims.WF ⟨2, ![N, C]⟩ ⟨2, ![B, 1]⟩ ⟨2, ![B, C]⟩ [1] [0] [0] 1)

/-- The window of update (b, c') starts, on the row axis, at the word idx[b] read signed. -/
theorem rows_start0 (idx : IVec ⟨2, ![B, 1]⟩ w) (b : Fin B) (c' : Fin C) :
    (rowsDims N C B wf).start (ix2 b c') idx (⟨0, by decide⟩ : Fin 2) = (idx (ix2 b (0 : Fin 1))).toInt := by
  unfold ScatterDims.start
  rw [dif_pos (show (⟨0, by decide⟩ : Fin 2) ∈ (rowsDims N C B wf).scatterDimsToOperandDims from
    List.mem_singleton.mpr rfl)]
  have hsi : (rowsDims N C B wf).siIdx (ix2 b c')
      ⟨List.idxOf (⟨0, by decide⟩ : Fin 2) (rowsDims N C B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, c') on the column axis is c'. -/
theorem rows_window1 (b : Fin B) (c' : Fin C) :
    (rowsDims N C B wf).window (ix2 b c') (⟨1, by decide⟩ : Fin 2) = c'.val := by
  unfold ScatterDims.window
  rw [dif_pos ((mem_sKept _ _).mpr (by decide : ¬ (⟨1, by decide⟩ : Fin 2) ∈ ([0] : List (Fin 2))))]
  rfl

/-- Update (b, c') lands on table entry (n, c) exactly when the word idx[b], read signed, is n, and c' = c. -/
theorem rows_lands_iff (idx : IVec ⟨2, ![B, 1]⟩ w) (b : Fin B) (c' : Fin C) (n : Fin N) (c : Fin C) :
    (rowsDims N C B wf).resultIdx? (ix2 b c') idx = some (ix2 n c)
      ↔ (idx (ix2 b (0 : Fin 1))).toInt = (n.val : Int) ∧ c' = c := by
  rw [resultIdx?_eq_some_iff]
  have hw0 : (rowsDims N C B wf).window (ix2 b c') (⟨0, by decide⟩ : Fin 2) = 0 :=
    window_eq_zero _ _ _ (fun h => ((mem_sKept _ _).mp h) (List.mem_singleton.mpr rfl))
  have hs1 : (rowsDims N C B wf).start (ix2 b c') idx (⟨1, by decide⟩ : Fin 2) = 0 :=
    start_eq_zero _ _ _ _ (by decide : ¬ (⟨1, by decide⟩ : Fin 2) ∈ ([0] : List (Fin 2)))
  constructor
  · intro h
    have h0 := h (⟨0, by decide⟩ : Fin 2)
    have h1 := h (⟨1, by decide⟩ : Fin 2)
    rw [rows_start0, hw0] at h0
    rw [hs1, rows_window1] at h1
    refine ⟨?_, Fin.ext ?_⟩
    · have h0' : (idx (ix2 b (0 : Fin 1))).toInt + ((0 : Nat) : Int) = (n.val : Int) := h0
      omega
    · have h1' : (0 : Int) + (c'.val : Int) = (c.val : Int) := h1
      omega
  · rintro ⟨h0, rfl⟩ a
    match a with
    | ⟨0, _⟩ =>
      rw [rows_start0, hw0]
      show _ = (n.val : Int)
      omega
    | ⟨1, _⟩ =>
      rw [hs1, rows_window1]
      show _ = (c'.val : Int)
      omega

/-- Entry (n, c) of the scatter-add: the table's entry plus the sum, over the update rows b whose word idx[b] read
    signed is n, of entry c of update row b. -/
theorem scatterAdd_rows_apply {φ : FTy} (x : (⟨2, ![N, C]⟩ : Shape).Idx → EReal) (idx : IVec ⟨2, ![B, 1]⟩ w)
    (upd : (⟨2, ![B, C]⟩ : Shape).Idx → EReal) (n : Fin N) (c : Fin C) :
    Host.scatterAdd (F := Ideal) (φ := φ) (rowsDims N C B wf) x idx upd (ix2 n c)
      = x (ix2 n c) + ∑ b ∈ Finset.univ.filter (fun b : Fin B => (idx (ix2 b (0 : Fin 1))).toInt = (n.val : Int)),
          upd (ix2 b c) := by
  show x (ix2 n c) + ∑ j ∈ Finset.univ.filter
      (fun j => (rowsDims N C B wf).resultIdx? j idx = some (ix2 n c)), upd j = _
  congr 1
  refine Finset.sum_nbij' (fun j => (j 0 : Fin B)) (fun b => ix2 b c) ?_ ?_ ?_ ?_ ?_
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    exact Finset.mem_filter.mpr ⟨Finset.mem_univ _, h.1⟩
  · intro b hb
    exact Finset.mem_filter.mpr ⟨Finset.mem_univ _,
      (rows_lands_iff wf idx b c n c).mpr ⟨(Finset.mem_filter.mp hb).2, rfl⟩⟩
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show ix2 b c = ix2 b c'
    rw [h.2]
  · intro b _
    rfl
  · intro j hj
    obtain ⟨b, c', rfl⟩ : ∃ (b : Fin B) (c' : Fin C), j = ix2 b c' := ⟨j 0, j 1, eq_ix2 j⟩
    have h := (rows_lands_iff wf idx b c' n c).mp (Finset.mem_filter.mp hj).2
    show upd (ix2 b c') = upd (ix2 b c)
    rw [h.2]

end Rows

/-! ## Rows that are H × D blocks -/

/-- Operand [N, H, D], scatter indices [B, 1], updates [B, H, D]: update block b goes to the row idx[b] names. -/
abbrev rows3Dims (N H D B : Nat)
    (wf : ScatterDims.WF ⟨3, ![N, H, D]⟩ ⟨2, ![B, 1]⟩ ⟨3, ![B, H, D]⟩ [1, 2] [0] [0] 1) :
    ScatterDims ⟨3, ![N, H, D]⟩ ⟨2, ![B, 1]⟩ ⟨3, ![B, H, D]⟩ where
  updateWindowDims := [1, 2]
  insertedWindowDims := [0]
  scatterDimsToOperandDims := [0]
  indexVectorDim := 1
  wf := wf

section Rows3
variable {N H D B w : Nat} (wf : ScatterDims.WF ⟨3, ![N, H, D]⟩ ⟨2, ![B, 1]⟩ ⟨3, ![B, H, D]⟩ [1, 2] [0] [0] 1)

/-- The window of update (b, h', k') starts, on the row axis, at the word idx[b] read signed. -/
theorem rows3_start0 (idx : IVec ⟨2, ![B, 1]⟩ w) (b : Fin B) (h' : Fin H) (k' : Fin D) :
    (rows3Dims N H D B wf).start (ix3 b h' k') idx (⟨0, by decide⟩ : Fin 3) = (idx (ix2 b (0 : Fin 1))).toInt := by
  unfold ScatterDims.start
  rw [dif_pos (show (⟨0, by decide⟩ : Fin 3) ∈ (rows3Dims N H D B wf).scatterDimsToOperandDims from
    List.mem_singleton.mpr rfl)]
  have hsi : (rows3Dims N H D B wf).siIdx (ix3 b h' k')
      ⟨List.idxOf (⟨0, by decide⟩ : Fin 3) (rows3Dims N H D B wf).scatterDimsToOperandDims,
        List.idxOf_lt_length_iff.2 (List.mem_singleton.mpr rfl)⟩ = ix2 b (0 : Fin 1) := by
    funext a; refine Fin.ext ?_
    match a with
    | ⟨0, _⟩ => rfl
    | ⟨1, _⟩ => rfl
  rw [hsi]

/-- The window coordinate of update (b, h', k') on the second axis is h'. -/
theorem rows3_window1 (b : Fin B) (h' : Fin H) (k' : Fin D) :
    (rows3Dims N H D B wf).window (ix3 b h' k') (⟨1, by decide⟩ : Fin 3) = h'.val := by
  unfold ScatterDims.window
  rw [dif_pos ((mem_sKept _ _).mpr (by decide : ¬ (⟨1, by decide⟩ : Fin 3) ∈ ([0] : List (Fin 3))))]
  rfl

/-- The window coordinate of update (b, h', k') on the third axis is k'. -/
theorem rows3_window2 (b : Fin B) (h' : Fin H) (k' : Fin D) :
    (rows3Dims N H D B wf).window (ix3 b h' k') (⟨2, by decide⟩ : Fin 3) = k'.val := by
  unfold ScatterDims.window
  rw [dif_pos ((mem_sKept _ _).mpr (by decide : ¬ (⟨2, by decide⟩ : Fin 3) ∈ ([0] : List (Fin 3))))]
  rfl

/-- Update (b, h', k') lands on table entry (n, h, k) exactly when the word idx[b], read signed, is n, and
    (h', k') = (h, k). -/
theorem rows3_lands_iff (idx : IVec ⟨2, ![B, 1]⟩ w) (b : Fin B) (h' : Fin H) (k' : Fin D)
    (n : Fin N) (h : Fin H) (k : Fin D) :
    (rows3Dims N H D B wf).resultIdx? (ix3 b h' k') idx = some (ix3 n h k)
      ↔ (idx (ix2 b (0 : Fin 1))).toInt = (n.val : Int) ∧ h' = h ∧ k' = k := by
  rw [resultIdx?_eq_some_iff]
  have hw0 : (rows3Dims N H D B wf).window (ix3 b h' k') (⟨0, by decide⟩ : Fin 3) = 0 :=
    window_eq_zero _ _ _ (fun hm => ((mem_sKept _ _).mp hm) (List.mem_singleton.mpr rfl))
  have hs1 : (rows3Dims N H D B wf).start (ix3 b h' k') idx (⟨1, by decide⟩ : Fin 3) = 0 :=
    start_eq_zero _ _ _ _ (by decide : ¬ (⟨1, by decide⟩ : Fin 3) ∈ ([0] : List (Fin 3)))
  have hs2 : (rows3Dims N H D B wf).start (ix3 b h' k') idx (⟨2, by decide⟩ : Fin 3) = 0 :=
    start_eq_zero _ _ _ _ (by decide : ¬ (⟨2, by decide⟩ : Fin 3) ∈ ([0] : List (Fin 3)))
  constructor
  · intro hall
    have h0 := hall (⟨0, by decide⟩ : Fin 3)
    have h1 := hall (⟨1, by decide⟩ : Fin 3)
    have h2 := hall (⟨2, by decide⟩ : Fin 3)
    rw [rows3_start0, hw0] at h0
    rw [hs1, rows3_window1] at h1
    rw [hs2, rows3_window2] at h2
    refine ⟨?_, Fin.ext ?_, Fin.ext ?_⟩
    · have h0' : (idx (ix2 b (0 : Fin 1))).toInt + ((0 : Nat) : Int) = (n.val : Int) := h0
      omega
    · have h1' : (0 : Int) + (h'.val : Int) = (h.val : Int) := h1
      omega
    · have h2' : (0 : Int) + (k'.val : Int) = (k.val : Int) := h2
      omega
  · rintro ⟨h0, rfl, rfl⟩ a
    match a with
    | ⟨0, _⟩ =>
      rw [rows3_start0, hw0]
      show _ = (n.val : Int)
      omega
    | ⟨1, _⟩ =>
      rw [hs1, rows3_window1]
      show _ = (h'.val : Int)
      omega
    | ⟨2, _⟩ =>
      rw [hs2, rows3_window2]
      show _ = (k'.val : Int)
      omega

/-- Entry (n, h, k) of the scatter-add: the table's entry plus the sum, over the update blocks b whose word idx[b]
    read signed is n, of entry (h, k) of update block b. -/
theorem scatterAdd_rows3_apply {φ : FTy} (x : (⟨3, ![N, H, D]⟩ : Shape).Idx → EReal) (idx : IVec ⟨2, ![B, 1]⟩ w)
    (upd : (⟨3, ![B, H, D]⟩ : Shape).Idx → EReal) (n : Fin N) (h : Fin H) (k : Fin D) :
    Host.scatterAdd (F := Ideal) (φ := φ) (rows3Dims N H D B wf) x idx upd (ix3 n h k)
      = x (ix3 n h k) + ∑ b ∈ Finset.univ.filter (fun b : Fin B => (idx (ix2 b (0 : Fin 1))).toInt = (n.val : Int)),
          upd (ix3 b h k) := by
  show x (ix3 n h k) + ∑ j ∈ Finset.univ.filter
      (fun j => (rows3Dims N H D B wf).resultIdx? j idx = some (ix3 n h k)), upd j = _
  congr 1
  refine Finset.sum_nbij' (fun j => (j 0 : Fin B)) (fun b => ix3 b h k) ?_ ?_ ?_ ?_ ?_
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    exact Finset.mem_filter.mpr ⟨Finset.mem_univ _, hl.1⟩
  · intro b hb
    exact Finset.mem_filter.mpr ⟨Finset.mem_univ _,
      (rows3_lands_iff wf idx b h k n h k).mpr ⟨(Finset.mem_filter.mp hb).2, rfl, rfl⟩⟩
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show ix3 b h k = ix3 b h' k'
    rw [hl.2.1, hl.2.2]
  · intro b _
    rfl
  · intro j hj
    obtain ⟨b, h', k', rfl⟩ : ∃ (b : Fin B) (h' : Fin H) (k' : Fin D), j = ix3 b h' k' :=
      ⟨j 0, j 1, j 2, eq_ix3 j⟩
    have hl := (rows3_lands_iff wf idx b h' k' n h k).mp (Finset.mem_filter.mp hj).2
    show upd (ix3 b h' k') = upd (ix3 b h k)
    rw [hl.2.1, hl.2.2]

end Rows3

end Idealize.ShloMosaic.ScatterAddRows

end
-- ==== Proof.KernelIdealAgg.lean ====
/-
  The table of sums of the last host stretch, read at an index (ideal instance).

  After region 1 the host adds row e of the 800000×68 edge array into row dst[e] of a zero 100000×68 table (a word
  that names no row is dropped), splits the table into its 64 message columns and its 4 weight-sum columns,
  repeats each weight sum across its head's 16 lanes, adds ε and divides.  So entry (n, c) of the result is
      (Σ_{e lands on n} o[e, c]) / (Σ_{e lands on n} o[e, 64 + c/16] + ε).
-/
import proofs.«166772_j11476152615033_2_alg».proof.Proof.KernelIdealData
import proofs.«166772_j11476152615033_2_alg».proof.Proof.Spec
import proofs.«166772_j11476152615033_2_alg».proof.Proof.LibScatterAddRows
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen Cert.EdgeAttention
open Idealize.ShloMosaic Idealize.ShloMosaic.TcCoe Idealize.ShloMosaic.ValueIdx
open Idealize.SL Idealize.SL.Sem Idealize.ShloMosaic.StableHlo

/-- The table of sums: the edge rows added into the rows their destination words name. -/
def aggFn (o : S800000x68.Idx → EReal) (d : S800000.Idx → BitVec 32) : S100000x68.Idx → EReal :=
  Host.scatterAdd (F := Ideal) (φ := .f32) scatter_S100000x68_S800000x1_S800000x68_1_0_0_1
    (broadcastInDim S100000x68 ![] bcast_S_S100000x68 (constant (F := Ideal) S_ .f32 0x00000000#32))
    (broadcastInDim S800000x1 ![0] bcast_S800000_S800000x1_0 d) o

/-- The edges that land on node `n`, by their destination words. -/
def landsOn (d : S800000.Idx → BitVec 32) (n : Fin 100000) : Finset (Fin 800000) :=
  Finset.univ.filter fun e => (d (ix1 e)).toInt = (n.val : Int)

/-- Entry (n, j) of the table of sums. -/
theorem aggFn_apply (o : S800000x68.Idx → EReal) (d : S800000.Idx → BitVec 32) (n : Fin 100000) (j : Fin 68) :
    aggFn o d (ix2 n j) = ∑ e ∈ landsOn d n, o (ix2 e j) := by
  unfold aggFn
  refine (ScatterAddRows.scatterAdd_rows_apply (N := 100000) (C := 68) (B := 800000)
    scatter_S100000x68_S800000x1_S800000x68_1_0_0_1.wf _ _ o n j).trans ?_
  have hz : broadcastInDim S100000x68 ![] bcast_S_S100000x68 (constant (F := Ideal) S_ .f32 0x00000000#32) (ix2 n j) = 0 :=
    Ideal.ofBits_zero_f32
  rw [hz, zero_add]
  refine Finset.sum_congr ?_ fun _ _ => rfl
  unfold landsOn
  refine Finset.filter_congr fun e _ => ?_
  have hd : broadcastInDim S800000x1 ![0] bcast_S800000_S800000x1_0 d (ix2 e (0 : Fin 1)) = d (ix1 e) :=
    broadcastInDim_apply _ _ d (ix2 e (0 : Fin 1)) (ix1 e) (fun a => by
      match a with
      | ⟨0, _⟩ => rfl)
  rw [hd]

end Cert.KernelIdeal.Hand

end
-- ==== Proof.KernelIdealNorm.lean ====
/-
  The normalisation of the last host stretch, read at an index (ideal instance).

  After region 1 the host adds row e of the 800000×68 edge array into row dst[e] of a zero 100000×68 table (a word
  that names no row is dropped), splits the table into its 64 message columns and its 4 weight-sum columns,
  repeats each weight sum across its head's 16 lanes, adds ε and divides.  So entry (n, c) of the result is
      (Σ_{e lands on n} o[e, c]) / (Σ_{e lands on n} o[e, 64 + c/16] + ε).
-/
import proofs.«166772_j11476152615033_2_alg».proof.Proof.KernelIdealData
import proofs.«166772_j11476152615033_2_alg».proof.Proof.Spec
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen Cert.EdgeAttention
open Idealize.ShloMosaic Idealize.ShloMosaic.TcCoe Idealize.ShloMosaic.ValueIdx
open Idealize.SL Idealize.SL.Sem Idealize.ShloMosaic.StableHlo

/-- Column `k` of the four weight-sum columns of a table, as a 100000×1 array. -/
abbrev zcol0 (a : S100000x68.Idx → EReal) : S100000x16.Idx → EReal :=
  broadcastInDim S100000x16 ![0, 1] bcast_S100000x1_S100000x16_0_1 (extractStridedSlice S100000x1 ![0, 0] (extractStridedSlice S100000x4 ![0, 64] a slices_S100000x68_S100000x4_0_64) slices_S100000x4_S100000x1_0_0)
abbrev zcol1 (a : S100000x68.Idx → EReal) : S100000x16.Idx → EReal :=
  broadcastInDim S100000x16 ![0, 1] bcast_S100000x1_S100000x16_0_1 (extractStridedSlice S100000x1 ![0, 1] (extractStridedSlice S100000x4 ![0, 64] a slices_S100000x68_S100000x4_0_64) slices_S100000x4_S100000x1_0_1)
abbrev zcol2 (a : S100000x68.Idx → EReal) : S100000x16.Idx → EReal :=
  broadcastInDim S100000x16 ![0, 1] bcast_S100000x1_S100000x16_0_1 (extractStridedSlice S100000x1 ![0, 2] (extractStridedSlice S100000x4 ![0, 64] a slices_S100000x68_S100000x4_0_64) slices_S100000x4_S100000x1_0_2)
abbrev zcol3 (a : S100000x68.Idx → EReal) : S100000x16.Idx → EReal :=
  broadcastInDim S100000x16 ![0, 1] bcast_S100000x1_S100000x16_0_1 (extractStridedSlice S100000x1 ![0, 3] (extractStridedSlice S100000x4 ![0, 64] a slices_S100000x68_S100000x4_0_64) slices_S100000x4_S100000x1_0_3)

/-- Each head's weight sum repeated across its 16 lanes. -/
def zcat (a : S100000x68.Idx → EReal) : S100000x64.Idx → EReal :=
  concatenate S100000x64 1 [⟨S100000x16, zcol0 a⟩, ⟨S100000x16, zcol1 a⟩, ⟨S100000x16, zcol2 a⟩, ⟨S100000x16, zcol3 a⟩]
    concatenates_S100000x16_S100000x16_S100000x16_S100000x16_S100000x64_d1

/-- The normalised result from the table of sums. -/
def normFn (a : S100000x68.Idx → EReal) : S100000x64.Idx → EReal :=
  Host.divf (F := Ideal) (extractStridedSlice S100000x64 ![0, 0] a slices_S100000x68_S100000x64_0_0)
    (addf (zcat a) (broadcastInDim S100000x64 ![] bcast_S_S100000x64 (constant (F := Ideal) S_ .f32 0x358637BD#32)))

/-- A weight-sum column repeated: entry (n, d) is the table's column 64 + k. -/
theorem zcol0_apply (a : S100000x68.Idx → EReal) (n : Fin 100000) (d : Fin 16) : zcol0 a (ix2 n d) = a (ix2 n (⟨64, by omega⟩ : Fin 68)) := by
  refine (broadcastInDim_apply _ _ _ (ix2 n d) (ix2 n (0 : Fin 1)) (fun b => by
    match b with
    | ⟨0, _⟩ => rfl
    | ⟨1, _⟩ => rfl)).trans ?_
  refine (extractStridedSlice_apply _ _ _ (ix2 n (0 : Fin 1)) (ix2 n (0 : Fin 4)) (fun b => by
    match b with
    | ⟨0, _⟩ => show n.val = 0 + n.val; omega
    | ⟨1, _⟩ => rfl)).trans ?_
  exact extractStridedSlice_apply _ _ _ (ix2 n (0 : Fin 4)) (ix2 n (⟨64, by omega⟩ : Fin 68)) (fun b => by
    match b with
    | ⟨0, _⟩ => show n.val = 0 + n.val; omega
    | ⟨1, _⟩ => rfl)
theorem zcol1_apply (a : S100000x68.Idx → EReal) (n : Fin 100000) (d : Fin 16) : zcol1 a (ix2 n d) = a (ix2 n (⟨65, by omega⟩ : Fin 68)) := by
  refine (broadcastInDim_apply _ _ _ (ix2 n d) (ix2 n (0 : Fin 1)) (fun b => by
    match b with
    | ⟨0, _⟩ => rfl
    | ⟨1, _⟩ => rfl)).trans ?_
  refine (extractStridedSlice_apply _ _ _ (ix2 n (0 : Fin 1)) (ix2 n (1 : Fin 4)) (fun b => by
    match b with
    | ⟨0, _⟩ => show n.val = 0 + n.val; omega
    | ⟨1, _⟩ => rfl)).trans ?_
  exact extractStridedSlice_apply _ _ _ (ix2 n (1 : Fin 4)) (ix2 n (⟨65, by omega⟩ : Fin 68)) (fun b => by
    match b with
    | ⟨0, _⟩ => show n.val = 0 + n.val; omega
    | ⟨1, _⟩ => rfl)
theorem zcol2_apply (a : S100000x68.Idx → EReal) (n : Fin 100000) (d : Fin 16) : zcol2 a (ix2 n d) = a (ix2 n (⟨66, by omega⟩ : Fin 68)) := by
  refine (broadcastInDim_apply _ _ _ (ix2 n d) (ix2 n (0 : Fin 1)) (fun b => by
    match b with
    | ⟨0, _⟩ => rfl
    | ⟨1, _⟩ => rfl)).trans ?_
  refine (extractStridedSlice_apply _ _ _ (ix2 n (0 : Fin 1)) (ix2 n (2 : Fin 4)) (fun b => by
    match b with
    | ⟨0, _⟩ => show n.val = 0 + n.val; omega
    | ⟨1, _⟩ => rfl)).trans ?_
  exact extractStridedSlice_apply _ _ _ (ix2 n (2 : Fin 4)) (ix2 n (⟨66, by omega⟩ : Fin 68)) (fun b => by
    match b with
    | ⟨0, _⟩ => show n.val = 0 + n.val; omega
    | ⟨1, _⟩ => rfl)
theorem zcol3_apply (a : S100000x68.Idx → EReal) (n : Fin 100000) (d : Fin 16) : zcol3 a (ix2 n d) = a (ix2 n (⟨67, by omega⟩ : Fin 68)) := by
  refine (broadcastInDim_apply _ _ _ (ix2 n d) (ix2 n (0 : Fin 1)) (fun b => by
    match b with
    | ⟨0, _⟩ => rfl
    | ⟨1, _⟩ => rfl)).trans ?_
  refine (extractStridedSlice_apply _ _ _ (ix2 n (0 : Fin 1)) (ix2 n (3 : Fin 4)) (fun b => by
    match b with
    | ⟨0, _⟩ => show n.val = 0 + n.val; omega
    | ⟨1, _⟩ => rfl)).trans ?_
  exact extractStridedSlice_apply _ _ _ (ix2 n (3 : Fin 4)) (ix2 n (⟨67, by omega⟩ : Fin 68)) (fun b => by
    match b with
    | ⟨0, _⟩ => show n.val = 0 + n.val; omega
    | ⟨1, _⟩ => rfl)

/-- Entry (n, c) of the repeated weight sums is the table's column 64 + c/16. -/
theorem zcat_apply (a : S100000x68.Idx → EReal) (n : Fin 100000) (c : Fin 64) :
    zcat a (ix2 n c) = a (ix2 n (⟨64 + c.val / 16, by omega⟩ : Fin 68)) := by
  unfold zcat
  have hc := c.isLt
  rcases Nat.lt_or_ge c.val 16 with h0 | h0
  · refine (concatenate_apply_piece (t := S100000x64) (1 : Fin 2) [⟨S100000x16, zcol0 a⟩, ⟨S100000x16, zcol1 a⟩, ⟨S100000x16, zcol2 a⟩, ⟨S100000x16, zcol3 a⟩] concatenates_S100000x16_S100000x16_S100000x16_S100000x16_S100000x64_d1 (ix2 n c) 0 (by show (0 : Nat) < 4; omega) S100000x16 _ rfl rfl 0 rfl (ix2 n (⟨c.val, h0⟩ : Fin 16)) (fun b hb => by
      match b with
      | ⟨0, _⟩ => rfl
      | ⟨1, _⟩ => exact absurd rfl hb) (by show 0 + c.val = c.val; omega)).trans ?_
    rw [zcol0_apply]; exact congrArg a (congrArg (ix2 n) (Fin.ext (by show 64 = 64 + c.val / 16; omega)))
  rcases Nat.lt_or_ge c.val 32 with h1 | h1
  · refine (concatenate_apply_piece (t := S100000x64) (1 : Fin 2) [⟨S100000x16, zcol0 a⟩, ⟨S100000x16, zcol1 a⟩, ⟨S100000x16, zcol2 a⟩, ⟨S100000x16, zcol3 a⟩] concatenates_S100000x16_S100000x16_S100000x16_S100000x16_S100000x64_d1 (ix2 n c) 1 (by show (1 : Nat) < 4; omega) S100000x16 _ rfl rfl 16 rfl (ix2 n (⟨c.val - 16, by omega⟩ : Fin 16)) (fun b hb => by
      match b with
      | ⟨0, _⟩ => rfl
      | ⟨1, _⟩ => exact absurd rfl hb) (by show 16 + (c.val - 16) = c.val; omega)).trans ?_
    rw [zcol1_apply]; exact congrArg a (congrArg (ix2 n) (Fin.ext (by show 65 = 64 + c.val / 16; omega)))
  rcases Nat.lt_or_ge c.val 48 with h2 | h2
  · refine (concatenate_apply_piece (t := S100000x64) (1 : Fin 2) [⟨S100000x16, zcol0 a⟩, ⟨S100000x16, zcol1 a⟩, ⟨S100000x16, zcol2 a⟩, ⟨S100000x16, zcol3 a⟩] concatenates_S100000x16_S100000x16_S100000x16_S100000x16_S100000x64_d1 (ix2 n c) 2 (by show (2 : Nat) < 4; omega) S100000x16 _ rfl rfl 32 rfl (ix2 n (⟨c.val - 32, by omega⟩ : Fin 16)) (fun b hb => by
      match b with
      | ⟨0, _⟩ => rfl
      | ⟨1, _⟩ => exact absurd rfl hb) (by show 32 + (c.val - 32) = c.val; omega)).trans ?_
    rw [zcol2_apply]; exact congrArg a (congrArg (ix2 n) (Fin.ext (by show 66 = 64 + c.val / 16; omega)))
  · refine (concatenate_apply_piece (t := S100000x64) (1 : Fin 2) [⟨S100000x16, zcol0 a⟩, ⟨S100000x16, zcol1 a⟩, ⟨S100000x16, zcol2 a⟩, ⟨S100000x16, zcol3 a⟩] concatenates_S100000x16_S100000x16_S100000x16_S100000x16_S100000x64_d1 (ix2 n c) 3 (by show (3 : Nat) < 4; omega) S100000x16 _ rfl rfl 48 rfl (ix2 n (⟨c.val - 48, by omega⟩ : Fin 16)) (fun b hb => by
      match b with
      | ⟨0, _⟩ => rfl
      | ⟨1, _⟩ => exact absurd rfl hb) (by show 48 + (c.val - 48) = c.val; omega)).trans ?_
    rw [zcol3_apply]; exact congrArg a (congrArg (ix2 n) (Fin.ext (by show 67 = 64 + c.val / 16; omega)))

/-- Entry (n, c) of the normalised result. -/
theorem normFn_apply (a : S100000x68.Idx → EReal) (n : Fin 100000) (c : Fin 64) :
    normFn a (ix2 n c) = Ideal.div (a (ix2 n (⟨c.val, by omega⟩ : Fin 68)))
      (a (ix2 n (⟨64 + c.val / 16, by omega⟩ : Fin 68)) + Ideal.ofBits .f32 0x358637BD#32) := by
  unfold normFn
  show Ideal.div (extractStridedSlice S100000x64 ![0, 0] a slices_S100000x68_S100000x64_0_0 (ix2 n c))
    (zcat a (ix2 n c) + Ideal.ofBits .f32 0x358637BD#32) = _
  rw [zcat_apply, extractStridedSlice_apply _ a _ (ix2 n c) (ix2 n (⟨c.val, by omega⟩ : Fin 68)) (fun b => by
    match b with
    | ⟨0, _⟩ => show n.val = 0 + n.val; omega
    | ⟨1, _⟩ => show c.val = 0 + c.val; omega)]

end Cert.KernelIdeal.Hand

end
-- ==== Proof.KernelIdealHost2.lean ====
/-
  The last host stretch as one function of the buffers it reads (ideal instance).

  After region 1 the host adds row e of the 800000×68 edge array into row dst[e] of a zero 100000×68 table (a word
  that names no row is dropped), splits the table into its 64 message columns and its 4 weight-sum columns,
  repeats each weight sum across its head's 16 lanes, adds ε and divides.  So entry (n, c) of the result is
      (Σ_{e lands on n} o[e, c]) / (Σ_{e lands on n} o[e, 64 + c/16] + ε).
-/
import proofs.«166772_j11476152615033_2_alg».proof.Proof.KernelIdealAgg
import proofs.«166772_j11476152615033_2_alg».proof.Proof.KernelIdealNorm
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen Cert.EdgeAttention
open Idealize.ShloMosaic Idealize.ShloMosaic.TcCoe Idealize.ShloMosaic.ValueIdx
open Idealize.SL Idealize.SL.Sem Idealize.ShloMosaic.StableHlo

/-- Running a list of host operations in two parts. -/
theorem after_split (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => exact ih _

/-- The last five operations of the stretch (the four repeated weight sums set side by side, ε added, the
    quotient), over whatever the first fourteen leave. -/
theorem tail_last (W' : Valuation τ sig (Elt Ideal)) :
    StableHlo.after (List.drop 14 (hostOps2 : List (HloOp τ sig (Elt Ideal)))) W' (Proc.devRef .tc main_v45)
      = Host.divf (F := Ideal) (W' (Proc.devRef .tc main_v32))
          (addf (concatenate S100000x64 1 [⟨S100000x16, W' (Proc.devRef .tc main_v35)⟩, ⟨S100000x16, W' (Proc.devRef .tc main_v37)⟩,
              ⟨S100000x16, W' (Proc.devRef .tc main_v39)⟩, ⟨S100000x16, W' (Proc.devRef .tc main_v41)⟩]
              concatenates_S100000x16_S100000x16_S100000x16_S100000x16_S100000x64_d1)
            (broadcastInDim S100000x64 ![] bcast_S_S100000x64 (constant (F := Ideal) S_ .f32 0x358637BD#32))) := by
  show StableHlo.after [_, _, _, _, _] W' (Proc.devRef .tc main_v45) = _
  after_results
  rfl

set_option maxHeartbeats 2000000 in
/-- The first fourteen operations: the table of sums, its message columns, and each weight-sum column repeated. -/
theorem tail_v32 (W : Valuation τ sig (Elt Ideal)) :
    StableHlo.after (List.take 14 (hostOps2 : List (HloOp τ sig (Elt Ideal)))) W (Proc.devRef .tc main_v32)
      = extractStridedSlice S100000x64 ![0, 0] (aggFn (W (Proc.devRef .tc main_v28)) (W (Proc.devRef .tc main_v9))) slices_S100000x68_S100000x64_0_0 := by
  show StableHlo.after [_, _, _, _, _, _, _, _, _, _, _, _, _, _] W (Proc.devRef .tc main_v32) = _
  after_results_simp
  unfold aggFn
  rfl

set_option maxHeartbeats 2000000 in
theorem tail_v35 (W : Valuation τ sig (Elt Ideal)) :
    StableHlo.after (List.take 14 (hostOps2 : List (HloOp τ sig (Elt Ideal)))) W (Proc.devRef .tc main_v35)
      = zcol0 (aggFn (W (Proc.devRef .tc main_v28)) (W (Proc.devRef .tc main_v9))) := by
  show StableHlo.after [_, _, _, _, _, _, _, _, _, _, _, _, _, _] W (Proc.devRef .tc main_v35) = _
  after_results_simp
  unfold aggFn
  rfl

set_option maxHeartbeats 2000000 in
theorem tail_v37 (W : Valuation τ sig (Elt Ideal)) :
    StableHlo.after (List.take 14 (hostOps2 : List (HloOp τ sig (Elt Ideal)))) W (Proc.devRef .tc main_v37)
      = zcol1 (aggFn (W (Proc.devRef .tc main_v28)) (W (Proc.devRef .tc main_v9))) := by
  show StableHlo.after [_, _, _, _, _, _, _, _, _, _, _, _, _, _] W (Proc.devRef .tc main_v37) = _
  after_results_simp
  unfold aggFn
  rfl

set_option maxHeartbeats 2000000 in
theorem tail_v39 (W : Valuation τ sig (Elt Ideal)) :
    StableHlo.after (List.take 14 (hostOps2 : List (HloOp τ sig (Elt Ideal)))) W (Proc.devRef .tc main_v39)
      = zcol2 (aggFn (W (Proc.devRef .tc main_v28)) (W (Proc.devRef .tc main_v9))) := by
  show StableHlo.after [_, _, _, _, _, _, _, _, _, _, _, _, _, _] W (Proc.devRef .tc main_v39) = _
  after_results_simp
  unfold aggFn
  rfl

set_option maxHeartbeats 2000000 in
theorem tail_v41 (W : Valuation τ sig (Elt Ideal)) :
    StableHlo.after (List.take 14 (hostOps2 : List (HloOp τ sig (Elt Ideal)))) W (Proc.devRef .tc main_v41)
      = zcol3 (aggFn (W (Proc.devRef .tc main_v28)) (W (Proc.devRef .tc main_v9))) := by
  show StableHlo.after [_, _, _, _, _, _, _, _, _, _, _, _, _, _] W (Proc.devRef .tc main_v41) = _
  after_results_simp
  unfold aggFn
  rfl

/-- The last host stretch's result from the edge array and the destination words it starts from. -/
theorem tail_eq (W : Valuation τ sig (Elt Ideal)) :
    StableHlo.after hostOps2 W (Proc.devRef .tc main_v45) = normFn (aggFn (W (Proc.devRef .tc main_v28)) (W (Proc.devRef .tc main_v9))) := by
  have hsplit : (hostOps2 : List (HloOp τ sig (Elt Ideal))) = List.take 14 hostOps2 ++ List.drop 14 hostOps2 :=
    (List.take_append_drop 14 _).symm
  rw [hsplit, after_split, tail_last, tail_v32, tail_v35, tail_v37, tail_v39, tail_v41]
  unfold normFn zcat
  rfl

variable (m : (ℓ : Loc nD τ sig) → Buf (Elt Ideal) ℓ) (ρ : Dev nD → PrngReg)

/-- The program's result at the end of @main: the normalised table of sums of what region 1 left. -/
theorem W5_main_v45 (c : Dev nD) :
    W5 m ρ c (Proc.devRef .tc main_v45)
      = normFn (aggFn (W4 m ρ c (Proc.devRef .tc main_v28)) (W4 m ρ c (Proc.devRef .tc main_v9))) :=
  tail_eq (W4 m ρ c)

end Cert.KernelIdeal.Hand

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.KernelIdealPayload.lean ====
/-
  The values the two kernel bodies store, entry by entry, over the extended reals.

  The projection body stores the product of its block of node features with the weight matrix: entry (r, j) is
  Σ_k x (r, k) · w (k, j).  The edge body stores, for each edge (row) r of its block, 64 message entries followed by 4
  scores.  With K and V the two halves of a gathered key|value row, Q the gathered query row and E the edge feature row
  times the edge weights, the score of head h is

    exp (clip (Σ_{lane d} K (r, 16 h + d) · Q (r, 16 h + d) · E (r, 16 h + d) · ¼))        clipped to [-5, 5]

  and message entry j is V (r, j) times the score of head j / 16.  Each step that is not entrywise (a slice of columns, a
  sum over lanes kept as a column, a column spread over sixteen lanes, blocks laid side by side, a matrix product) is read
  at one entry by a lemma of its own; the entrywise steps read through by definition.
-/
import proofs.«166772_j11476152615033_2_alg».proof.Proof.Gen.KernelIdeal.Skeleton
import proofs.«166772_j11476152615033_2_alg».proof.Proof.KernelIdealData
import proofs.«166772_j11476152615033_2_alg».proof.Proof.Spec
import proofs.«166772_j11476152615033_2_alg».proof.Proof.LibDenseBlock
import proofs.«166772_j11476152615033_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Cert.EdgeAttention
open Idealize.ShloMosaic Idealize.ShloMosaic.ValueIdx

/-! ## Blocks laid side by side, read at an entry -/

section SideBySide
variable {α : Type}

/-- An index of a two-axis block agrees with another on the axis that is not the one laid along. -/
theorem offAxis_row {n m m' : Nat} (r : Fin n) (c : Fin m) (c' : Fin m') :
    ∀ b : Fin (⟨2, ![n, m]⟩ : Shape).rank, b.cast (rfl : (⟨2, ![n, m]⟩ : Shape).rank = (⟨2, ![n, m']⟩ : Shape).rank) ≠ (1 : Fin 2) →
      ((ix2 r c) b).val = ((ix2 r c') (b.cast rfl)).val := fun b hb => by
  match b, hb with
  | ⟨0, _⟩, _ => rfl
  | ⟨1, _⟩, hb => exact absurd rfl hb

/-- 64 columns beside 4: a column below 64 is the first block's. -/
theorem sideBySide_left (A : S8000x64.Idx → α) (B : S8000x4.Idx → α)
    (hc : Shape.Concatenates [S8000x64, S8000x4] S8000x68 1) (r : Fin 8000) (j : Fin 68) (hj : j.val < 64) :
    concatenate S8000x68 1 [⟨S8000x64, A⟩, ⟨S8000x4, B⟩] hc (ix2 r j) = A (ix2 r (⟨j.val, hj⟩ : Fin 64)) :=
  concatenate_pair_apply_left (1 : Fin 2) A B hc (ix2 r j) rfl (ix2 r (⟨j.val, hj⟩ : Fin 64)) fun b => by
    match b with
    | ⟨0, _⟩ => rfl
    | ⟨1, _⟩ => rfl

/-- 64 columns beside 4: a column from 64 on is the second block's, 64 columns back. -/
theorem sideBySide_right (A : S8000x64.Idx → α) (B : S8000x4.Idx → α)
    (hc : Shape.Concatenates [S8000x64, S8000x4] S8000x68 1) (r : Fin 8000) (j : Fin 68) (hj : 64 ≤ j.val) :
    concatenate S8000x68 1 [⟨S8000x64, A⟩, ⟨S8000x4, B⟩] hc (ix2 r j)
      = B (ix2 r (⟨j.val - 64, by have := j.isLt; omega⟩ : Fin 4)) :=
  concatenate_pair_apply_right (1 : Fin 2) A B hc (ix2 r j) rfl rfl (ix2 r (⟨j.val - 64, by have := j.isLt; omega⟩ : Fin 4))
    (offAxis_row r _ j) (by show j.val - 64 + 64 = j.val; omega)

/-- Four columns side by side: column `h` is the `h`-th of them. -/
theorem fourColumns_apply (c0 c1 c2 c3 : S8000x1.Idx → α)
    (hc : Shape.Concatenates [S8000x1, S8000x1, S8000x1, S8000x1] S8000x4 1) (r : Fin 8000) (g : Fin 4 → α)
    (h0 : c0 (ix2 r (0 : Fin 1)) = g 0) (h1 : c1 (ix2 r (0 : Fin 1)) = g 1)
    (h2 : c2 (ix2 r (0 : Fin 1)) = g 2) (h3 : c3 (ix2 r (0 : Fin 1)) = g 3) (h : Fin 4) :
    concatenate S8000x4 1 [⟨S8000x1, c0⟩, ⟨S8000x1, c1⟩, ⟨S8000x1, c2⟩, ⟨S8000x1, c3⟩] hc (ix2 r h) = g h := by
  match h with
  | ⟨0, _⟩ =>
    exact (concatenate_apply_piece (t := S8000x4) (1 : Fin 2) [⟨S8000x1, c0⟩, ⟨S8000x1, c1⟩, ⟨S8000x1, c2⟩, ⟨S8000x1, c3⟩] hc (ix2 r (⟨0, by omega⟩ : Fin 4)) 0 (by simp) S8000x1 c0 rfl rfl 0 rfl
      (ix2 r (0 : Fin 1)) (offAxis_row r _ _) rfl).trans h0
  | ⟨1, _⟩ =>
    exact (concatenate_apply_piece (t := S8000x4) (1 : Fin 2) [⟨S8000x1, c0⟩, ⟨S8000x1, c1⟩, ⟨S8000x1, c2⟩, ⟨S8000x1, c3⟩] hc (ix2 r (⟨1, by omega⟩ : Fin 4)) 1 (by simp) S8000x1 c1 rfl rfl 1 rfl
      (ix2 r (0 : Fin 1)) (offAxis_row r _ _) rfl).trans h1
  | ⟨2, _⟩ =>
    exact (concatenate_apply_piece (t := S8000x4) (1 : Fin 2) [⟨S8000x1, c0⟩, ⟨S8000x1, c1⟩, ⟨S8000x1, c2⟩, ⟨S8000x1, c3⟩] hc (ix2 r (⟨2, by omega⟩ : Fin 4)) 2 (by simp) S8000x1 c2 rfl rfl 2 rfl
      (ix2 r (0 : Fin 1)) (offAxis_row r _ _) rfl).trans h2
  | ⟨3, _⟩ =>
    exact (concatenate_apply_piece (t := S8000x4) (1 : Fin 2) [⟨S8000x1, c0⟩, ⟨S8000x1, c1⟩, ⟨S8000x1, c2⟩, ⟨S8000x1, c3⟩] hc (ix2 r (⟨3, by omega⟩ : Fin 4)) 3 (by simp) S8000x1 c3 rfl rfl 3 rfl
      (ix2 r (0 : Fin 1)) (offAxis_row r _ _) rfl).trans h3

/-- Four blocks of sixteen lanes side by side: lane `d` of head `h` is lane `d` of the `h`-th block. -/
theorem fourBlocks_apply (b0 b1 b2 b3 : S8000x16.Idx → α)
    (hc : Shape.Concatenates [S8000x16, S8000x16, S8000x16, S8000x16] S8000x64 1) (r : Fin 8000) (g : Fin 4 → Fin 16 → α)
    (h0 : ∀ d, b0 (ix2 r d) = g 0 d) (h1 : ∀ d, b1 (ix2 r d) = g 1 d)
    (h2 : ∀ d, b2 (ix2 r d) = g 2 d) (h3 : ∀ d, b3 (ix2 r d) = g 3 d) (h : Fin 4) (d : Fin 16) :
    concatenate S8000x64 1 [⟨S8000x16, b0⟩, ⟨S8000x16, b1⟩, ⟨S8000x16, b2⟩, ⟨S8000x16, b3⟩] hc (ix2 r (colOf h d)) = g h d := by
  match h with
  | ⟨0, _⟩ =>
    exact (concatenate_apply_piece (t := S8000x64) (1 : Fin 2) [⟨S8000x16, b0⟩, ⟨S8000x16, b1⟩, ⟨S8000x16, b2⟩, ⟨S8000x16, b3⟩] hc (ix2 r (colOf (⟨0, by omega⟩ : Fin 4) d)) 0 (by simp) S8000x16 b0 rfl rfl 0 rfl
      (ix2 r d) (offAxis_row r _ _) (by show 0 + d.val = 16 * 0 + d.val; omega)).trans (h0 d)
  | ⟨1, _⟩ =>
    exact (concatenate_apply_piece (t := S8000x64) (1 : Fin 2) [⟨S8000x16, b0⟩, ⟨S8000x16, b1⟩, ⟨S8000x16, b2⟩, ⟨S8000x16, b3⟩] hc (ix2 r (colOf (⟨1, by omega⟩ : Fin 4) d)) 1 (by simp) S8000x16 b1 rfl rfl 16 rfl
      (ix2 r d) (offAxis_row r _ _) (by show 16 + d.val = 16 * 1 + d.val; omega)).trans (h1 d)
  | ⟨2, _⟩ =>
    exact (concatenate_apply_piece (t := S8000x64) (1 : Fin 2) [⟨S8000x16, b0⟩, ⟨S8000x16, b1⟩, ⟨S8000x16, b2⟩, ⟨S8000x16, b3⟩] hc (ix2 r (colOf (⟨2, by omega⟩ : Fin 4) d)) 2 (by simp) S8000x16 b2 rfl rfl 32 rfl
      (ix2 r d) (offAxis_row r _ _) (by show 32 + d.val = 16 * 2 + d.val; omega)).trans (h2 d)
  | ⟨3, _⟩ =>
    exact (concatenate_apply_piece (t := S8000x64) (1 : Fin 2) [⟨S8000x16, b0⟩, ⟨S8000x16, b1⟩, ⟨S8000x16, b2⟩, ⟨S8000x16, b3⟩] hc (ix2 r (colOf (⟨3, by omega⟩ : Fin 4) d)) 3 (by simp) S8000x16 b3 rfl rfl 48 rfl
      (ix2 r d) (offAxis_row r _ _) (by show 48 + d.val = 16 * 3 + d.val; omega)).trans (h3 d)

end SideBySide

/-! ## Columns cut out, a lane sum kept as a column, a column spread over the lanes -/

/-- The sum over the sixteen lanes from column `o` of a 64-column block, kept as a column: row `r` holds
    Σ_d X (r, o + d). -/
theorem laneSum_column_apply (o : Nat) (ho : o + 16 ≤ 64) (X : FVec Ideal S8000x64 .f32)
    (hs : S8000x64.Slices ![0, o] S8000x16) (hc : S8000.ShapeCasts S8000x1) (r : Fin 8000) (u : Fin 1) :
    shapeCast S8000x1 (multiReduction (F := Ideal) .add [1] S8000 (extractStridedSlice S8000x16 ![0, o] X hs) 0x00000000#32
        reduces_S8000x16_S8000 (.inl rfl) rfl) hc (ix2 r u)
      = ∑ d : Fin 16, X (ix2 r (⟨o + d.val, by have := d.isLt; omega⟩ : Fin 64)) := by
  refine (Column.shapeCast_a_a1_apply _ hc r u).trans ?_
  refine (Ideal.multiReduction_add_single _ _ reduces_S8000x16_S8000 (.inl rfl) rfl (ix1 r)).trans ?_
  refine Finset.sum_congr rfl fun d _ => ?_
  have e : reduces_S8000x16_S8000.lift (ix1 r) d = ix2 r d := funext fun a => Fin.ext (by
    match a with
    | ⟨0, _⟩ => rfl
    | ⟨1, _⟩ => rfl)
  exact (congrArg _ e).trans (slice2_axis1_eq o X hs r d)

/-- Column `k` of a four-column block, spread over sixteen lanes: every lane of row `r` holds P (r, k). -/
theorem headColumn_apply (k : Nat) (hk : k < 4) (P : FVec Ideal S8000x4 .f32) (hs : S8000x4.Slices ![0, k] S8000x1)
    (hcast : S8000x1.ShapeCasts S8000x1) (hb : S8000x1.Broadcasts S8000x16) (r : Fin 8000) (d : Fin 16) :
    broadcastTo S8000x16 (shapeCast S8000x1 (extractStridedSlice S8000x1 ![0, k] P hs) hcast) hb (ix2 r d)
      = P (ix2 r (⟨k, hk⟩ : Fin 4)) := by
  refine (Column.broadcastTo_a1_ab_apply _ hb r d).trans ?_
  rw [shapeCast_self]
  refine (slice2_axis1_eq k P hs r (0 : Fin 1)).trans ?_
  exact congrArg P (congrArg (fun c => ix2 r c) (Fin.ext (Nat.add_zero k)))

/-! ## The projection body -/

/-- Entry (r, j) of what the projection body stores: row `r` of the feature block against column `j` of the weights. -/
theorem projVal (v0 : Vec Ideal S5000x64 .f32) (v2 : Vec Ideal S64x192 .bf16) (r : Fin 5000) (j : Fin 192) :
    k0_pay1 (F := Ideal) v0 v2 (ix2 r j) = ∑ k : Fin 64, v0 (ix2 r k) * v2 (ix2 k j) := by
  unfold k0_pay1
  refine (DenseBlock.matmul_zero_apply dot_S5000x64_S64x192_S5000x192_1_0_0_1_n_n_wf _ _ r j).trans ?_
  refine Finset.sum_congr rfl fun k _ => ?_
  exact congrArg (fun t => v0 (ix2 r k) * t) (congrFun (shapeCast_self v2 shapeCasts_S64x192_S64x192) (ix2 k j))

/-! ## The edge body: keys, values, projected edge features -/

/-- The shape cast of the key|value block to its own shape changes nothing. -/
theorem pay2_eq (v0 : Vec Ideal S8000x128 .f32) : k1_pay2 (F := Ideal) v0 = v0 :=
  shapeCast_self v0 shapeCasts_S8000x128_S8000x128

/-- The key half: columns 0…63 of a gathered key|value row. -/
theorem keyHalf_apply (v0 : Vec Ideal S8000x128 .f32) (r : Fin 8000) (c : Fin 64) :
    extractStridedSlice S8000x64 ![0, 0] (k1_pay2 (F := Ideal) v0) slices_S8000x128_o0_0_S8000x64 (ix2 r c)
      = v0 (ix2 r (⟨c.val, by have := c.isLt; omega⟩ : Fin 128)) := by
  refine (slice2_axis1_eq 0 _ slices_S8000x128_o0_0_S8000x64 r c).trans ?_
  refine (congrFun (pay2_eq v0) _).trans ?_
  exact congrArg v0 (congrArg (fun c => ix2 r c) (Fin.ext (Nat.zero_add c.val)))

/-- The value half: columns 64…127 of a gathered key|value row. -/
theorem valHalf_apply (v0 : Vec Ideal S8000x128 .f32) (r : Fin 8000) (c : Fin 64) :
    k1_pay3 (F := Ideal) v0 (ix2 r c) = v0 (ix2 r (⟨64 + c.val, by have := c.isLt; omega⟩ : Fin 128)) := by
  unfold k1_pay3
  refine (slice2_axis1_eq 64 _ slices_S8000x128_o0_64_S8000x64 r c).trans ?_
  exact congrFun (pay2_eq v0) _

/-- The projected edge features: row `r` of the edge features against column `c` of the edge weights. -/
theorem edgeProj_apply (v6 : Vec Ideal S8000x64 .f32) (v8 : Vec Ideal S64x64 .bf16) (r : Fin 8000) (c : Fin 64) :
    matmul (F := Ideal) dot_S8000x64_S64x64_S8000x64_1_0_0_1_n_n none (truncf .bf16 v6 bitsLt_bf16_f32)
        (shapeCast S64x64 v8 shapeCasts_S64x64_S64x64 : FVec Ideal S64x64 .bf16) (constant S8000x64 .f32 0x00000000#32) (ix2 r c)
      = ∑ k : Fin 64, v6 (ix2 r k) * v8 (ix2 k c) := by
  refine (DenseBlock.matmul_zero_apply dot_S8000x64_S64x64_S8000x64_1_0_0_1_n_n_wf _ _ r c).trans ?_
  refine Finset.sum_congr rfl fun k _ => ?_
  exact congrArg (fun t => v6 (ix2 r k) * t) (congrFun (shapeCast_self v8 shapeCasts_S64x64_S64x64) (ix2 k c))

/-- Keys times queries times projected edge features, scaled by a quarter: the block whose lanes are summed. -/
def gateBlock (v0 : Vec Ideal S8000x128 .f32) (v4 v6 : Vec Ideal S8000x64 .f32) (v8 : Vec Ideal S64x64 .bf16) :
    FVec Ideal S8000x64 .f32 :=
  mulf (mulf (mulf (extractStridedSlice S8000x64 ![0, 0] (k1_pay2 (F := Ideal) v0) slices_S8000x128_o0_0_S8000x64)
        (shapeCast S8000x64 v4 shapeCasts_S8000x64_S8000x64))
      (matmul (F := Ideal) dot_S8000x64_S64x64_S8000x64_1_0_0_1_n_n none (truncf .bf16 v6 bitsLt_bf16_f32)
        (shapeCast S64x64 v8 shapeCasts_S64x64_S64x64 : FVec Ideal S64x64 .bf16) (constant S8000x64 .f32 0x00000000#32)))
    (broadcast S8000x64 (Scalar.ofBits (F := Ideal) .f32 0x3E800000#32))

/-- One entry of that block. -/
theorem gateBlock_apply (v0 : Vec Ideal S8000x128 .f32) (v4 v6 : Vec Ideal S8000x64 .f32) (v8 : Vec Ideal S64x64 .bf16)
    (r : Fin 8000) (c : Fin 64) :
    gateBlock v0 v4 v6 v8 (ix2 r c)
      = v0 (ix2 r (⟨c.val, by have := c.isLt; omega⟩ : Fin 128)) * v4 (ix2 r c)
          * (∑ k : Fin 64, v6 (ix2 r k) * v8 (ix2 k c)) * Ideal.ofBits .f32 0x3E800000#32 := by
  unfold gateBlock
  refine congrArg (fun t => t * Ideal.ofBits .f32 0x3E800000#32) ?_
  refine congrArg₂ (· * ·) (congrArg₂ (· * ·) (keyHalf_apply v0 r c) ?_) (edgeProj_apply v6 v8 r c)
  exact congrFun (shapeCast_self v4 shapeCasts_S8000x64_S8000x64) (ix2 r c)

/-! ## The edge body: scores and messages -/

/-- The weight of the edge in row r of a block, head h. -/
def edgeScore (v0 : Vec Ideal S8000x128 .f32) (v4 v6 : Vec Ideal S8000x64 .f32) (v8 : Vec Ideal S64x64 .bf16) (r : Fin 8000) (h : Fin 4) : EReal :=
  Ideal.exp (min (Ideal.ofBits .f32 0x40A00000#32) (max (Ideal.ofBits .f32 0xC0A00000#32)
    (∑ d : Fin 16, v0 (ix2 r (⟨(colOf h d).val, by have := (colOf h d).isLt; omega⟩ : Fin 128)) * v4 (ix2 r (colOf h d))
        * (∑ k : Fin 64, v6 (ix2 r k) * v8 (ix2 k (colOf h d))) * Ideal.ofBits .f32 0x3E800000#32)))

/-- The lane sum of head `h`, kept as a column, read at row `r`: the sum the score clips. -/
theorem headSum_apply (v0 : Vec Ideal S8000x128 .f32) (v4 v6 : Vec Ideal S8000x64 .f32) (v8 : Vec Ideal S64x64 .bf16)
    (o : Nat) (ho : o + 16 ≤ 64) (h : Fin 4) (hoh : o = 16 * h.val)
    (hs : S8000x64.Slices ![0, o] S8000x16) (hc : S8000.ShapeCasts S8000x1) (r : Fin 8000) (u : Fin 1) :
    shapeCast S8000x1 (multiReduction (F := Ideal) .add [1] S8000 (extractStridedSlice S8000x16 ![0, o] (gateBlock v0 v4 v6 v8) hs)
        0x00000000#32 reduces_S8000x16_S8000 (.inl rfl) rfl) hc (ix2 r u)
      = ∑ d : Fin 16, v0 (ix2 r (⟨(colOf h d).val, by have := (colOf h d).isLt; omega⟩ : Fin 128)) * v4 (ix2 r (colOf h d))
          * (∑ k : Fin 64, v6 (ix2 r k) * v8 (ix2 k (colOf h d))) * Ideal.ofBits .f32 0x3E800000#32 := by
  refine (laneSum_column_apply o ho _ hs hc r u).trans (Finset.sum_congr rfl fun d _ => ?_)
  have e : (⟨o + d.val, by have := d.isLt; omega⟩ : Fin 64) = colOf h d := Fin.ext (by
    show o + d.val = 16 * h.val + d.val
    omega)
  rw [e]
  exact gateBlock_apply v0 v4 v6 v8 r (colOf h d)

/-- The score block at (r, h): the weight of edge `r` in head `h`. -/
theorem pay4_apply (v0 : Vec Ideal S8000x128 .f32) (v4 v6 : Vec Ideal S8000x64 .f32) (v8 : Vec Ideal S64x64 .bf16)
    (r : Fin 8000) (h : Fin 4) :
    k1_pay4 (F := Ideal) v0 v4 v6 v8 (ix2 r h) = edgeScore v0 v4 v6 v8 r h := by
  unfold k1_pay4 edgeScore
  refine congrArg Ideal.exp (congrArg (min (Ideal.ofBits .f32 0x40A00000#32)) (congrArg (max (Ideal.ofBits .f32 0xC0A00000#32)) ?_))
  refine fourColumns_apply _ _ _ _ _ r
    (fun h => ∑ d : Fin 16, v0 (ix2 r (⟨(colOf h d).val, by have := (colOf h d).isLt; omega⟩ : Fin 128)) * v4 (ix2 r (colOf h d))
        * (∑ k : Fin 64, v6 (ix2 r k) * v8 (ix2 k (colOf h d))) * Ideal.ofBits .f32 0x3E800000#32) ?_ ?_ ?_ ?_ h
  · exact headSum_apply v0 v4 v6 v8 0 (by omega) 0 rfl _ _ r 0
  · exact headSum_apply v0 v4 v6 v8 16 (by omega) 1 rfl _ _ r 0
  · exact headSum_apply v0 v4 v6 v8 32 (by omega) 2 rfl _ _ r 0
  · exact headSum_apply v0 v4 v6 v8 48 (by omega) 3 rfl _ _ r 0

/-- The four score columns, each spread over its head's sixteen lanes and laid side by side: column `c` of row `r`
    holds the weight of edge `r` in the head of `c`. -/
theorem spread_apply (v0 : Vec Ideal S8000x128 .f32) (v4 v6 : Vec Ideal S8000x64 .f32) (v8 : Vec Ideal S64x64 .bf16)
    (r : Fin 8000) (c : Fin 64) :
    concatenate S8000x64 1 [⟨S8000x16, k1_pay5 (F := Ideal) v0 v4 v6 v8⟩, ⟨S8000x16, k1_pay6 (F := Ideal) v0 v4 v6 v8⟩,
        ⟨S8000x16, k1_pay7 (F := Ideal) v0 v4 v6 v8⟩,
        ⟨S8000x16, broadcastTo S8000x16 (shapeCast S8000x1 (k1_pay8 (F := Ideal) v0 v4 v6 v8) shapeCasts_S8000x1_S8000x1)
          broadcasts_S8000x1_S8000x16⟩]
        concatenates_S8000x16_S8000x16_S8000x16_S8000x16_S8000x64_d1 (ix2 r c)
      = edgeScore v0 v4 v6 v8 r (headOf c) := by
  have key := fourBlocks_apply (α := EReal) _ _ _ _ concatenates_S8000x16_S8000x16_S8000x16_S8000x16_S8000x64_d1 r
    (fun h _ => edgeScore v0 v4 v6 v8 r h)
    (fun d => (headColumn_apply 0 (by omega) (k1_pay4 (F := Ideal) v0 v4 v6 v8) slices_S8000x4_o0_0_S8000x1
      shapeCasts_S8000x1_S8000x1 broadcasts_S8000x1_S8000x16 r d).trans (pay4_apply v0 v4 v6 v8 r 0))
    (fun d => (headColumn_apply 1 (by omega) (k1_pay4 (F := Ideal) v0 v4 v6 v8) slices_S8000x4_o0_1_S8000x1
      shapeCasts_S8000x1_S8000x1 broadcasts_S8000x1_S8000x16 r d).trans (pay4_apply v0 v4 v6 v8 r 1))
    (fun d => (headColumn_apply 2 (by omega) (k1_pay4 (F := Ideal) v0 v4 v6 v8) slices_S8000x4_o0_2_S8000x1
      shapeCasts_S8000x1_S8000x1 broadcasts_S8000x1_S8000x16 r d).trans (pay4_apply v0 v4 v6 v8 r 2))
    (fun d => (headColumn_apply 3 (by omega) (k1_pay4 (F := Ideal) v0 v4 v6 v8) slices_S8000x4_o0_3_S8000x1
      shapeCasts_S8000x1_S8000x1 broadcasts_S8000x1_S8000x16 r d).trans (pay4_apply v0 v4 v6 v8 r 3))
    (headOf c) (laneOf c)
  rw [colOf_head_lane] at key
  exact key

/-- A message entry of what the edge body stores: the value times the weight of the entry's head. -/
theorem edgeVal_msg (v0 : Vec Ideal S8000x128 .f32) (v4 v6 : Vec Ideal S8000x64 .f32) (v8 : Vec Ideal S64x64 .bf16)
    (r : Fin 8000) (j : Fin 68) (hj : j.val < 64) :
    edgeVal (F := Ideal) v0 v4 v6 v8 (ix2 r j)
      = v0 (ix2 r (⟨64 + j.val, by omega⟩ : Fin 128)) * edgeScore v0 v4 v6 v8 r ⟨j.val / 16, by omega⟩ := by
  unfold edgeVal k1_pay1
  refine (sideBySide_left _ _ _ r j hj).trans ?_
  exact congrArg₂ (· * ·) (valHalf_apply v0 r ⟨j.val, hj⟩) (spread_apply v0 v4 v6 v8 r ⟨j.val, hj⟩)

/-- A score entry of what the edge body stores: the weight of the edge in the head the column names. -/
theorem edgeVal_score (v0 : Vec Ideal S8000x128 .f32) (v4 v6 : Vec Ideal S8000x64 .f32) (v8 : Vec Ideal S64x64 .bf16)
    (r : Fin 8000) (j : Fin 68) (hj : 64 ≤ j.val) :
    edgeVal (F := Ideal) v0 v4 v6 v8 (ix2 r j) = edgeScore v0 v4 v6 v8 r ⟨j.val - 64, by have := j.isLt; omega⟩ := by
  unfold edgeVal k1_pay1
  refine (sideBySide_right _ _ _ r j hj).trans ?_
  exact pay4_apply v0 v4 v6 v8 r _

end Cert.KernelIdeal.Hand

end
-- ==== Proof.KernelIdealArr1.lean ====
/-
  Region 1's result array after the run, at the ideal instance.

  Grid point `t` of the edge kernel handles edges 8000·t … 8000·t+7999: row r of its 8000×68 block is computed
  from row 8000·t + r of the gathered key|value rows, of the gathered query rows and of the edge features, and
  from the whole edge weight matrix.  So the block entry is a function of the ARRAY index (8000·t + r, j) alone:
  the message value·weight in columns 0…63, the head's weight in columns 64…67.  The hundred blocks tile the
  800000×68 array.
-/
import proofs.«166772_j11476152615033_2_alg».proof.Proof.KernelIdealArr0
import proofs.«166772_j11476152615033_2_alg».proof.Proof.KernelIdealPayload
import proofs.«166772_j11476152615033_2_alg».proof.Proof.Spec

set_option maxRecDepth 16384

noncomputable section

open scoped BigOperators

namespace Cert.KernelIdeal.Hand

open Cert.KernelIdeal Cert.KernelIdeal.Gen Cert.EdgeAttention
open Idealize.ShloMosaic Idealize.ShloMosaic.TcCoe Idealize.ShloMosaic.ValueIdx
open Idealize.SL Idealize.SL.Sem
open Idealize.ShloMosaic.Pipeline (Dat)

/-- The weight of edge `e` in head `h`, from the whole arrays. -/
def scoreAll (kv : S800000x128.Idx → EReal) (q ea : S800000x64.Idx → EReal) (we : S64x64.Idx → EReal)
    (e : Fin 800000) (h : Fin 4) : EReal :=
  Ideal.exp (min (Ideal.ofBits .f32 0x40A00000#32) (max (Ideal.ofBits .f32 0xC0A00000#32)
    (∑ d : Fin 16, kv (ix2 e (⟨(colOf h d).val, by have := (colOf h d).isLt; omega⟩ : Fin 128)) * q (ix2 e (colOf h d))
        * (∑ k : Fin 64, ea (ix2 e k) * we (ix2 k (colOf h d))) * Ideal.ofBits .f32 0x3E800000#32)))

/-- Entry (e, j) of the edge array: a message in columns 0…63, a head's weight in columns 64…67. -/
def edgeEntry (kv : S800000x128.Idx → EReal) (q ea : S800000x64.Idx → EReal) (we : S64x64.Idx → EReal)
    (e : Fin 800000) (j : Fin 68) : EReal :=
  if h : j.val < 64 then kv (ix2 e (⟨64 + j.val, by omega⟩ : Fin 128)) * scoreAll kv q ea we e ⟨j.val / 16, by omega⟩
  else scoreAll kv q ea we e ⟨j.val - 64, by have := j.isLt; omega⟩

/-- The whole edge array as one function of the four arrays region 1 reads. -/
def edgeAll (kv : S800000x128.Idx → EReal) (q ea : S800000x64.Idx → EReal) (we : S64x64.Idx → EReal) : S800000x68.Idx → EReal :=
  fun i => edgeEntry kv q ea we ⟨(i 0).val, idx2_lt0 i⟩ ⟨(i 1).val, idx2_lt1 i⟩

variable (V : (c : Dev nD) → (b : Ref sig .tc) → Buf (Elt Ideal) ((c : Thread nD τ).loc b))

/-- The array row of row `p` of point `t`'s block. -/
def erow (t : Fin cfg1.N) (p : Fin 8000) : Fin 800000 :=
  ⟨8000 * t.val + p.val, by have h : t.val < 100 := Nat.lt_of_lt_of_eq t.isLt N_1; have := p.isLt; omega⟩

/-- The printed index maps over the grid: the three edge-indexed inputs and the result are block row `t`; the
    weight block is the whole matrix. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem blk1_kv (c : Dev nD) (t : Fin cfg1.N) (p : Fin 8000) (j : Fin 128) :
    blk1 V c 0 t (ix2 p j) = V c main_v25 (ix2 (erow t p) j) := by
  obtain ⟨e0, e1, -, -, -, -, -, -, -, -⟩ := idx_facts1 t
  show V c main_v25 (((cfg1.win 0).blk t).view.emb (ix2 p j)) = _
  refine congrArg _ (funext fun a => Fin.ext ?_)
  match a with
  | ⟨0, _⟩ => show win1_0.index t (0 : Fin 2) * 8000 + 1 * p.val = 8000 * t.val + p.val; omega
  | ⟨1, _⟩ => show win1_0.index t (1 : Fin 2) * 128 + 1 * j.val = j.val; omega

theorem blk1_q (c : Dev nD) (t : Fin cfg1.N) (p : Fin 8000) (j : Fin 64) :
    blk1 V c 1 t (ix2 p j) = V c main_v17 (ix2 (erow t p) j) := by
  obtain ⟨-, -, e0, e1, -, -, -, -, -, -⟩ := idx_facts1 t
  show V c main_v17 (((cfg1.win 1).blk t).view.emb (ix2 p j)) = _
  refine congrArg _ (funext fun a => Fin.ext ?_)
  match a with
  | ⟨0, _⟩ => show win1_1.index t (0 : Fin 2) * 8000 + 1 * p.val = 8000 * t.val + p.val; omega
  | ⟨1, _⟩ => show win1_1.index t (1 : Fin 2) * 64 + 1 * j.val = j.val; omega

theorem blk1_ea (c : Dev nD) (t : Fin cfg1.N) (p : Fin 8000) (j : Fin 64) :
    blk1 V c 2 t (ix2 p j) = V c main_arg1 (ix2 (erow t p) j) := by
  obtain ⟨-, -, -, -, e0, e1, -, -, -, -⟩ := idx_facts1 t
  show V c main_arg1 (((cfg1.win 2).blk t).view.emb (ix2 p j)) = _
  refine congrArg _ (funext fun a => Fin.ext ?_)
  match a with
  | ⟨0, _⟩ => show win1_2.index t (0 : Fin 2) * 8000 + 1 * p.val = 8000 * t.val + p.val; omega
  | ⟨1, _⟩ => show win1_2.index t (1 : Fin 2) * 64 + 1 * j.val = j.val; omega

theorem blk1_we (c : Dev nD) (t : Fin cfg1.N) (k j : Fin 64) :
    blk1 V c 3 t (ix2 k j) = V c main_v27 (ix2 k j) := by
  obtain ⟨-, -, -, -, -, -, e0, e1, -, -⟩ := idx_facts1 t
  show V c main_v27 (((cfg1.win 3).blk t).view.emb (ix2 k j)) = _
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * j.val = j.val; omega

/-- A block row's weight is the array row's weight. -/
theorem score_blk (c : Dev nD) (t : Fin cfg1.N) (p : Fin 8000) (h : Fin 4) :
    edgeScore (blk1 V c 0 t) (blk1 V c 1 t) (blk1 V c 2 t) (blk1 V c 3 t) p h
      = scoreAll (V c main_v25) (V c main_v17) (V c main_arg1) (V c main_v27) (erow t p) h := by
  unfold edgeScore scoreAll
  simp only [blk1_kv, blk1_q, blk1_ea, blk1_we]

/-- What point `t` writes back is block `t` of `edgeAll` of the arrays as the region finds them. -/
theorem flushed1 (c : Dev nD) (t : Fin cfg1.N) :
    (dat1 V c).flushed 4 t = ((cfg1.win 4).blk t).view.read (Elt Ideal)
      (edgeAll (V c main_v25) (V c main_v17) (V c main_arg1) (V c main_v27)) := by
  show (cfg1.win 4).cut (grid1.coords t) ((dat1 V c).after 4 t) = _
  rw [dat1_after4]
  unfold edgeOut
  rw [View.canon_unit_zero zeroOff]
  simp only [View.ld_unit_zero (S := S8000x128) zeroOff, View.ld_unit_zero (S := S8000x64) zeroOff,
    View.ld_unit_zero (S := S64x64) zeroOff]
  obtain ⟨-, -, -, -, -, -, -, -, e8, e9⟩ := idx_facts1 t
  funext j
  obtain ⟨p, q, rfl⟩ : ∃ (p : Fin 8000) (q : Fin 68), j = ix2 p q := ⟨j 0, j 1, eq_ix2 j⟩
  have hemb : ((cfg1.win 4).blk t).view.emb (ix2 p q) = ix2 (erow t p) q := funext fun a => Fin.ext (by
    match a with
    | ⟨0, _⟩ => show win1_4.index t (0 : Fin 2) * 8000 + 1 * p.val = 8000 * t.val + p.val; omega
    | ⟨1, _⟩ => show win1_4.index t (1 : Fin 2) * 68 + 1 * q.val = q.val; omega)
  show edgeVal (F := Ideal) (blk1 V c 0 t) (blk1 V c 1 t) (blk1 V c 2 t) (blk1 V c 3 t) (ix2 p q)
    = edgeAll (V c main_v25) (V c main_v17) (V c main_arg1) (V c main_v27) (((cfg1.win 4).blk t).view.emb (ix2 p q))
  rw [hemb]
  show _ = edgeEntry (V c main_v25) (V c main_v17) (V c main_arg1) (V c main_v27) (erow t p) q
  unfold edgeEntry
  by_cases hq : q.val < 64
  · rw [dif_pos hq, edgeVal_msg _ _ _ _ p q hq, blk1_kv, score_blk]
  · rw [dif_neg hq, edgeVal_score _ _ _ _ p q (by omega), score_blk]

/-- An index of the edge array is in point `t`'s block iff each coordinate is in the block's range. -/
theorem mem_blk1 (t : Fin cfg1.N) (i : S800000x68.Idx) :
    i ∈ ((cfg1.win 4).blk t).view.set ↔ ∀ a : Fin 2, win1_4.index t a * S8000x68.size a ≤ (i a).val ∧ (i a).val < win1_4.index t a * S8000x68.size a + S8000x68.size a := by
  show i ∈ ((View.whole main_v28).slice (win1_4.rect t)).set ↔ _
  rw [View.set_slice_whole, Rect.mem_set_unit]
  exact Iff.rfl

/-- The hundred row blocks cover the edge array: row `e` is in block `e / 8000`. -/
theorem cover1 (i : S800000x68.Idx) :
    ∃ t : Fin cfg1.N, (cfg1.win 4).flush t = true ∧ i ∈ ((cfg1.win 4).blk t).view.set := by
  have hi0 : (i 0).val < 800000 := (i 0).isLt
  have hi1 : (i 1).val < 68 := (i 1).isLt
  refine ⟨⟨(i 0).val / 8000, by rw [show cfg1.N = 100 from N_1]; omega⟩, flush1_4 _, ?_⟩
  rw [mem_blk1]
  obtain ⟨-, -, -, -, -, -, -, -, e8, e9⟩ := idx_facts1 ⟨(i 0).val / 8000, by rw [show cfg1.N = 100 from N_1]; omega⟩
  intro a
  match a with
  | ⟨0, _⟩ => show win1_4.index _ (0 : Fin 2) * 8000 ≤ (i 0).val ∧ (i 0).val < win1_4.index _ (0 : Fin 2) * 8000 + 8000; rw [e8]; show (i 0).val / 8000 * 8000 ≤ (i 0).val ∧ (i 0).val < (i 0).val / 8000 * 8000 + 8000; omega
  | ⟨1, _⟩ => show win1_4.index _ (1 : Fin 2) * 68 ≤ (i 1).val ∧ (i 1).val < win1_4.index _ (1 : Fin 2) * 68 + 68; rw [e9]; omega

/-- Region 1's result array after the run. -/
theorem arr1_final (c : Dev nD) :
    (dat1 V c).arrAt 4 cfg1.N = edgeAll (V c main_v25) (V c main_v17) (V c main_arg1) (V c main_v27) :=
  (dat1 V c).arrAt_eq_of_cover 4 _ (fun t _ => flushed1 V c t) cover1

end Cert.KernelIdeal.Hand

end
-- ==== Proof.KernelIdealValue.lean ====
/-
  The kernel program's result IS the specification, entry by entry (ideal instance).

  Reading back from the end of @main: the result is the normalised table of sums of the edge array; the edge array
  is messages and weights computed from the gathered rows; a gathered row is a row of the projected array, which
  holds Q | K | V of each node; and a projection is a row of the features against a row of a weight matrix.  Each
  of these is a lemma of an earlier module; here they are composed.  No law beyond reading is used: the kernel's
  gate is spelt exactly as the specification's.
-/
import proofs.«166772_j11476152615033_2_alg».proof.Proof.KernelIdealHost0
import proofs.«166772_j11476152615033_2_alg».proof.Proof.KernelIdealHost1
import proofs.«166772_j11476152615033_2_alg».proof.Proof.KernelIdealHost2
import proofs.«166772_j11476152615033_2_alg».proof.Proof.KernelIdealArr1

set_option maxRecDepth 16384

noncomputable section

open scoped BigOperators

namespace Cert.KernelIdeal.Hand

open Cert.KernelIdeal Cert.KernelIdeal.Gen Cert.EdgeAttention
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The launch arrays on core `c`. -/
abbrev aX : Mat 100000 64 := m ((c : Thread nD τ).loc main_arg0)
abbrev aEA : Mat 800000 64 := m ((c : Thread nD τ).loc main_arg1)
abbrev aWq : Mat 64 64 := m ((c : Thread nD τ).loc main_arg2)
abbrev aWk : Mat 64 64 := m ((c : Thread nD τ).loc main_arg3)
abbrev aWe : Mat 64 64 := m ((c : Thread nD τ).loc main_arg4)
abbrev aWv : Mat 64 64 := m ((c : Thread nD τ).loc main_arg5)
abbrev aEI : EdgeList := m ((c : Thread nD τ).loc main_arg6)

/-- The buffers the reading passes through, each as an array of extended reals (or of words). -/
abbrev qkvArr : S100000x192.Idx → EReal := W2 m ρ c (Proc.devRef .tc main_v5)
abbrev kvArr : S800000x128.Idx → EReal := V3 m ρ c main_v25
abbrev qArr : S800000x64.Idx → EReal := V3 m ρ c main_v17
abbrev eaArr : S800000x64.Idx → EReal := V3 m ρ c main_arg1
abbrev weArr : S64x64.Idx → EReal := V3 m ρ c main_v27
abbrev edgeArr : S800000x68.Idx → EReal := W4 m ρ c (Proc.devRef .tc main_v28)
abbrev dstArr : S800000.Idx → BitVec 32 := W4 m ρ c (Proc.devRef .tc main_v9)
abbrev outArr : S100000x64.Idx → EReal := W5 m ρ c (Proc.devRef .tc main_v45)

/-! The earlier modules' facts at these types. -/

theorem qkvArr_eq : qkvArr m ρ c = projAll (aX m c) (wcat (aWq m c) (aWk m c) (aWv m c)) := W2_main_v5 m ρ c
theorem kvArr_apply (e : Fin 800000) (j : Fin 128) :
    kvArr m ρ c (ix2 e j) = qkvArr m ρ c (ix2 (srcRow (aEI m c) e) (⟨64 + j.val, by omega⟩ : Fin 192)) := V3_main_v25 m ρ c e j
theorem qArr_apply (e : Fin 800000) (j : Fin 64) :
    qArr m ρ c (ix2 e j) = qkvArr m ρ c (ix2 (dstRow (aEI m c) e) (⟨j.val, by omega⟩ : Fin 192)) := V3_main_v17 m ρ c e j
theorem weArr_apply (k j : Fin 64) : weArr m ρ c (ix2 k j) = aWe m c (ix2 j k) := V3_main_v27 m ρ c k j
theorem eaArr_eq : eaArr m ρ c = aEA m c := V3_main_arg1 m ρ c
theorem dstArr_apply (e : Fin 800000) : dstArr m ρ c (ix1 e) = aEI m c (ix2 (1 : Fin 2) e) := W4_main_v9 m ρ c e
theorem edgeArr_eq : edgeArr m ρ c = edgeAll (kvArr m ρ c) (qArr m ρ c) (eaArr m ρ c) (weArr m ρ c) :=
  (W4_arr m ρ c 4).trans (arr1_final (V3 m ρ) c)
theorem outArr_eq : outArr m ρ c = normFn (aggFn (edgeArr m ρ c) (dstArr m ρ c)) := W5_main_v45 m ρ c

theorem projAll_apply (x : S100000x64.Idx → EReal) (w : S64x192.Idx → EReal) (n : Fin 100000) (j : Fin 192) :
    projAll x w (ix2 n j) = ∑ k : Fin 64, x (ix2 n k) * w (ix2 k j) := rfl

/-- Row n of the projected array: columns 0…63 are the query projection. -/
theorem qkv_q (n : Fin 100000) (j : Fin 64) :
    qkvArr m ρ c (ix2 n (⟨j.val, by omega⟩ : Fin 192)) = lin (aX m c) (aWq m c) n j := by
  rw [qkvArr_eq, projAll_apply]
  unfold lin
  exact Finset.sum_congr rfl fun k _ => by rw [wcat_first _ _ _ k ⟨j.val, by omega⟩ j.isLt]

/-- Columns 64…127 are the key projection. -/
theorem qkv_k (n : Fin 100000) (j : Fin 64) :
    qkvArr m ρ c (ix2 n (⟨64 + j.val, by omega⟩ : Fin 192)) = lin (aX m c) (aWk m c) n j := by
  rw [qkvArr_eq, projAll_apply]
  unfold lin
  refine Finset.sum_congr rfl fun k _ => ?_
  rw [wcat_second _ _ _ k ⟨64 + j.val, by omega⟩ (by show 64 ≤ 64 + j.val; omega) (by show 64 + j.val < 128; omega)]
  exact congrArg _ (congrArg (fun r : Fin 64 => aWk m c (ix2 r k)) (Fin.ext (by show 64 + j.val - 64 = j.val; omega)))

/-- Columns 128…191 are the value projection. -/
theorem qkv_v (n : Fin 100000) (j : Fin 64) :
    qkvArr m ρ c (ix2 n (⟨128 + j.val, by omega⟩ : Fin 192)) = lin (aX m c) (aWv m c) n j := by
  rw [qkvArr_eq, projAll_apply]
  unfold lin
  refine Finset.sum_congr rfl fun k _ => ?_
  rw [wcat_third _ _ _ k ⟨128 + j.val, by omega⟩ (by show 128 ≤ 128 + j.val; omega)]
  exact congrArg _ (congrArg (fun r : Fin 64 => aWv m c (ix2 r k)) (Fin.ext (by show 128 + j.val - 128 = j.val; omega)))

/-- The gathered key of edge e. -/
theorem kv_key (e : Fin 800000) (j : Fin 64) :
    kvArr m ρ c (ix2 e (⟨j.val, by omega⟩ : Fin 128)) = lin (aX m c) (aWk m c) (srcRow (aEI m c) e) j :=
  (kvArr_apply m ρ c e _).trans (qkv_k m ρ c _ j)

/-- The gathered value of edge e. -/
theorem kv_val (e : Fin 800000) (j : Fin 64) :
    kvArr m ρ c (ix2 e (⟨64 + j.val, by omega⟩ : Fin 128)) = lin (aX m c) (aWv m c) (srcRow (aEI m c) e) j := by
  refine (kvArr_apply m ρ c e _).trans (Eq.trans (congrArg (qkvArr m ρ c) (congrArg (ix2 _) (Fin.ext ?_))) (qkv_v m ρ c _ j))
  show 64 + (64 + j.val) = 128 + j.val; omega

/-- The gathered query of edge e. -/
theorem q_ent (e : Fin 800000) (j : Fin 64) :
    qArr m ρ c (ix2 e j) = lin (aX m c) (aWq m c) (dstRow (aEI m c) e) j :=
  (qArr_apply m ρ c e j).trans (qkv_q m ρ c _ j)

/-- The projected edge feature of edge e. -/
theorem e_ent (e : Fin 800000) (j : Fin 64) :
    (∑ k : Fin 64, eaArr m ρ c (ix2 e k) * weArr m ρ c (ix2 k j)) = lin (aEA m c) (aWe m c) e j := by
  unfold lin
  refine Finset.sum_congr rfl fun k _ => ?_
  rw [weArr_apply, eaArr_eq]

/-- The weight region 1 computes for edge e in head h is the specification's. -/
theorem score_eq (e : Fin 800000) (h : Fin 4) :
    scoreAll (kvArr m ρ c) (qArr m ρ c) (eaArr m ρ c) (weArr m ρ c) e h
      = score (aX m c) (aEA m c) (aWq m c) (aWk m c) (aWe m c) (aEI m c) e h := by
  unfold scoreAll score gate
  refine congrArg Ideal.exp (congrArg (min _) (congrArg (max _) (Finset.sum_congr rfl fun d _ => ?_)))
  rw [kv_key m ρ c e (colOf h d), q_ent, e_ent]

/-- Entry (e, j) of the edge array for a message column. -/
theorem edge_msg (e : Fin 800000) (j : Fin 64) :
    edgeArr m ρ c (ix2 e (⟨j.val, by omega⟩ : Fin 68))
      = msg (aX m c) (aEA m c) (aWq m c) (aWk m c) (aWe m c) (aWv m c) (aEI m c) e j := by
  rw [edgeArr_eq]
  show edgeEntry _ _ _ _ e ⟨j.val, _⟩ = _
  unfold edgeEntry msg
  rw [dif_pos (show (⟨j.val, by omega⟩ : Fin 68).val < 64 from j.isLt), kv_val m ρ c e j, score_eq]
  rfl

/-- Entry (e, 64 + h) of the edge array: the weight of head h. -/
theorem edge_score (e : Fin 800000) (h : Fin 4) :
    edgeArr m ρ c (ix2 e (⟨64 + h.val, by omega⟩ : Fin 68))
      = score (aX m c) (aEA m c) (aWq m c) (aWk m c) (aWe m c) (aEI m c) e h := by
  rw [edgeArr_eq]
  show edgeEntry _ _ _ _ e ⟨64 + h.val, _⟩ = _
  unfold edgeEntry
  rw [dif_neg (show ¬ (⟨64 + h.val, by omega⟩ : Fin 68).val < 64 from by show ¬ 64 + h.val < 64; omega), score_eq]
  exact congrArg _ (Fin.ext (by show 64 + h.val - 64 = h.val; omega))

/-- The edges the scatter-add lands on node n are the specification's. -/
theorem lands_eq (n : Fin 100000) : landsOn (dstArr m ρ c) n = landing (aEI m c) n := by
  unfold landsOn landing
  refine Finset.filter_congr fun e _ => ?_
  rw [dstArr_apply]

/-- THE KERNEL PROGRAM'S RESULT at node n, column j. -/
theorem kernel_out (n : Fin 100000) (j : Fin 64) :
    outArr m ρ c (ix2 n j)
      = out (aX m c) (aEA m c) (aWq m c) (aWk m c) (aWe m c) (aWv m c) (aEI m c) n j := by
  refine (congrFun (outArr_eq m ρ c) (ix2 n j)).trans ?_
  refine (normFn_apply _ n j).trans ?_
  unfold out
  refine congrArg₂ Ideal.div ?_ (congrArg (· + Ideal.ofBits .f32 0x358637BD#32) ?_)
  · refine (aggFn_apply _ _ n _).trans ?_
    rw [lands_eq]
    exact Finset.sum_congr rfl fun e _ => edge_msg m ρ c e j
  · refine (aggFn_apply _ _ n _).trans ?_
    rw [lands_eq]
    exact Finset.sum_congr rfl fun e _ => edge_score m ρ c e (headOf j)

end Cert.KernelIdeal.Hand

end
-- ==== Proof.LibGatherRows3.lean ====
/-
  A lookup of H × D blocks in a table, read at an index.

  table[idx] for a table of N blocks, each H × D numbers, and B integer block numbers lowers to a stablehlo.gather
  whose start indices are a [B, 1] array and whose slices are whole blocks: operand [N, H, D], result [B, H, D].
  Each start index is read as a signed integer and clamped into [0, N - 1], so every integer names a block; result
  entry (b, h, k) is entry (h, k) of block clampRow N idx[b].
-/
import Idealize.ShloMosaic.Lib.ValueIdx
import proofs.«166772_j11476152615033_2_alg».proof.Proof.LibGatherRows

noncomputable section

namespace Idealize.ShloMosaic.GatherRows3

open Idealize.ShloMosaic Idealize.ShloMosaic.ValueIdx Idealize.ShloMosaic.GatherRows

/-- An axis of a rank-3 shape is the first, the second or the third. -/
theorem axis3_cases {S : Shape} (h : S.rank = 3) (a : Fin S.rank) :
    a = ⟨0, by omega⟩ ∨ a = ⟨1, by omega⟩ ∨ a = ⟨2, by omega⟩ := by
  have h3 : a.val < 3 := h ▸ a.isLt
  rcases Nat.lt_or_ge a.val 1 with h1 | h1
  · left; exact Fin.ext (by show a.val = 0; omega)
  · rcases Nat.lt_or_ge a.val 2 with h2 | h2
    · right; left; exact Fin.ext (by show a.val = 1; omega)
    · right; right; exact Fin.ext (by show a.val = 2; omega)

section
variable {α : Type}

/-- Blocks kept as blocks: operand [N, H, D], start indices [B, 1], result [B, H, D]. -/
abbrev rows3Dims (N H D B : Nat)
    (wf : GatherDims.WF ⟨3, ![N, H, D]⟩ ⟨2, ![B, 1]⟩ ⟨3, ![B, H, D]⟩ [1, 2] [0] [] [0] [] 1 ![1, H, D]) :
    GatherDims ⟨3, ![N, H, D]⟩ ⟨2, ![B, 1]⟩ ⟨3, ![B, H, D]⟩ where
  offsetDims := [1, 2]
  collapsedSliceDims := [0]
  operandBatchingDims := []
  startIndicesBatchingDims := []
  startIndexMap := [0]
  indexVectorDim := 1
  sliceSizes := ![1, H, D]
  wf := wf

/-- Result entry (b, h, k) of the block lookup is entry (h, k) of the block idx[b] names. -/
theorem gather_rows3_apply {N H D B w : Nat} (hN : 0 < N)
    (wf : GatherDims.WF ⟨3, ![N, H, D]⟩ ⟨2, ![B, 1]⟩ ⟨3, ![B, H, D]⟩ [1, 2] [0] [] [0] [] 1 ![1, H, D])
    (x : (⟨3, ![N, H, D]⟩ : Shape).Idx → α) (idx : IVec ⟨2, ![B, 1]⟩ w) (b : Fin B) (h : Fin H) (k : Fin D) :
    Host.gather (rows3Dims N H D B wf) x idx (ix3 b h k)
      = x (ix3 ⟨clampRow N (idx (ix2 b (0 : Fin 1))), clampRow_lt hN _⟩ h k) := by
  unfold Host.gather
  congr 1
  funext a
  refine Fin.ext ?_
  show (rows3Dims N H D B wf).start (ix3 b h k) idx a + (rows3Dims N H D B wf).batchCoord (ix3 b h k) a
      + (rows3Dims N H D B wf).offCoord (ix3 b h k) a = _
  rw [GatherDims.batchCoord_eq_zero _ _ _ List.not_mem_nil]
  rcases axis3_cases (S := ⟨3, ![N, H, D]⟩) rfl a with rfl | rfl | rfl
  · rw [GatherDims.offCoord_eq_zero _ _ _ (fun hm => ((GatherDims.mem_sKept _ _).mp hm).1 (List.mem_singleton.mpr rfl))]
    simp only [Nat.add_zero]
    unfold GatherDims.start
    rw [dif_pos (show (⟨0, by decide⟩ : Fin 3) ∈ (rows3Dims N H D B wf).startIndexMap from List.mem_singleton.mpr rfl)]
    have hsi : (rows3Dims N H D B wf).siIdx (ix3 b h k)
        ⟨List.idxOf (⟨0, by decide⟩ : Fin 3) (rows3Dims N H D B wf).startIndexMap,
          List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  · have hn : ¬ (⟨1, by decide⟩ : Fin 3) ∈ (rows3Dims N H D B wf).startIndexMap :=
      (by decide : ¬ (⟨1, by decide⟩ : Fin 3) ∈ ([0] : List (Fin 3)))
    have hc : ¬ (⟨1, by decide⟩ : Fin 3) ∈ (rows3Dims N H D B wf).collapsedSliceDims :=
      (by decide : ¬ (⟨1, by decide⟩ : Fin 3) ∈ ([0] : List (Fin 3)))
    have h0 : (rows3Dims N H D B wf).start (ix3 b h k) idx (⟨1, by decide⟩ : Fin 3) = 0 := by
      unfold GatherDims.start
      rw [dif_neg hn]
    have h1 : (rows3Dims N H D B wf).offCoord (ix3 b h k) (⟨1, by decide⟩ : Fin 3) = h.val := by
      unfold GatherDims.offCoord
      rw [dif_pos ((GatherDims.mem_sKept _ _).mpr ⟨hc, List.not_mem_nil⟩)]
      rfl
    show (rows3Dims N H D B wf).start (ix3 b h k) idx (⟨1, by decide⟩ : Fin 3) + 0
      + (rows3Dims N H D B wf).offCoord (ix3 b h k) (⟨1, by decide⟩ : Fin 3) = h.val
    rw [h0, h1]; omega
  · have hn : ¬ (⟨2, by decide⟩ : Fin 3) ∈ (rows3Dims N H D B wf).startIndexMap :=
      (by decide : ¬ (⟨2, by decide⟩ : Fin 3) ∈ ([0] : List (Fin 3)))
    have hc : ¬ (⟨2, by decide⟩ : Fin 3) ∈ (rows3Dims N H D B wf).collapsedSliceDims :=
      (by decide : ¬ (⟨2, by decide⟩ : Fin 3) ∈ ([0] : List (Fin 3)))
    have h0 : (rows3Dims N H D B wf).start (ix3 b h k) idx (⟨2, by decide⟩ : Fin 3) = 0 := by
      unfold GatherDims.start
      rw [dif_neg hn]
    have h1 : (rows3Dims N H D B wf).offCoord (ix3 b h k) (⟨2, by decide⟩ : Fin 3) = k.val := by
      unfold GatherDims.offCoord
      rw [dif_pos ((GatherDims.mem_sKept _ _).mpr ⟨hc, List.not_mem_nil⟩)]
      rfl
    show (rows3Dims N H D B wf).start (ix3 b h k) idx (⟨2, by decide⟩ : Fin 3) + 0
      + (rows3Dims N H D B wf).offCoord (ix3 b h k) (⟨2, by decide⟩ : Fin 3) = k.val
    rw [h0, h1]; omega

end

end Idealize.ShloMosaic.GatherRows3

end
-- ==== Proof.RefValue.lean ====
/-
  The reference program's result is the edge-attention function of its inputs, index by index.

  The program computes, stage by stage: the three node projections and the edge projection (a matrix product with a
  transposed weight, reshaped into 4 heads of 16 lanes); the source and destination words of every edge, wrapped
  if negative; the key and value rows of the source node and the query row of the destination node (lookups, which
  clamp the word to a row); the product key · query / 4 · edge feature, summed over the lanes of a head, clipped to
  [-5, 5] and exponentiated: the edge's weight in that head; the message, value times weight; the sums of the
  messages and of the weights over the edges whose raw destination word is the node (scatter-adds into zeros); and
  their quotient after adding ε to the weight sum.  Each stage is read at an index over explicit coordinates and
  identified with the corresponding quantity of the specification.  The only algebra is (k·q / 4)·E = (k·q·E)·¼.
-/
import proofs.«166772_j11476152615033_2_alg».proof.Proof.Gen.ReferenceIdeal.Read
import proofs.«166772_j11476152615033_2_alg».proof.Proof.Spec
import proofs.«166772_j11476152615033_2_alg».proof.Proof.LibScatterAddRows
import proofs.«166772_j11476152615033_2_alg».proof.Proof.LibGatherRows3

noncomputable section

open scoped BigOperators

namespace Cert.ReferenceIdeal.RefValue

open Cert.ReferenceIdeal Cert.ReferenceIdeal.Gen Cert.ReferenceIdeal.Read Cert.EdgeAttention
open Idealize.ShloMosaic Idealize.ShloMosaic.ValueIdx Idealize.ShloMosaic.GatherRows

variable (x0 : (⟨S100000x64, .f32⟩ : BufTy).Contents (Elt Ideal))
  (x1 : (⟨S800000x64, .f32⟩ : BufTy).Contents (Elt Ideal))
  (x2 x3 x4 x5 : (⟨S64x64, .f32⟩ : BufTy).Contents (Elt Ideal))
  (x6 : (⟨S2x800000, .i32⟩ : BufTy).Contents (Elt Ideal))

/-! ## The projections -/

/-- Entry (n, h, d) of a reshaped node projection reads term k of its sum in row n of the table: flattened,
    (n, h, d) is entry 16 h + d of row n.  (The three node projections share this index function.) -/
theorem node_index (n : Fin 100000) (h : Fin 4) (d : Fin 16) (k : Fin 64) :
    lidx_main_v1 (idx_main_v2 (ix3 n h d)) k = ix2 n k :=
  funext fun a => Fin.ext (by
    match a with
    | ⟨0, _⟩ => show ((n.val * 4 + h.val) * 16 + d.val) / 64 = n.val; omega
    | ⟨1, _⟩ => rfl)

/-- … and in row 16 h + d of the weight, the transposed weight being read with its coordinates exchanged. -/
theorem weight_index (n : Fin 100000) (h : Fin 4) (d : Fin 16) (k : Fin 64) :
    idx_main_v0 (ridx_main_v1 (idx_main_v2 (ix3 n h d)) k) = ix2 (colOf h d) k :=
  funext fun a => Fin.ext (by
    match a with
    | ⟨0, _⟩ => show ((n.val * 4 + h.val) * 16 + d.val) % 64 = 16 * h.val + d.val; omega
    | ⟨1, _⟩ => rfl)

/-- The query projection, entry (n, h, d). -/
theorem proj_q (n : Fin 100000) (h : Fin 4) (d : Fin 16) :
    val_main_v2 (F := Ideal) x0 x2 (ix3 n h d) = lin x0 x2 n (colOf h d) := by
  rw [val_main_v2_apply, val_main_v1_apply]
  unfold lin
  refine Finset.sum_congr rfl fun k _ => ?_
  rw [val_main_v0_apply, node_index, weight_index]

/-- The key projection, entry (n, h, d). -/
theorem proj_k (n : Fin 100000) (h : Fin 4) (d : Fin 16) :
    val_main_v5 (F := Ideal) x0 x3 (ix3 n h d) = lin x0 x3 n (colOf h d) := by
  rw [val_main_v5_apply, val_main_v4_apply]
  unfold lin
  refine Finset.sum_congr rfl fun k _ => ?_
  rw [val_main_v3_apply]
  exact congrArg₂ (· * ·) (congrArg x0 (node_index n h d k)) (congrArg x3 (weight_index n h d k))

/-- The value projection, entry (n, h, d). -/
theorem proj_v (n : Fin 100000) (h : Fin 4) (d : Fin 16) :
    val_main_v8 (F := Ideal) x0 x5 (ix3 n h d) = lin x0 x5 n (colOf h d) := by
  rw [val_main_v8_apply, val_main_v7_apply]
  unfold lin
  refine Finset.sum_congr rfl fun k _ => ?_
  rw [val_main_v6_apply]
  exact congrArg₂ (· * ·) (congrArg x0 (node_index n h d k)) (congrArg x5 (weight_index n h d k))

/-- Entry (e, h, d) of the reshaped edge projection reads term k of its sum in row e of the edge features. -/
theorem edge_index (e : Fin 800000) (h : Fin 4) (d : Fin 16) (k : Fin 64) :
    lidx_main_v10 (idx_main_v11 (ix3 e h d)) k = ix2 e k :=
  funext fun a => Fin.ext (by
    match a with
    | ⟨0, _⟩ => show ((e.val * 4 + h.val) * 16 + d.val) / 64 = e.val; omega
    | ⟨1, _⟩ => rfl)

/-- … and in row 16 h + d of the edge weight. -/
theorem edge_weight_index (e : Fin 800000) (h : Fin 4) (d : Fin 16) (k : Fin 64) :
    idx_main_v9 (ridx_main_v10 (idx_main_v11 (ix3 e h d)) k) = ix2 (colOf h d) k :=
  funext fun a => Fin.ext (by
    match a with
    | ⟨0, _⟩ => show ((e.val * 4 + h.val) * 16 + d.val) % 64 = 16 * h.val + d.val; omega
    | ⟨1, _⟩ => rfl)

/-- The edge-feature projection, entry (e, h, d). -/
theorem proj_e (e : Fin 800000) (h : Fin 4) (d : Fin 16) :
    val_main_v11 (F := Ideal) x1 x4 (ix3 e h d) = lin x1 x4 e (colOf h d) := by
  rw [val_main_v11_apply, val_main_v10_apply]
  unfold lin
  refine Finset.sum_congr rfl fun k _ => ?_
  rw [val_main_v9_apply]
  exact congrArg₂ (· * ·) (congrArg x1 (edge_index e h d k)) (congrArg x4 (edge_weight_index e h d k))

/-! ## The edge list's two rows -/

/-- The source word of edge e, as the reshaped first row of the edge list holds it. -/
theorem src_word (e : Fin 800000) : val_main_v13 (F := Ideal) x6 (ix1 e) = x6 (ix2 (0 : Fin 2) e) := by
  rw [val_main_v13_apply, val_main_v12_apply]
  exact congrArg x6 (funext fun a => Fin.ext (by
    match a with
    | ⟨0, _⟩ => rfl
    | ⟨1, _⟩ => show e.val % 800000 = e.val; omega))

/-- The destination word of edge e, as the reshaped second row of the edge list holds it. -/
theorem dst_word (e : Fin 800000) : val_main_v15 (F := Ideal) x6 (ix1 e) = x6 (ix2 (1 : Fin 2) e) := by
  rw [val_main_v15_apply, val_main_v14_apply]
  exact congrArg x6 (funext fun a => Fin.ext (by
    match a with
    | ⟨0, _⟩ => rfl
    | ⟨1, _⟩ => show e.val % 800000 = e.val; omega))

/-- A [800000, 1] index array at (e, 0) reads the [800000] array it broadcasts at e. -/
theorem col_index (e : Fin 800000) : idx_main_v21 (ix2 e (0 : Fin 1)) = ix1 e :=
  funext fun a => Fin.ext (by match a with | ⟨0, _⟩ => rfl)

/-- The key lookup's index array at edge e: the source word wrapped. -/
theorem src_wrapped_k (e : Fin 800000) :
    val_main_v21 (F := Ideal) x6 (ix2 e (0 : Fin 1)) = wrap (x6 (ix2 (0 : Fin 2) e)) := by
  rw [val_main_v21_apply, col_index, val_main_v20_apply, val_main_v17_apply, val_main_v19_apply, val_main_v16_apply,
    val_main_v18_apply, val_main_c_apply, val_main_c_0_apply, src_word]
  rfl

/-- The query lookup's index array at edge e: the destination word wrapped. -/
theorem dst_wrapped_q (e : Fin 800000) :
    val_main_v28 (F := Ideal) x6 (ix2 e (0 : Fin 1)) = wrap (x6 (ix2 (1 : Fin 2) e)) := by
  rw [val_main_v28_apply, show idx_main_v28 (ix2 e (0 : Fin 1)) = ix1 e from col_index e, val_main_v27_apply,
    val_main_v24_apply, val_main_v26_apply, val_main_v23_apply, val_main_v25_apply, val_main_c_1_apply,
    val_main_c_2_apply, dst_word]
  rfl

/-- The value lookup's index array at edge e: the source word wrapped. -/
theorem src_wrapped_v (e : Fin 800000) :
    val_main_v43 (F := Ideal) x6 (ix2 e (0 : Fin 1)) = wrap (x6 (ix2 (0 : Fin 2) e)) := by
  rw [val_main_v43_apply, show idx_main_v43 (ix2 e (0 : Fin 1)) = ix1 e from col_index e, val_main_v42_apply,
    val_main_v39_apply, val_main_v41_apply, val_main_v38_apply, val_main_v40_apply, val_main_c_6_apply,
    val_main_c_7_apply, src_word]
  rfl

/-- The message scatter's index array at edge e: the raw destination word. -/
theorem dst_raw_msg (e : Fin 800000) :
    val_main_v48 (F := Ideal) x6 (ix2 e (0 : Fin 1)) = x6 (ix2 (1 : Fin 2) e) := by
  rw [val_main_v48_apply, show idx_main_v48 (ix2 e (0 : Fin 1)) = ix1 e from col_index e, dst_word]

/-- The weight scatter's index array at edge e: the raw destination word. -/
theorem dst_raw_score (e : Fin 800000) :
    val_main_v51 (F := Ideal) x6 (ix2 e (0 : Fin 1)) = x6 (ix2 (1 : Fin 2) e) := by
  rw [val_main_v51_apply, show idx_main_v51 (ix2 e (0 : Fin 1)) = ix1 e from col_index e, dst_word]

/-! ## The lookups -/

/-- Entry (e, h, d) of a lookup of node blocks whose index array holds the wrapped word v at edge e: the table's
    entry (h, d) in the row that word names. -/
theorem lookup_apply (t : (⟨S100000x4x16, .f32⟩ : BufTy).Contents (Elt Ideal))
    (idx : (⟨S800000x1, .i32⟩ : BufTy).Contents (Elt Ideal)) (e : Fin 800000) (h : Fin 4) (d : Fin 16)
    (v : BitVec 32) (hv : idx (ix2 e (0 : Fin 1)) = wrap v) :
    Host.gather gather_S100000x4x16_S800000x1_S800000x4x16_12_0_n_n_0_1_1416 t idx (ix3 e h d)
      = t (ix3 (rowOf v) h d) := by
  refine (GatherRows3.gather_rows3_apply (by decide)
    Facts₀.gather_S100000x4x16_S800000x1_S800000x4x16_12_0_n_n_0_1_1416_wf t idx e h d).trans ?_
  rw [hv]
  rfl

/-- The key row of edge e's source node. -/
theorem key_src (e : Fin 800000) (h : Fin 4) (d : Fin 16) :
    val_main_v22 (F := Ideal) x0 x3 x6 (ix3 e h d) = lin x0 x3 (srcRow x6 e) (colOf h d) := by
  unfold val_main_v22
  rw [lookup_apply _ _ e h d _ (src_wrapped_k x6 e), proj_k]
  rfl

/-- The query row of edge e's destination node. -/
theorem query_dst (e : Fin 800000) (h : Fin 4) (d : Fin 16) :
    val_main_v29 (F := Ideal) x0 x2 x6 (ix3 e h d) = lin x0 x2 (dstRow x6 e) (colOf h d) := by
  unfold val_main_v29
  rw [lookup_apply _ _ e h d _ (dst_wrapped_q x6 e), proj_q]
  rfl

/-- The value row of edge e's source node. -/
theorem value_src (e : Fin 800000) (h : Fin 4) (d : Fin 16) :
    val_main_v44 (F := Ideal) x0 x5 x6 (ix3 e h d) = lin x0 x5 (srcRow x6 e) (colOf h d) := by
  unfold val_main_v44
  rw [lookup_apply _ _ e h d _ (src_wrapped_v x6 e), proj_v]
  rfl

/-! ## The weight of an edge in a head -/

/-- Key times query over four times the edge feature is the gate: (k · q / 4) · E = (k · q · E) · ¼. -/
theorem gate_at (e : Fin 800000) (h : Fin 4) (d : Fin 16) :
    val_main_v33 (F := Ideal) x0 x1 x2 x3 x4 x6 (ix3 e h d) = gate x0 x1 x2 x3 x4 x6 e (colOf h d) := by
  rw [val_main_v33_apply, val_main_v32_apply, val_main_v30_apply, val_main_v31_apply, val_main_cst_apply,
    key_src, query_dst, proj_e]
  show Ideal.div (lin x0 x3 (srcRow x6 e) (colOf h d) * lin x0 x2 (dstRow x6 e) (colOf h d))
      (Ideal.ofBits .f32 0x40800000#32) * lin x1 x4 e (colOf h d) = _
  rw [div_four, mul_right_comm]
  rfl

/-- Term d of the lane sum at (e, h) is entry (e, h, d). -/
theorem lane_index (e : Fin 800000) (h : Fin 4) (d : Fin 16) : idx_main_v34 (ix2 e h) d = ix3 e h d :=
  funext fun a => Fin.ext (by match a with | ⟨0, _⟩ => rfl | ⟨1, _⟩ => rfl | ⟨2, _⟩ => rfl)

/-- The sum of the gate over the lanes of head h. -/
theorem lane_sum (e : Fin 800000) (h : Fin 4) :
    val_main_v34 (F := Ideal) x0 x1 x2 x3 x4 x6 (ix2 e h) = ∑ d : Fin 16, gate x0 x1 x2 x3 x4 x6 e (colOf h d) := by
  rw [val_main_v34_apply, val_main_cst_3_apply]
  show Ideal.ofBits .f32 0x00000000#32 + _ = _
  rw [Ideal.ofBits_zero_f32, zero_add]
  refine Finset.sum_congr rfl fun d _ => ?_
  rw [lane_index, gate_at]

/-- The lane sums with a trailing axis of size one: (e, h, 0) reads (e, h). -/
theorem head_index (e : Fin 800000) (h : Fin 4) : idx_main_v35 (ix3 e h (0 : Fin 1)) = ix2 e h :=
  funext fun a => Fin.ext (by match a with | ⟨0, _⟩ => rfl | ⟨1, _⟩ => rfl)

/-- The weight of edge e in head h: the exponential of the lane sum clipped to [-5, 5]. -/
theorem score_at (e : Fin 800000) (h : Fin 4) :
    val_main_v37 (F := Ideal) x0 x1 x2 x3 x4 x6 (ix3 e h (0 : Fin 1)) = score x0 x1 x2 x3 x4 x6 e h := by
  rw [val_main_v37_apply, val_main_v36_apply, val_main_call0_v2_apply, val_main_call0_v4_apply,
    val_main_call0_v3_apply, val_main_cst_5_apply, val_main_call0_v1_apply, val_main_call0_v0_apply,
    val_main_cst_4_apply, val_main_v35_apply, head_index, lane_sum]
  rfl

/-! ## The message -/

/-- The weights broadcast along the lanes: (e, h, d) reads (e, h, 0). -/
theorem bcast_index (e : Fin 800000) (h : Fin 4) (d : Fin 16) : idx_main_v45 (ix3 e h d) = ix3 e h (0 : Fin 1) :=
  funext fun a => Fin.ext (by match a with | ⟨0, _⟩ => rfl | ⟨1, _⟩ => rfl | ⟨2, _⟩ => rfl)

/-- The message of edge e in lane d of head h: the source's value times the head's weight. -/
theorem msg_at (e : Fin 800000) (h : Fin 4) (d : Fin 16) :
    val_main_v46 (F := Ideal) x0 x1 x2 x3 x4 x5 x6 (ix3 e h d) = msg x0 x1 x2 x3 x4 x5 x6 e (colOf h d) := by
  rw [val_main_v46_apply, val_main_v45_apply, bcast_index, value_src, score_at]
  unfold msg
  rw [headOf_colOf]
  rfl

/-! ## The sums over the edges that land on a node -/

/-- A scatter-add of 4 × 16 blocks, read at (n, h, d). -/
theorem scatter_blocks_apply (z : (⟨S100000x4x16, .f32⟩ : BufTy).Contents (Elt Ideal))
    (idx : (⟨S800000x1, .i32⟩ : BufTy).Contents (Elt Ideal))
    (u : (⟨S800000x4x16, .f32⟩ : BufTy).Contents (Elt Ideal)) (n : Fin 100000) (h : Fin 4) (d : Fin 16) :
    Host.scatterAdd (F := Ideal) (φ := .f32) scatter_S100000x4x16_S800000x1_S800000x4x16_12_0_0_1 z idx u (ix3 n h d)
      = z (ix3 n h d) + ∑ b ∈ Finset.univ.filter (fun b : Fin 800000 =>
          (idx (ix2 b (0 : Fin 1))).toInt = (n.val : Int)), u (ix3 b h d) :=
  ScatterAddRows.scatterAdd_rows3_apply
    Facts₀.scatter_S100000x4x16_S800000x1_S800000x4x16_12_0_0_1_wf z idx u n h d

/-- A scatter-add of 4 × 1 blocks, read at (n, h, 0). -/
theorem scatter_heads_apply (z : (⟨S100000x4x1, .f32⟩ : BufTy).Contents (Elt Ideal))
    (idx : (⟨S800000x1, .i32⟩ : BufTy).Contents (Elt Ideal))
    (u : (⟨S800000x4x1, .f32⟩ : BufTy).Contents (Elt Ideal)) (n : Fin 100000) (h : Fin 4) (d : Fin 1) :
    Host.scatterAdd (F := Ideal) (φ := .f32) scatter_S100000x4x1_S800000x1_S800000x4x1_12_0_0_1 z idx u (ix3 n h d)
      = z (ix3 n h d) + ∑ b ∈ Finset.univ.filter (fun b : Fin 800000 =>
          (idx (ix2 b (0 : Fin 1))).toInt = (n.val : Int)), u (ix3 b h d) :=
  ScatterAddRows.scatterAdd_rows3_apply
    Facts₀.scatter_S100000x4x1_S800000x1_S800000x4x1_12_0_0_1_wf z idx u n h d

/-- The sum of the messages over the edges that land on node n. -/
theorem msg_sum (n : Fin 100000) (h : Fin 4) (d : Fin 16) :
    val_main_v49 (F := Ideal) x0 x1 x2 x3 x4 x5 x6 (ix3 n h d)
      = ∑ e ∈ landing x6 n, msg x0 x1 x2 x3 x4 x5 x6 e (colOf h d) := by
  unfold val_main_v49
  rw [scatter_blocks_apply, val_main_v47_apply, val_main_cst_8_apply]
  show Ideal.ofBits .f32 0x00000000#32 + _ = _
  rw [Ideal.ofBits_zero_f32, zero_add]
  unfold landing
  exact Finset.sum_congr (Finset.filter_congr fun b _ => by rw [dst_raw_msg]) (fun b _ => msg_at x0 x1 x2 x3 x4 x5 x6 b h d)

/-- The sum of the weights over the edges that land on node n. -/
theorem score_sum (n : Fin 100000) (h : Fin 4) :
    val_main_v52 (F := Ideal) x0 x1 x2 x3 x4 x6 (ix3 n h (0 : Fin 1))
      = ∑ e ∈ landing x6 n, score x0 x1 x2 x3 x4 x6 e h := by
  unfold val_main_v52
  rw [scatter_heads_apply, val_main_v50_apply, val_main_cst_9_apply]
  show Ideal.ofBits .f32 0x00000000#32 + _ = _
  rw [Ideal.ofBits_zero_f32, zero_add]
  unfold landing
  exact Finset.sum_congr (Finset.filter_congr fun b _ => by rw [dst_raw_score]) (fun b _ => score_at x0 x1 x2 x3 x4 x6 b h)

/-! ## The result -/

/-- The denominators broadcast along the lanes: (n, h, d) reads (n, h, 0). -/
theorem denom_index (n : Fin 100000) (h : Fin 4) (d : Fin 16) : idx_main_v55 (ix3 n h d) = ix3 n h (0 : Fin 1) :=
  funext fun a => Fin.ext (by match a with | ⟨0, _⟩ => rfl | ⟨1, _⟩ => rfl | ⟨2, _⟩ => rfl)

/-- Column c of the flattened result is lane c % 16 of head c / 16. -/
theorem out_index (n : Fin 100000) (c : Fin 64) : idx_main_v57 (ix2 n c) = ix3 n (headOf c) (laneOf c) :=
  funext fun a => Fin.ext (by
    match a with
    | ⟨0, _⟩ => show (n.val * 64 + c.val) / 64 = n.val; omega
    | ⟨1, _⟩ => show (n.val * 64 + c.val) / 16 % 4 = c.val / 16; omega
    | ⟨2, _⟩ => show (n.val * 64 + c.val) % 16 = c.val % 16; omega)

/-- The reference program's result at node n, column c, is the specification's. -/
theorem ref_out (n : Fin 100000) (c : Fin 64) :
    Cert.ReferenceIdeal.Read.val_main_v57 (F := Ideal) x0 x1 x2 x3 x4 x5 x6 (ix2 n c)
      = Cert.EdgeAttention.out x0 x1 x2 x3 x4 x5 x6 n c := by
  rw [val_main_v57_apply, out_index, val_main_v56_apply, val_main_v55_apply, denom_index, val_main_v54_apply,
    val_main_v53_apply, val_main_cst_10_apply, msg_sum, score_sum, colOf_head_lane]
  rfl

end Cert.ReferenceIdeal.RefValue

end
-- ==== Proof.lean ====
/-
  An edge-gated multi-head graph attention layer: the fused kernel program against its plain reference.

  Both programs compute, for every node n and column c (head c / 16),
      (Σ_e msg e c) / (Σ_e score e (c / 16) + ε)
  over the edges e whose destination word is n, where score is the exponential of a clipped lane sum of
  key · query · projected-edge-feature and msg is the source's value times the score (Proof/Spec.lean states it).
  The kernel program projects Q | K | V in one row-blocked product, gathers rows, computes messages and scores per
  edge block in a second kernel, and aggregates with ONE scatter-add; the reference projects separately, works in
  [·, 4, 16] layout, divides by 4 where the kernel multiplies by ¼, and aggregates with two scatter-adds.  Over the
  extended reals these are the same function: dividing by 4 is multiplying by ¼ everywhere, products commute and
  associate, a sum does not depend on its order, and a scatter-add is the sum over the updates that land.  No step
  needs the inputs finite.

  The frames (each program terminates without a fault and leaves its arguments as launched): for the two kernel
  programs from the run of @main as host stretches around the two kernel regions (Proof/Kernel*Run.lean), for the
  reference from its run with the result dropped.  The idealisation rewrote nothing, so `preserves` is trivial.
-/
import proofs.«166772_j11476152615033_2_alg».proof.Defs
import proofs.«166772_j11476152615033_2_alg».proof.Proof.Gen.Kernel
import proofs.«166772_j11476152615033_2_alg».proof.Proof.Gen.KernelIdeal
import proofs.«166772_j11476152615033_2_alg».proof.Proof.Gen.ReferenceIdeal
import proofs.«166772_j11476152615033_2_alg».proof.Proof.Gen.Pre_finite_inputs
import proofs.«166772_j11476152615033_2_alg».proof.Proof.Gen.ReferenceIdeal.Run
import proofs.«166772_j11476152615033_2_alg».proof.Proof.Gen.ReferenceIdeal.Read
import proofs.«166772_j11476152615033_2_alg».proof.Proof.KernelRun
import proofs.«166772_j11476152615033_2_alg».proof.Proof.KernelIdealRun
import proofs.«166772_j11476152615033_2_alg».proof.Proof.KernelIdealValue
import proofs.«166772_j11476152615033_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the specification's array in their result
    buffer: the kernel program by reading its last buffer back to the launch memory, the reference by reading its
    run's term one operation at a time. -/
theorem algebraic : Cert.algebraic_KernelIdeal_ReferenceIdeal := by
  intro m ρ m' ρ' _ hagree
  refine ⟨fun c => Cert.KernelIdeal.Hand.W5 m ρ c (Proc.devRef .tc Cert.KernelIdeal.main_v45), ?_, ?_⟩
  · exact (θ_run Cert.KernelIdeal.defs _ _).mono (fun r h c =>
      ⟨h c _ (Cert.KernelIdeal.Hand.mem_uc Cert.KernelIdeal.main_v45 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c),
       (h c _ (Cert.KernelIdeal.Hand.mem_uc Cert.KernelIdeal.main_arg4 (by decide))).trans (Cert.KernelIdeal.Hand.W5_main_arg4 m ρ c),
       (h c _ (Cert.KernelIdeal.Hand.mem_uc Cert.KernelIdeal.main_arg5 (by decide))).trans (Cert.KernelIdeal.Hand.W5_main_arg5 m ρ c),
       (h c _ (Cert.KernelIdeal.Hand.mem_uc Cert.KernelIdeal.main_arg6 (by decide))).trans (Cert.KernelIdeal.Hand.W5_main_arg6 m ρ c)⟩)
      (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v57_eq, (hagree c).1, (hagree c).2.1, (hagree c).2.2.1, (hagree c).2.2.2.1,
      (hagree c).2.2.2.2.1, (hagree c).2.2.2.2.2.1, (hagree c).2.2.2.2.2.2]
    funext i
    obtain ⟨n, j, rfl⟩ : ∃ (n : Fin 100000) (j : Fin 64), i = ix2 n j := ⟨i 0, i 1, eq_ix2 i⟩
    exact (Cert.ReferenceIdeal.RefValue.ref_out _ _ _ _ _ _ _ n j).trans (Cert.KernelIdeal.Hand.kernel_out m ρ c n j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
